-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩

abbrev nBuf : Space → Nat
  | .hbm => 103
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .i32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .i32⟩
  | .hbm, ⟨53, _⟩ => ⟨S100000x1, .f32⟩
  | .hbm, ⟨54, _⟩ => ⟨S100000x64, .bf16⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x64, .bf16⟩
  | .hbm, ⟨64, _⟩ => ⟨S3300000x64, .f32⟩
  | .hbm, ⟨65, _⟩ => ⟨S_, .f32⟩
  | .hbm, ⟨66, _⟩ => ⟨S100000x64, .f32⟩
  | .hbm, ⟨67, _⟩ => ⟨S3300000x1, .i32⟩
  | .hbm, ⟨68, _⟩ => ⟨S100000x64, .f32⟩
  | .hbm, ⟨69, _⟩ => ⟨S1x64, .f32⟩
  | .hbm, ⟨70, _⟩ => ⟨S100000x64, .bf16⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x64, .bf16⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .bf16⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x64, .bf16⟩
  | .hbm, ⟨96, _⟩ => ⟨S3300000x64, .f32⟩
  | .hbm, ⟨97, _⟩ => ⟨S_, .f32⟩
  | .hbm, ⟨98, _⟩ => ⟨S100000x64, .f32⟩
  | .hbm, ⟨99, _⟩ => ⟨S3300000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S1x64, .f32⟩
  | .local _ .vmem, ⟨10, _⟩ => ⟨S4000x1, .f32⟩
  | .local _ .vmem, ⟨11, _⟩ => ⟨S4000x1, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x1, .f32⟩
  | .local _ .vmem, ⟨19, _⟩ => ⟨S4000x1, .f32⟩
  | .local _ .vmem, ⟨20, _⟩ => ⟨S64x64, .f32⟩
  | .local _ .vmem, ⟨21, _⟩ => ⟨S4000x64, .bf16⟩
  | .local _ .vmem, ⟨22, _⟩ => ⟨S4000x64, .bf16⟩
  | .local _ .vmem, ⟨23, _⟩ => ⟨S4000x64, .f32⟩
  | .local _ .vmem, ⟨24, _⟩ => ⟨S4000x64, .f32⟩
  | .local _ .vmem, ⟨25, _⟩ => ⟨S1x64, .f32⟩
  | .local _ .vmem, ⟨26, _⟩ => ⟨S4000x1, .f32⟩
  | .local _ .vmem, ⟨27, _⟩ => ⟨S4000x1, .f32⟩
  | .local _ .vmem, ⟨28, _⟩ => ⟨S4000x64, .f32⟩
  | .local _ .vmem, ⟨29, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_call1_v0 : Ref sig .tc := ⟨.hbm, 32, rfl⟩
abbrev main_call1_v1_0 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  gather_S3300000_S3300000x1_S3300000_n_0_n_n_0_1_1_wf : GatherDims.WF S3300000 S3300000x1 S3300000 [] [0] [] [0] [] 1 ![1]
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .bf16 = 32 ∨ (Rect.block (s := S100000x64) S4000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def comparator_i32_i32_d0 : BitVec 32 × BitVec 32 → BitVec 32 × BitVec 32 → BitVec 1 :=
  fun l r =>
    let v2 := IntOp.cmpi .slt l.1 r.1
    v2
def gather_S3300000_S3300000x1_S3300000_n_0_n_n_0_1_1 : GatherDims S3300000 S3300000x1 S3300000 where
  offsetDims := []
  collapsedSliceDims := [0]
  operandBatchingDims := []
  startIndicesBatchingDims := []
  startIndexMap := [0]
  indexVectorDim := 1
  sliceSizes := ![1]
  wf := gather_S3300000_S3300000x1_S3300000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v70) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x64, .f32⟩
  | .hbm, ⟨84, _⟩ => ⟨S3300000x1, .f32⟩
  | .hbm, ⟨85, _⟩ => ⟨S3300000x64, .f32⟩
  | .hbm, ⟨86, _⟩ => ⟨S3300000x64, .f32⟩
  | .hbm, ⟨87, _⟩ => ⟨S_, .f32⟩
  | .hbm, ⟨88, _⟩ => ⟨S100000x64, .f32⟩
  | .hbm, ⟨89, _⟩ => ⟨S3300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000x64, .f32⟩
  | .hbm, ⟨107, _⟩ => ⟨S3300000x1, .f32⟩
  | .hbm, ⟨108, _⟩ => ⟨S3300000x64, .f32⟩
  | .hbm, ⟨109, _⟩ => ⟨S3300000x64, .f32⟩
  | .hbm, ⟨110, _⟩ => ⟨S_, .f32⟩
  | .hbm, ⟨111, _⟩ => ⟨S100000x64, .f32⟩
  | .hbm, ⟨112, _⟩ => ⟨S3300000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result array named. Every weakly fair execution of the program terminates without
  a fault; in the final state the result buffer holds what the last region's write-backs leave at the end of the
  chain of boundary contents (the launch memory pushed through each stretch of host operations and each region in
  turn), and the eight argument arrays are as launched. The run is the chain of segments the frame is proved over:
  the final thread state holds every unscoped buffer at the last boundary's contents, and the result buffer is one
  of them.
-/
import proofs.«113922_j7919919694018_2_alg».proof.Proof.Gen.KernelIdeal.Frame

set_option maxRecDepth 16384

noncomputable section

namespace Cert.Bridge.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.Bridge.KRun

end
-- ==== Proof.LibRowGather.lean ====
/-
  A row gather read at an index. For an operand of N rows and C columns and one start index per result row
  (start indices of shape [E, 1]), the gather that collapses the row axis and keeps whole rows (what x[idx] lowers
  to for a two-dimensional x) reads, at result entry (e, q), the operand's entry (r, q), where r is the start index
  of row e read as a signed integer and clamped into [0, N - 1]. Any extents, any element type, any index width.
-/
import Idealize.ShloMosaic.PureOps.ShapeOps
import Idealize.ShloMosaic.Lib.ValueIdx

noncomputable section

namespace Cert.Bridge.RowGather

open Idealize.ShloMosaic Idealize.ShloMosaic.ValueIdx

variable {α : Type}

/-- The dimension numbers of a row gather: operand [N, C], start indices [E, 1], result [E, C]; the row axis is
    collapsed and addressed by the one component of the start index, the column axis is kept whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index addresses: the index read signed, clamped into [0, N - 1]. -/
def rowOf {N w : Nat} (hN : 0 < N) (v : BitVec w) : Fin N := ⟨min v.toInt.toNat (N - 1), by omega⟩

/-- The gather at (e, q) is the operand at (the clamped start index of row e, q). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf hN (idx (ix2 e (0 : Fin 1)))) q) := by
  have hne : ¬ ((1 : Fin 2) = 0) := by decide
  -- the row coordinate: the clamped start; no batching coordinate, no offset on a collapsed axis
  have h0 : ((rowDims N C E wf).operandIdx (ix2 e q) idx 0).val = min (idx (ix2 e (0 : Fin 1))).toInt.toNat (N - 1) := by
    show (rowDims N C E wf).start (ix2 e q) idx 0 + (rowDims N C E wf).batchCoord (ix2 e q) 0
        + (rowDims N C E wf).offCoord (ix2 e q) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start (the axis is not addressed), no batching, the result's own column as offset
  have h1 : ((rowDims N C E wf).operandIdx (ix2 e q) idx 1).val = q.val := by
    show (rowDims N C E wf).start (ix2 e q) idx 1 + (rowDims N C E wf).batchCoord (ix2 e q) 1
        + (rowDims N C E wf).offCoord (ix2 e q) 1 = _
    rw [GatherDims.batchCoord_eq_zero _ _ _ List.not_mem_nil]
    unfold GatherDims.start
    rw [dif_neg (show (1 : Fin 2) ∉ (rowDims N C E wf).startIndexMap from
      fun h => hne (List.mem_singleton.mp h))]
    unfold GatherDims.offCoord
    rw [dif_pos (show (1 : Fin 2) ∈ (rowDims N C E wf).sKept from
      (GatherDims.mem_sKept _ _).mpr ⟨fun h => hne (List.mem_singleton.mp h), List.not_mem_nil⟩)]
    simp only [Nat.zero_add, Nat.add_zero]
    rfl
  unfold Host.gather
  congr 1
  funext a
  refine Fin.ext ?_
  match a with
  | ⟨0, _⟩ => exact h0
  | ⟨1, _⟩ => exact h1

end Cert.Bridge.RowGather

end
-- ==== Proof.LibSegmentSum.lean ====
/-
  Sums by segment. At the extended reals the accumulating scatter is an exact sum: every operand entry plus the sum
  of the update entries landing on it. This file reads a ROW scatter (operand of N rows and C columns, one scatter
  index per update row, update row e added to the operand row its index names) at an entry as the sum, over the
  update rows whose index is that row, of their entries in that column; shows that summing projected rows by
  segment is projecting the rows summed by segment (the entries summed being non-negative, the projection's
  weights arbitrary extended reals); and shows that dividing by the larger of a count of ones and 1 is multiplying
  by a non-negative real. Any extents, any index width.
-/
import Idealize.ShloMosaic.PureOps.Ideal
import Idealize.ShloMosaic.PureOps.Ideal.Laws
import Idealize.ShloMosaic.PureOps.ShapeOps
import Idealize.ShloMosaic.Lib.ValueIdx
import proofs.«113922_j7919919694018_2_alg».proof.Proof.LibRowGather

noncomputable section

namespace Cert.Lib.SegmentSum

open Idealize.ShloMosaic Idealize.ShloMosaic.ValueIdx
open scoped BigOperators

/-- An update index lands on operand index i exactly when, on every operand axis, its start plus its window
    coordinate is i's coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro heq a
      have h' := Option.some.inj heq
      rw [← h']
      exact (Int.toNat_of_nonneg (h a).1).symm
    · intro hall
      congr 1
      funext a
      refine Fin.ext ?_
      show (d.start j idx a + (d.window j a : Int)).toNat = (i a).val
      rw [hall a]
      exact Int.toNat_natCast _
  · constructor
    · intro heq; cases heq
    · intro hall
      exfalso
      apply h
      intro a
      rw [hall a]
      exact ⟨Int.natCast_nonneg _, Int.ofNat_lt.mpr (i a).isLt⟩

/-- The dimension numbers of a row scatter: operand [N, C], scatter indices [E, 1], updates [E, C]; update row e is
    added to the operand row its one index component names, column by column. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows

variable {N C E w : Nat} (wf : ScatterDims.WF ⟨2, ![N, C]⟩ ⟨2, ![E, 1]⟩ ⟨2, ![E, C]⟩ [1] [0] [0] 1)

/-- On the row axis the window of update (e, q') starts at the scatter index of update row e, read signed. -/
theorem start_row (idx : IVec ⟨2, ![E, 1]⟩ w) (e : Fin E) (q' : Fin C) :
    (rowDims N C E wf).start (ix2 e q') idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e q') ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, every window starts at 0. -/
theorem start_col (idx : IVec ⟨2, ![E, 1]⟩ w) (j : (⟨2, ![E, C]⟩ : Shape).Idx) :
    (rowDims N C E wf).start j idx 1 = 0 := by
  unfold ScatterDims.start
  rw [dif_neg (show (1 : Fin 2) ∉ (rowDims N C E wf).scatterDimsToOperandDims from
    fun h => (show ¬ ((1 : Fin 2) = 0) by decide) (List.mem_singleton.mp h))]

/-- The row axis is an inserted axis: the window coordinate there is 0. -/
theorem window_row (j : (⟨2, ![E, C]⟩ : Shape).Idx) : (rowDims N C E wf).window j 0 = 0 := by
  unfold ScatterDims.window
  rw [dif_neg (show (0 : Fin 2) ∉ (rowDims N C E wf).sKept from
    fun h => of_decide_eq_true (List.mem_filter.mp h).2 (List.mem_singleton.mpr rfl))]

/-- On the column axis the window coordinate of update (e, q') is q'. -/
theorem window_col (e : Fin E) (q' : Fin C) : (rowDims N C E wf).window (ix2 e q') 1 = q'.val := by
  unfold ScatterDims.window
  rw [dif_pos (show (1 : Fin 2) ∈ (rowDims N C E wf).sKept from
    List.mem_filter.mpr ⟨List.mem_finRange _, decide_eq_true (fun h => (show ¬ ((1 : Fin 2) = 0) by decide) (List.mem_singleton.mp h))⟩)]
  rfl

/-- Update (e, q') lands on operand entry (n, q) exactly when the scatter index of update row e is n and q' = q. -/
theorem lands_iff (idx : IVec ⟨2, ![E, 1]⟩ w) (e : Fin E) (q' : Fin C) (n : Fin N) (q : Fin C) :
    (rowDims N C E wf).resultIdx? (ix2 e q') idx = some (ix2 n q)
      ↔ ((idx (ix2 e (0 : Fin 1))).toInt = (n.val : Int) ∧ q' = q) := by
  refine (resultIdx?_eq_some_iff _ _ _ _).trans (Fin.forall_fin_two.trans ?_)
  show ((rowDims N C E wf).start (ix2 e q') idx 0 + ((rowDims N C E wf).window (ix2 e q') 0 : Int) = (n.val : Int)
      ∧ (rowDims N C E wf).start (ix2 e q') idx 1 + ((rowDims N C E wf).window (ix2 e q') 1 : Int) = (q.val : Int)) ↔ _
  rw [start_row, start_col, window_row, window_col]
  constructor
  · rintro ⟨h0, h1⟩
    exact ⟨by simpa using h0, Fin.ext (by simpa using h1)⟩
  · rintro ⟨h0, rfl⟩
    exact ⟨by simpa using h0, by simp⟩

/-- The row scatter at (n, q): the operand's entry plus the sum, over the update rows whose scatter index (read
    signed) is n, of their entries in column q. Update rows whose index names no row of the operand contribute
    nowhere. -/
theorem scatterAdd_rows_apply (x : (⟨2, ![N, C]⟩ : Shape).Idx → EReal) (idx : IVec ⟨2, ![E, 1]⟩ w)
    (u : (⟨2, ![E, C]⟩ : Shape).Idx → EReal) (n : Fin N) (q : Fin C) :
    Host.scatterAdd (F := Ideal) (φ := .f32) (rowDims N C E wf) x idx u (ix2 n q)
      = x (ix2 n q) + ∑ e ∈ Finset.univ.filter (fun e : Fin E => (idx (ix2 e (0 : Fin 1))).toInt = (n.val : Int)),
          u (ix2 e q) := by
  show x (ix2 n q) + ∑ j ∈ Finset.univ.filter (fun j => (rowDims N C E wf).resultIdx? j idx = some (ix2 n q)), u j = _
  congr 1
  rw [Finset.sum_filter, sum_idx2, Finset.sum_filter]
  refine Finset.sum_congr rfl (fun e _ => ?_)
  simp only [lands_iff]
  by_cases hc : (idx (ix2 e (0 : Fin 1))).toInt = (n.val : Int)
  · simp [hc]
  · simp [hc]

end Rows

/-- A sum of non-negative extended reals times any extended real is the sum of the products: multiplication
    distributes from the right over sums of non-negative terms, whatever the factor. -/
theorem sum_mul_of_nonneg {ι : Type*} (s : Finset ι) (a : ι → EReal) (ha : ∀ i ∈ s, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih (fun j hj => ha j (Finset.mem_insert_of_mem hj))]

/-- Summing projected rows by segment is projecting the rows summed by segment. With H non-negative, P = H · W
    entrywise as sums over the inner axis (W any extended reals), rows gathered at src and scattered into zeros at
    dst: at node n and column q both sides are the sum over the edges e with dst e = n and over the inner index k of
    H[row(src e), k] · W[k, q]; the two finite sums are exchanged and W[k, q] is taken out of the sum over the
    edges, whose terms are non-negative. -/
theorem segment_project {N K Q E w : Nat} (hN : 0 < N)
    (wfK : ScatterDims.WF ⟨2, ![N, K]⟩ ⟨2, ![E, 1]⟩ ⟨2, ![E, K]⟩ [1] [0] [0] 1)
    (wfQ : ScatterDims.WF ⟨2, ![N, Q]⟩ ⟨2, ![E, 1]⟩ ⟨2, ![E, Q]⟩ [1] [0] [0] 1)
    (wgK : GatherDims.WF ⟨2, ![N, K]⟩ ⟨2, ![E, 1]⟩ ⟨2, ![E, K]⟩ [1] [0] [] [0] [] 1 ![1, K])
    (wgQ : GatherDims.WF ⟨2, ![N, Q]⟩ ⟨2, ![E, 1]⟩ ⟨2, ![E, Q]⟩ [1] [0] [] [0] [] 1 ![1, Q])
    (H : (⟨2, ![N, K]⟩ : Shape).Idx → EReal) (hH : ∀ i, 0 ≤ H i) (W : (⟨2, ![K, Q]⟩ : Shape).Idx → EReal)
    (P : (⟨2, ![N, Q]⟩ : Shape).Idx → EReal)
    (hP : ∀ (m : Fin N) (q : Fin Q), P (ix2 m q) = ∑ k : Fin K, H (ix2 m k) * W (ix2 k q))
    (ZK : (⟨2, ![N, K]⟩ : Shape).Idx → EReal) (hZK : ∀ i, ZK i = 0)
    (ZQ : (⟨2, ![N, Q]⟩ : Shape).Idx → EReal) (hZQ : ∀ i, ZQ i = 0)
    (src dst : IVec ⟨2, ![E, 1]⟩ w) (n : Fin N) (q : Fin Q) :
    Host.scatterAdd (F := Ideal) (φ := .f32) (rowDims N Q E wfQ) ZQ dst
        (Host.gather (Cert.Bridge.RowGather.rowDims N Q E wgQ) P src) (ix2 n q)
      = ∑ k : Fin K, Host.scatterAdd (F := Ideal) (φ := .f32) (rowDims N K E wfK) ZK dst
          (Host.gather (Cert.Bridge.RowGather.rowDims N K E wgK) H src) (ix2 n k) * W (ix2 k q) := by
  rw [scatterAdd_rows_apply wfQ, hZQ, zero_add]
  refine (Finset.sum_congr rfl (fun e _ =>
    (Cert.Bridge.RowGather.gather_rows_apply hN wgQ P src e q).trans (hP _ _))).trans ?_
  rw [Finset.sum_comm]
  refine Finset.sum_congr rfl (fun k _ => ?_)
  have hk : Host.scatterAdd (F := Ideal) (φ := .f32) (rowDims N K E wfK) ZK dst
        (Host.gather (Cert.Bridge.RowGather.rowDims N K E wgK) H src) (ix2 n k)
      = ∑ e ∈ Finset.univ.filter (fun e : Fin E => (dst (ix2 e (0 : Fin 1))).toInt = (n.val : Int)),
          H (ix2 (Cert.Bridge.RowGather.rowOf hN (src (ix2 e (0 : Fin 1)))) k) := by
    rw [scatterAdd_rows_apply wfK, hZK, zero_add]
    exact Finset.sum_congr rfl (fun e _ => Cert.Bridge.RowGather.gather_rows_apply hN wgK H src e k)
  rw [hk, sum_mul_of_nonneg _ _ (fun e _ => hH _)]

/-- A sum of ones over a finite set is a natural number, so a scatter of ones into zeros holds a count at every
    index; the larger of a count and 1 is a real at least 1, and dividing by it is multiplying by its reciprocal,
    a non-negative real. -/
theorem degree_reciprocal {s si u : Shape} {w : Nat} (d : ScatterDims s si u) (Z : s.Idx → EReal) (hZ : ∀ i, Z i = 0)
    (idx : IVec si w) (O : u.Idx → EReal) (hO : ∀ j, O j = 1) (i : s.Idx) :
    ∃ c : ℝ, 0 ≤ c ∧ Ideal.div 1 (max (Host.scatterAdd (F := Ideal) (φ := .f32) d Z idx O i) 1) = (c : EReal)
      ∧ ∀ a : EReal, Ideal.div a (max (Host.scatterAdd (F := Ideal) (φ := .f32) d Z idx O i) 1) = a * (c : EReal) := by
  have hval : Host.scatterAdd (F := Ideal) (φ := .f32) d Z idx O i
      = (((Finset.univ.filter (fun j => d.resultIdx? j idx = some i)).card : ℝ) : EReal) := by
    show Z i + ∑ j ∈ Finset.univ.filter (fun j => d.resultIdx? j idx = some i), O j = _
    rw [hZ i, zero_add, Finset.sum_congr rfl (fun j _ => hO j)]
    simp
  rw [hval]
  set t : ℝ := ((Finset.univ.filter (fun j => d.resultIdx? j idx = some i)).card : ℝ) with ht
  have hmax : max (t : EReal) 1 = ((max t 1 : ℝ) : EReal) := by
    exact (EReal.coe_strictMono.monotone.map_max (a := t) (b := 1)).symm
  rw [hmax]
  have hpos : (0 : ℝ) < max t 1 := lt_of_lt_of_le one_pos (le_max_right _ _)
  refine ⟨1 / max t 1, by positivity, ?_, ?_⟩
  · rw [Ideal.div_coe hpos.ne', one_mul]
  · intro a
    exact Ideal.div_coe hpos.ne' a

end Cert.Lib.SegmentSum

end
-- ==== Proof.LibVecIndex.lean ====
/-
  A vector gather and a vector accumulation read at an index. For an operand of N entries and one start index per
  result entry (start indices of shape [E, 1]): the gather that collapses the one axis (what x[idx] lowers to for a
  one-dimensional x) reads, at result entry e, the operand's entry at the start index of e read as a signed integer
  and clamped into [0, N - 1]; the accumulating scatter of E updates (what x.at[idx].add(u) and a segment sum lower to)
  holds, at operand entry n, the operand's entry plus the sum of the updates whose index read signed is n, on the
  extended reals. Any extents, any index width.
-/
import Idealize.ShloMosaic.PureOps.Ideal
import Idealize.ShloMosaic.PureOps.Ideal.Laws
import Idealize.ShloMosaic.PureOps.ShapeOps
import Idealize.ShloMosaic.Lib.ValueIdx
import proofs.«113922_j7919919694018_2_alg».proof.Proof.LibRowGather
import proofs.«113922_j7919919694018_2_alg».proof.Proof.LibSegmentSum

noncomputable section

namespace Cert.Lib.VecIndex

open Idealize.ShloMosaic Idealize.ShloMosaic.ValueIdx Cert.Bridge
open scoped BigOperators

variable {α : Type}

/-- The dimension numbers of a vector gather: operand [N], start indices [E, 1], result [E]. -/
abbrev gatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at e is the operand at the clamped start index of e. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims N E wf) x idx (ix1 e) = x (ix1 (RowGather.rowOf hN (idx (ix2 e (0 : Fin 1))))) := by
  -- the one operand coordinate: the clamped start; no batching coordinate, no offset on a collapsed axis
  have h0 : ((gatherDims N E wf).operandIdx (ix1 e) idx 0).val = min (idx (ix2 e (0 : Fin 1))).toInt.toNat (N - 1) := by
    show (gatherDims N E wf).start (ix1 e) idx 0 + (gatherDims N E wf).batchCoord (ix1 e) 0
        + (gatherDims N E wf).offCoord (ix1 e) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (gatherDims N E wf).startIndexMap from List.mem_singleton.mpr rfl)]
    have hsi : (gatherDims N E wf).siIdx (ix1 e) ⟨List.idxOf (0 : Fin 1) (gatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  obtain rfl : a = 0 := Subsingleton.elim _ _
  exact Fin.ext h0

/-- The dimension numbers of a vector accumulation: operand [N], scatter indices [E, 1], updates [E]. -/
abbrev scatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An index of a vector is its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N E w : Nat} (wf : ScatterDims.WF ⟨1, ![N]⟩ ⟨2, ![E, 1]⟩ ⟨1, ![E]⟩ [] [0] [0] 1)

/-- The window of update e starts at the scatter index of e, read signed. -/
theorem start_vec (idx : IVec ⟨2, ![E, 1]⟩ w) (e : Fin E) :
    (scatterDims N E wf).start (ix1 e) idx 0 = (idx (ix2 e (0 : Fin 1))).toInt := by
  unfold ScatterDims.start
  rw [dif_pos (show (0 : Fin 1) ∈ (scatterDims N E wf).scatterDimsToOperandDims from List.mem_singleton.mpr rfl)]
  have hsi : (scatterDims N E wf).siIdx (ix1 e) ⟨List.idxOf (0 : Fin 1) (scatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem window_vec (j : (⟨1, ![E]⟩ : Shape).Idx) : (scatterDims N E wf).window j 0 = 0 := by
  unfold ScatterDims.window
  rw [dif_neg (show (0 : Fin 1) ∉ (scatterDims N E wf).sKept from
    fun h => of_decide_eq_true (List.mem_filter.mp h).2 (List.mem_singleton.mpr rfl))]

/-- Update e lands on operand entry n exactly when its scatter index, read signed, is n. -/
theorem lands_iff_vec (idx : IVec ⟨2, ![E, 1]⟩ w) (e : Fin E) (n : Fin N) :
    (scatterDims N E wf).resultIdx? (ix1 e) idx = some (ix1 n) ↔ (idx (ix2 e (0 : Fin 1))).toInt = (n.val : Int) := by
  refine (Cert.Lib.SegmentSum.resultIdx?_eq_some_iff _ _ _ _).trans ?_
  constructor
  · intro h
    have h0 := h 0
    rw [start_vec, window_vec] at h0
    simp only [Nat.cast_zero, add_zero] at h0
    exact h0
  · intro h a
    obtain rfl : a = 0 := Subsingleton.elim _ _
    rw [start_vec, window_vec]
    simp only [Nat.cast_zero, add_zero]
    exact h

end Vec

/-- The accumulation at n: the operand's entry plus the sum of the updates whose index (read signed) is n. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Host.scatterAdd (F := Ideal) (φ := .f32) (scatterDims N E wf) x idx u (ix1 n)
      = x (ix1 n) + ∑ e ∈ Finset.univ.filter (fun e : Fin E => (idx (ix2 e (0 : Fin 1))).toInt = (n.val : Int)), u (ix1 e) := by
  show x (ix1 n) + ∑ j ∈ Finset.univ.filter (fun j => (scatterDims N E wf).resultIdx? j idx = some (ix1 n)), u j = _
  congr 1
  rw [Finset.sum_filter, sum_idx1, Finset.sum_filter]
  refine Finset.sum_congr rfl (fun e _ => ?_)
  simp only [lands_iff_vec]

end Cert.Lib.VecIndex

end
-- ==== Proof.Edges.lean ====
/-
  The graph's index arrays and the two ways a layer sums over the edges, as host-operation terms over literal shapes.

  The edge list is a 2 × 3200000 array of node indices (row 0 the sources, row 1 the destinations); a self-loop is
  added for every one of the 100000 nodes, giving 3300000 edges. The degree of a node is the number of edges whose
  destination index is that node; its factor is the reciprocal square root of (the larger of the degree and 1) where
  the degree is positive, and zero elsewhere. One program also sorts the edges by destination (a permutation of the
  edge positions) before it sums over them. This file only NAMES these terms; the files that import it read them
  at an index.
-/
import Idealize.ShloMosaic.PureOps.Ideal
import Idealize.ShloMosaic.PureOps.ShapeOps
import Idealize.ShloMosaic.Lib.ValueIdx
import proofs.«113922_j7919919694018_2_alg».proof.Proof.LibRowGather
import proofs.«113922_j7919919694018_2_alg».proof.Proof.LibSegmentSum
import proofs.«113922_j7919919694018_2_alg».proof.Proof.LibVecIndex

noncomputable section

namespace Cert.Bridge.Edges

open Idealize.ShloMosaic Idealize.ShloMosaic.ValueIdx

/-! ## Shapes -/

abbrev SEI : Shape := ⟨2, ![2, 3200000]⟩     -- the edge list
abbrev SRow : Shape := ⟨2, ![1, 3200000]⟩    -- one of its rows, kept two-dimensional
abbrev SE0 : Shape := ⟨1, ![3200000]⟩        -- that row as a vector
abbrev SN : Shape := ⟨1, ![100000]⟩          -- one entry per node
abbrev SE : Shape := ⟨1, ![3300000]⟩         -- one entry per edge, self-loops included
abbrev SE1 : Shape := ⟨2, ![3300000, 1]⟩     -- the same as a column
abbrev S0 : Shape := ⟨0, ![]⟩                -- a scalar
abbrev SNC : Shape := ⟨2, ![100000, 64]⟩     -- node features
abbrev SEC : Shape := ⟨2, ![3300000, 64]⟩    -- one feature row per edge

/-! ## Side conditions of the shapes, each decided once -/

theorem slices0 : SEI.Slices ![0, 0] SRow := by decide
theorem slices1 : SEI.Slices ![1, 0] SRow := by decide
theorem castRow : SRow.ShapeCasts SE0 := by decide
theorem concat : Shape.Concatenates [SE0, SN] SE 0 := by decide
theorem bc0E : S0.BroadcastsInDim SE (![] : Fin 0 → Fin SE.rank) := by decide
theorem bc0N : S0.BroadcastsInDim SN (![] : Fin 0 → Fin SN.rank) := by decide
theorem bc0NC : S0.BroadcastsInDim SNC (![] : Fin 0 → Fin SNC.rank) := by decide
theorem bcCol : SE.BroadcastsInDim SE1 (![0] : Fin 1 → Fin SE1.rank) := by decide
theorem bcColC : SE1.BroadcastsInDim SEC (![0, 1] : Fin 2 → Fin SEC.rank) := by decide
theorem wfScatN : ScatterDims.WF SN SE1 SE [] [0] [0] 1 := by decide
theorem wfGathN : GatherDims.WF SN SE1 SE [] [0] [] [0] [] 1 ![1] := by decide
theorem wfGathE : GatherDims.WF SE SE1 SE [] [0] [] [0] [] 1 ![1] := by decide
theorem wfScatNC : ScatterDims.WF SNC SE1 SEC [1] [0] [0] 1 := by decide
theorem wfGathNC : GatherDims.WF SNC SE1 SEC [1] [0] [] [0] [] 1 ![1, 64] := by decide

/-! ## The index arrays -/

/-- Row r of the edge list followed by the node numbers 0 … 99999 (the self-loops). -/
def endsOf (r : Nat) (hs : SEI.Slices ![r, 0] SRow) (x1 : IVec SEI 32) : IVec SE 32 :=
  concatenate SE 0 [⟨SE0, shapeCast SE0 (extractStridedSlice SRow ![r, 0] x1 hs) castRow⟩, ⟨SN, iotaInDim SN 32 0⟩] concat

/-- The source index of every edge. -/
def srcOf (x1 : IVec SEI 32) : IVec SE 32 := endsOf 0 slices0 x1
/-- The destination index of every edge. -/
def dstOf (x1 : IVec SEI 32) : IVec SE 32 := endsOf 1 slices1 x1

/-- An index vector as a column of start indices. -/
def col (v : IVec SE 32) : IVec SE1 32 := broadcastInDim SE1 ![0] bcCol v

/-- Every entry with k added where it is negative (the wrap of negative indices by an extent k). -/
def wrapVec (k : BitVec 32) (v : IVec SE 32) : IVec SE 32 :=
  select (cmpi .slt v (broadcastInDim SE ![] bc0E (constantI S0 32 0#32)))
    (addi v (broadcastInDim SE ![] bc0E (constantI S0 32 k))) v

/-! ## Degrees and node factors -/

/-- The number of edges ending in each node: ones summed by destination into zeros. -/
def degOf (dst : IVec SE 32) : FVec Ideal SN .f32 :=
  Host.scatterAdd (Cert.Lib.VecIndex.scatterDims 100000 3300000 wfScatN)
    (broadcastInDim SN ![] bc0N (constant S0 .f32 0x00000000#32)) (col dst)
    (broadcastInDim SE ![] bc0E (constant S0 .f32 0x3F800000#32))

/-- The factor of each node: the reciprocal square root of max(degree, 1) where the degree is above zero, else zero. -/
def disOf (dst : IVec SE 32) : FVec Ideal SN .f32 :=
  select (cmpf .ogt (degOf dst) (broadcastInDim SN ![] bc0N (constant S0 .f32 0x00000000#32)))
    (Host.rsqrt (maximumf (degOf dst) (broadcastInDim SN ![] bc0N (constant S0 .f32 0x3F800000#32))))
    (broadcastInDim SN ![] bc0N (id (constant S0 .f32 0x00000000#32)))

/-! ## Sorting the edges by destination -/

/-- The edge positions in the order a stable sort of the destinations (by any comparator of key-position pairs)
    lists them: position j of the result holds the position of the edge that sorts j-th. -/
def ordOf (cmp : BitVec 32 × BitVec 32 → BitVec 32 × BitVec 32 → BitVec 1) (dst : IVec SE 32) : IVec SE 32 :=
  (Host.sort2 SE 0 cmp dst (iotaInDim SE 32 0)).2

/-- An edge array read in the sorted order: gathered at the (wrapped) sorted positions. -/
def sortedOf (a : IVec SE 32) (ord : IVec SE 32) : IVec SE 32 :=
  Host.gather (Cert.Lib.VecIndex.gatherDims 3300000 3300000 wfGathE) a (col (wrapVec 3300000#32 ord))

/-! ## A layer's sum over the edges, both ways -/

/-- Node-normalised: the rows of h (already scaled, stored in the short float format) gathered at the edges'
    sources and summed by destination into zeros. -/
def aggArr (h : FVec Ideal SNC .bf16) (bl : FTy.bits .bf16 < FTy.bits .f32) (src dst : IVec SE 32) : FVec Ideal SNC .f32 :=
  Host.scatterAdd (Cert.Lib.SegmentSum.rowDims 100000 64 3300000 wfScatNC)
    (broadcastInDim SNC ![] bc0NC (constant S0 .f32 0x00000000#32)) (col dst)
    (extf .f32 (Host.gather (Cert.Bridge.RowGather.rowDims 100000 64 3300000 wfGathNC) h (col (wrapVec 100000#32 src))) bl)

/-- The weight of each edge: the product of the factors of its two end nodes. -/
def normOf (dis : FVec Ideal SN .f32) (src dst : IVec SE 32) : FVec Ideal SE .f32 :=
  mulf (Host.gather (Cert.Lib.VecIndex.gatherDims 100000 3300000 wfGathN) dis (col (wrapVec 100000#32 src)))
    (Host.gather (Cert.Lib.VecIndex.gatherDims 100000 3300000 wfGathN) dis (col (wrapVec 100000#32 dst)))

/-- Edge-normalised: the rows of H gathered at the edges' sources, each scaled by its edge's weight, summed by
    destination into zeros. -/
def msgArr (H : FVec Ideal SNC .f32) (norm : FVec Ideal SE .f32) (src dst : IVec SE 32) : FVec Ideal SNC .f32 :=
  Host.scatterAdd (Cert.Lib.SegmentSum.rowDims 100000 64 3300000 wfScatNC)
    (broadcastInDim SNC ![] bc0NC (constant S0 .f32 0x00000000#32)) (col dst)
    (mulf (Host.gather (Cert.Bridge.RowGather.rowDims 100000 64 3300000 wfGathNC) H (col (wrapVec 100000#32 src)))
      (broadcastInDim SEC ![0, 1] bcColC (broadcastInDim SE1 ![0] bcCol norm)))

end Cert.Bridge.Edges

end
-- ==== Proof.LibScaleSum.lean ====
/-
  A non-negative finite factor moves across a finite sum on the extended reals.

  Multiplication on the extended reals does not distribute over addition in general (⊤ + ⊥ = ⊥ breaks it for factors of
  mixed sign), but for a factor `c` with `0 ≤ c` and `c ≠ ⊤` it does, at every pair of summands, infinite ones
  included. Hence `(∑ f) * c = ∑ (f * c)` over any finite index set, and a bilinear sum whose left factors are each
  scaled by `c` is the unscaled sum times `c`: `∑ (a i * c) * b i = (∑ a i * b i) * c`. No summand need be finite.

  The f32 word `0x3E800000` denotes the real 1/4, which is such a factor.
-/
import Idealize.ShloMosaic.PureOps.Ideal

noncomputable section

namespace Cert.LibScaleSum

open Idealize.ShloMosaic

/-- A finite sum times a non-negative finite factor is the sum of the scaled terms, on all extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Scaling every left factor of a bilinear sum by such a `c` scales the sum: `∑ (a i * c) * b i = (∑ a i * b i) * c`. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [sum_mul_of_nonneg_of_ne_top s _ h0 ht]
  exact Finset.sum_congr rfl fun i _ => mul_right_comm _ _ _

/-- The f32 word `0x3E800000` denotes the real 1/4. -/
theorem ofBits_quarter : Ideal.ofBits .f32 0x3E800000#32 = ((1 / 4 : ℝ) : EReal) := by
  simp [Ideal.ofBits, Ideal.ieee, -EReal.coe_mul]; norm_num

theorem quarter_nonneg : (0 : EReal) ≤ Ideal.ofBits .f32 0x3E800000#32 := by
  rw [ofBits_quarter]; exact_mod_cast (by norm_num : (0 : ℝ) ≤ 1 / 4)

theorem quarter_ne_top : Ideal.ofBits .f32 0x3E800000#32 ≠ ⊤ := by
  rw [ofBits_quarter]; exact EReal.coe_ne_top _

end Cert.LibScaleSum

end
-- ==== Proof.Spec.lean ====
/-
  Three graph-convolution layers as sums over the edges, on the extended reals.

  A graph on N nodes has E edges; edge e carries the row `s e` of its source and lands on the node of its
  destination: `land n` is the set of edges ending in node n. Every node has a factor `d n`, non-negative and not
  +infinity (the reciprocal square root of its degree, or zero). A layer takes node features `v`, maps every row by
  a matrix `W` (`lin`), and sums over the edges ending in each node. The sum can be normalised in two ways:

    at the nodes:  ( ∑ over e in land n of  lin v W (s e) q · d (s e) ) · d n
    at the edges:    ∑ over e in land n of  lin v W (s e) q · (d (s e) · d n)

  They agree at every entry, infinite features included, because a non-negative finite factor moves across a finite
  sum of extended reals and products re-associate. Hence three layers built the first way (bias added and clamped
  at zero between them) equal three layers built the second way.
-/
import Idealize.ShloMosaic.PureOps.Ideal
import Idealize.ShloMosaic.Lib.ValueIdx
import proofs.«113922_j7919919694018_2_alg».proof.Proof.LibRowGather
import proofs.«113922_j7919919694018_2_alg».proof.Proof.LibScaleSum

noncomputable section

namespace Cert.Bridge.Spec

open Idealize.ShloMosaic Idealize.ShloMosaic.ValueIdx
open scoped BigOperators

variable {N E : Nat}

/-- A row of features mapped by a matrix: entry q of row n is the sum over k of v n k · W k q. -/
def lin {K C : Nat} (v : Fin N → Fin K → EReal) (W : Fin K → Fin C → EReal) (n : Fin N) (q : Fin C) : EReal :=
  ∑ k : Fin K, v n k * W k q

/-- The sum over the edges ending in n of the source rows, each already scaled by its own node's factor. -/
def aggNode {C : Nat} (land : Fin N → Finset (Fin E)) (s : Fin E → Fin N) (d : Fin N → EReal)
    (h : Fin N → Fin C → EReal) (n : Fin N) (q : Fin C) : EReal :=
  ∑ e ∈ land n, h (s e) q * d (s e)

/-- The sum over the edges ending in n of the source rows, each scaled by the product of both end nodes' factors. -/
def aggEdge {C : Nat} (land : Fin N → Finset (Fin E)) (s : Fin E → Fin N) (d : Fin N → EReal)
    (h : Fin N → Fin C → EReal) (n : Fin N) (q : Fin C) : EReal :=
  ∑ e ∈ land n, h (s e) q * (d (s e) * d n)

/-- Scaling the node-normalised sum by the destination's factor gives the edge-normalised sum: the factor, being
    non-negative and finite, is taken into the sum, and the products are re-associated. -/
theorem aggNode_mul {C : Nat} (land : Fin N → Finset (Fin E)) (s : Fin E → Fin N) (d : Fin N → EReal)
    (hd0 : ∀ n, 0 ≤ d n) (hdt : ∀ n, d n ≠ ⊤) (h : Fin N → Fin C → EReal) (n : Fin N) (q : Fin C) :
    aggNode land s d h n q * d n = aggEdge land s d h n q := by
  unfold aggNode aggEdge
  rw [Cert.LibScaleSum.sum_mul_of_nonneg_of_ne_top _ _ (hd0 n) (hdt n)]
  exact Finset.sum_congr rfl fun e _ => mul_assoc _ _ _

/-- A hidden layer normalised at the nodes: the scaled sum plus the bias, clamped at zero. -/
def hidNode {K C : Nat} (land : Fin N → Finset (Fin E)) (s : Fin E → Fin N) (d : Fin N → EReal)
    (v : Fin N → Fin K → EReal) (W : Fin K → Fin C → EReal) (b : Fin C → EReal) (n : Fin N) (q : Fin C) : EReal :=
  max (aggNode land s d (lin v W) n q * d n + b q) 0

/-- A hidden layer normalised at the edges. -/
def hidEdge {K C : Nat} (land : Fin N → Finset (Fin E)) (s : Fin E → Fin N) (d : Fin N → EReal)
    (v : Fin N → Fin K → EReal) (W : Fin K → Fin C → EReal) (b : Fin C → EReal) (n : Fin N) (q : Fin C) : EReal :=
  max (aggEdge land s d (lin v W) n q + b q) 0

theorem hidNode_eq_hidEdge {K C : Nat} (land : Fin N → Finset (Fin E)) (s : Fin E → Fin N) (d : Fin N → EReal)
    (hd0 : ∀ n, 0 ≤ d n) (hdt : ∀ n, d n ≠ ⊤) (v : Fin N → Fin K → EReal) (W : Fin K → Fin C → EReal)
    (b : Fin C → EReal) : hidNode land s d v W b = hidEdge land s d v W b := by
  funext n q
  unfold hidNode hidEdge
  rw [aggNode_mul land s d hd0 hdt]

/-- Three layers normalised at the nodes: two hidden layers, then the last layer's scaled sum plus its bias. -/
def outNode {K C : Nat} (land : Fin N → Finset (Fin E)) (s : Fin E → Fin N) (d : Fin N → EReal)
    (x : Fin N → Fin K → EReal) (W1 : Fin K → Fin C → EReal) (b1 : Fin C → EReal)
    (W2 : Fin C → Fin C → EReal) (b2 : Fin C → EReal) (W3 : Fin C → Fin C → EReal) (b3 : Fin C → EReal)
    (n : Fin N) (q : Fin C) : EReal :=
  aggNode land s d (lin (hidNode land s d (hidNode land s d x W1 b1) W2 b2) W3) n q * d n + b3 q

/-- Three layers normalised at the edges. -/
def outEdge {K C : Nat} (land : Fin N → Finset (Fin E)) (s : Fin E → Fin N) (d : Fin N → EReal)
    (x : Fin N → Fin K → EReal) (W1 : Fin K → Fin C → EReal) (b1 : Fin C → EReal)
    (W2 : Fin C → Fin C → EReal) (b2 : Fin C → EReal) (W3 : Fin C → Fin C → EReal) (b3 : Fin C → EReal)
    (n : Fin N) (q : Fin C) : EReal :=
  aggEdge land s d (lin (hidEdge land s d (hidEdge land s d x W1 b1) W2 b2) W3) n q + b3 q

/-- The two normalisations give one network. -/
theorem outNode_eq_outEdge {K C : Nat} (land : Fin N → Finset (Fin E)) (s : Fin E → Fin N) (d : Fin N → EReal)
    (hd0 : ∀ n, 0 ≤ d n) (hdt : ∀ n, d n ≠ ⊤)
    (x : Fin N → Fin K → EReal) (W1 : Fin K → Fin C → EReal) (b1 : Fin C → EReal)
    (W2 : Fin C → Fin C → EReal) (b2 : Fin C → EReal) (W3 : Fin C → Fin C → EReal) (b3 : Fin C → EReal)
    (n : Fin N) (q : Fin C) :
    outNode land s d x W1 b1 W2 b2 W3 b3 n q = outEdge land s d x W1 b1 W2 b2 W3 b3 n q := by
  unfold outNode outEdge
  rw [aggNode_mul land s d hd0 hdt, hidNode_eq_hidEdge land s d hd0 hdt, hidNode_eq_hidEdge land s d hd0 hdt]

/-! ## The edges of a graph given by two index arrays -/

/-- The edges landing on node n: those whose destination index, read signed, is n. An index that names no node
    lands nowhere. -/
def landOf (dst : (⟨1, ![E]⟩ : Shape).Idx → BitVec 32) (n : Fin N) : Finset (Fin E) :=
  Finset.univ.filter fun e : Fin E => (dst (ix1 e)).toInt = (n.val : Int)

/-- An index with the extent added when it is negative (the wrap of a negative index). -/
def wrap (k v : BitVec 32) : BitVec 32 := Scalar.select (IntOp.cmpi .slt v 0#32) (IntOp.addi v k) v

/-- The source row of edge e: its source index, wrapped, read signed and clamped into the rows. -/
def srcRow (hN : 0 < N) (src : (⟨1, ![E]⟩ : Shape).Idx → BitVec 32) (e : Fin E) : Fin N :=
  Cert.Bridge.RowGather.rowOf hN (wrap (BitVec.ofNat 32 N) (src (ix1 e)))

end Cert.Bridge.Spec

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.KRegion0.lean ====
/-
  The first kernel region, read as arithmetic on whole arrays. Its body multiplies a 4000-row block of the
  [100000, 128] features by the whole [128, 64] weight matrix and scales each row of the product by that row's factor
  (a [4000, 1] column). The 25 grid points write back 25 consecutive row blocks, which tile the output, so the output
  array ends at (n, q) ↦ (∑ k, features (n, k) · weights (k, q)) · factor n.
-/
import proofs.«113922_j7919919694018_2_alg».proof.Proof.Gen.KernelIdeal.Frame
import proofs.«113922_j7919919694018_2_alg».proof.Proof.LibMatmul
import proofs.«113922_j7919919694018_2_alg».proof.Proof.LibUnitAxis
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.Bridge.KRegions

open Cert.KernelIdeal Cert.KernelIdeal.Gen

variable (V : (c : Dev nD) → (b : Ref sig .tc) → Buf (Elt Ideal) ((c : Thread nD τ).loc b))

/-- The all-zero offset of a whole-block access, however the zeros are spelt. -/
theorem off00_r0 : (![0, 0] : Fin 2 → Nat) = fun _ => 0 := funext fun a => by fin_cases a <;> rfl

/-- The body's product contracts the left block's second axis with the right block's first: a plain matrix product. -/
theorem dot0_eq : dot_S4000x128_S128x64_S4000x64_1_0_0_1_n_n = DotDims.plain 4000 128 64 := rfl

/-- The body's arithmetic at row p, column q of a block: the row of the feature block times the column of the
    weights (the narrowing to the short float format is the identity on extended reals), scaled by the row's factor. -/
theorem pay0_apply (v0 : Vec Ideal S4000x128 .f32) (v2 : Vec Ideal S128x64 .f32) (v5 : Vec Ideal S4000x1 .f32)
    (p : Fin 4000) (q : Fin 64) :
    k0_pay1 v0 v2 v5 (ix2 p q) = (∑ k : Fin 128, v0 (ix2 p k) * v2 (ix2 k q)) * v5 (ix2 p (0 : Fin 1)) := by
  unfold k0_pay1
  simp only [shapeCast_self]
  rw [truncf_apply, mulf_apply, Cert.Lib.UnitAxis.broadcastTo_a1_ab_apply, dot0_eq]
  refine congrArg (· * v5 (ix2 p (0 : Fin 1))) ?_
  exact Cert.Bridge.LibMatmul.matmul_zero_apply none (truncf .bf16 v0 bitsLt_bf16_f32) (truncf .bf16 v2 bitsLt_bf16_f32) p q

/-- The block indices over the 25 grid points: the row-blocked windows sit at block (t, 0), the weights at (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the [100000, 128] features, at (p, k), is the array's entry at row 4000 t + p, column k. -/
theorem iblk0_0_apply (c : Dev nD) (X : S100000x128.Idx → EReal) (hX : V c main_arg0 = X)
    (t : Fin cfg0.N) (p : Fin 4000) (k : Fin 128) (i : S100000x128.Idx)
    (hi0 : (i 0).val = 4000 * t.val + p.val) (hi1 : (i 1).val = k.val) :
    (iblk0 V c 0 t : Vec Ideal S4000x128 .f32) (ix2 p k) = X i := by
  subst hX
  obtain ⟨e0, e1, -⟩ := idx0 t
  unfold iblk0
  rw [View.read_apply]
  show V c main_arg0 _ = V c main_arg0 _
  congr 1
  funext a
  apply Fin.ext
  match a with
  | ⟨0, _⟩ => show win0_0.index t 0 * 4000 + 1 * p.val = (i 0).val; rw [e0, hi0]; omega
  | ⟨1, _⟩ => show win0_0.index t 1 * 128 + 1 * k.val = (i 1).val; rw [e1, hi1]; omega

/-- The weight window's one block is the whole [128, 64] array. -/
theorem iblk0_1_apply (c : Dev nD) (W : S128x64.Idx → EReal) (hW : V c main_arg2 = W) (t : Fin cfg0.N) (k : Fin 128) (q : Fin 64) :
    (iblk0 V c 1 t : Vec Ideal S128x64 .f32) (ix2 k q) = W (ix2 k q) := by
  subst hW
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 64 + 1 * q.val = q.val; rw [e3]; omega

/-- Block t of the [100000, 1] factor column, at row p, is the column's entry at row 4000 t + p. -/
theorem iblk0_2_apply (c : Dev nD) (D2 : S100000x1.Idx → EReal) (hD : V c main_v32 = D2)
    (t : Fin cfg0.N) (p : Fin 4000) (i : S100000x1.Idx) (hi0 : (i 0).val = 4000 * t.val + p.val) :
    (iblk0 V c 2 t : Vec Ideal S4000x1 .f32) (ix2 p (0 : Fin 1)) = D2 i := by
  subst hD
  obtain ⟨-, -, -, -, e4, e5, -⟩ := idx0 t
  unfold iblk0
  rw [View.read_apply]
  show V c main_v32 _ = V c main_v32 _
  congr 1
  funext a
  apply Fin.ext
  match a with
  | ⟨0, _⟩ => show win0_2.index t 0 * 4000 + 1 * p.val = (i 0).val; rw [e4, hi0]; omega
  | ⟨1, _⟩ => show win0_2.index t 1 * 1 + 1 * 0 = (i 1).val; rw [e5]; have h1 : (i 1).val < 1 := (i 1).isLt; omega

/-- The first region's result as one function of the whole arrays: at (n, q), row n of the features times column q
    of the weights, scaled by row n's factor. -/
def G0 (X : S100000x128.Idx → EReal) (W : S128x64.Idx → EReal) (D2 : S100000x1.Idx → EReal) : S100000x64.Idx → EReal :=
  fun i => (∑ k : Fin 128, X (ix2 (⟨(i 0).val, idx2_lt0 i⟩ : Fin 100000) k) * W (ix2 k (⟨(i 1).val, idx2_lt1 i⟩ : Fin 64)))
    * D2 (ix2 (⟨(i 0).val, idx2_lt0 i⟩ : Fin 100000) (0 : Fin 1))

/-- What grid point t writes back is block t (rows 4000 t … 4000 t + 3999) of that function. -/
theorem flushed0_eq (c : Dev nD) (X : S100000x128.Idx → EReal) (W : S128x64.Idx → EReal) (D2 : S100000x1.Idx → EReal)
    (hX : V c main_arg0 = X) (hW : V c main_arg2 = W) (hD : V c main_v32 = D2) (t : Fin cfg0.N) :
    (dat0 V c).flushed 3 t = ((cfg0.win 3).blk t).view.read (Elt Ideal) (G0 X W D2) := by
  show (cfg0.win 3).cut (grid0.coords t) ((dat0 V c).after 3 t) = _
  rw [after0_3]
  unfold out0_3
  rw [View.canon_unit_zero off00_r0]
  simp only [View.ld_unit_zero (S := S4000x128) off00_r0, View.ld_unit_zero (S := S128x64) off00_r0, View.ld_unit_zero (S := S4000x1) off00_r0]
  obtain ⟨-, -, -, -, -, -, e6, e7⟩ := idx0 t
  funext j
  obtain ⟨p, q, rfl⟩ : ∃ (p : Fin 4000) (q : Fin 64), j = ix2 p q := ⟨j 0, j 1, eq_ix2 j⟩
  show k0_pay1 (iblk0 V c 0 t) (iblk0 V c 1 t) (iblk0 V c 2 t) (ix2 p q) = G0 X W D2 (((cfg0.win 3).blk t).view.emb (ix2 p q))
  refine (pay0_apply _ _ _ p q).trans ?_
  have h0 : ((((cfg0.win 3).blk t).view.emb (ix2 p q)) 0).val = 4000 * t.val + p.val := by
    show win0_3.index t 0 * 4000 + 1 * p.val = _; rw [e6]; omega
  have h1 : ((((cfg0.win 3).blk t).view.emb (ix2 p q)) 1).val = q.val := by
    show win0_3.index t 1 * 64 + 1 * q.val = _; rw [e7]; omega
  unfold G0
  rw [iblk0_2_apply V c D2 hD t p (ix2 ⟨_, _⟩ (0 : Fin 1)) h0]
  refine congrArg (· * _) (Finset.sum_congr rfl fun k _ => ?_)
  rw [iblk0_0_apply V c X hX t p k (ix2 ⟨_, _⟩ k) h0 rfl, iblk0_1_apply V c W hW t k q]
  congr 3
  exact Fin.ext h1.symm

/-- An index is in point t's block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v33).slice (win0_3.rect t)).set ↔ _
  rw [View.set_slice_whole, Rect.mem_set_unit]
  exact Iff.rfl

/-- Row r lies in the block of grid point r / 4000, so the 25 blocks cover the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, e6, e7⟩ := idx0 t
  refine ⟨t, flush0_3 t, ?_⟩
  rw [mem_blk0]
  intro a
  match a with
  | ⟨0, _⟩ => show win0_3.index t 0 * 4000 ≤ (i 0).val ∧ (i 0).val < win0_3.index t 0 * 4000 + 4000; rw [e6, ht]; omega
  | ⟨1, _⟩ => show win0_3.index t 1 * 64 ≤ (i 1).val ∧ (i 1).val < win0_3.index t 1 * 64 + 64; rw [e7]; omega

/-- The array the first region leaves, at (n, q). -/
theorem final0 (c : Dev nD) (X : S100000x128.Idx → EReal) (W : S128x64.Idx → EReal) (D2 : S100000x1.Idx → EReal)
    (hX : V c main_arg0 = X) (hW : V c main_arg2 = W) (hD : V c main_v32 = D2) (n : Fin 100000) (q : Fin 64) :
    (dat0 (F := Ideal) V c).arrAt 3 cfg0.N (ix2 n q)
      = (∑ k : Fin 128, X (ix2 n k) * W (ix2 k q)) * D2 (ix2 n 0) := by
  have h := (dat0 V c).arrAt_eq_of_cover 3 (G0 X W D2) (fun t _ => flushed0_eq V c X W D2 hX hW hD t) cover0
  exact (congrFun h (ix2 n q)).trans rfl

end Cert.Bridge.KRegions
end
-- ==== Proof.KRegion1.lean ====
/-
  The second kernel region, read as arithmetic on whole arrays. Its body takes a 4000-row block of the [100000, 64]
  input, scales each row by that row's factor (a [4000, 1] column), adds the [1, 64] bias row and clips below at zero;
  it multiplies the result by the whole [64, 64] weight matrix and scales each row of the product by the row's factor
  again. The 25 grid points write back 25 consecutive row blocks, which tile the output, so the output array ends at
  (n, q) ↦ (∑ k, max (input (n, k) · factor n + bias k) 0 · weights (k, q)) · factor n.
-/
import proofs.«113922_j7919919694018_2_alg».proof.Proof.Gen.KernelIdeal.Frame
import proofs.«113922_j7919919694018_2_alg».proof.Proof.LibMatmul
import proofs.«113922_j7919919694018_2_alg».proof.Proof.LibUnitAxis
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.Bridge.KRegions

open Cert.KernelIdeal Cert.KernelIdeal.Gen

variable (V : (c : Dev nD) → (b : Ref sig .tc) → Buf (Elt Ideal) ((c : Thread nD τ).loc b))

/-- The all-zero offset of a whole-block access, however the zeros are spelt. -/
theorem off00_r1 : (![0, 0] : Fin 2 → Nat) = fun _ => 0 := funext fun a => by fin_cases a <;> rfl

/-- The body's product contracts the left block's second axis with the right block's first: a plain matrix product. -/
theorem dot1_eq : dot_S4000x64_S64x64_S4000x64_1_0_0_1_n_n = DotDims.plain 4000 64 64 := rfl

/-- The body's arithmetic at row p, column q of a block: each entry of row p of the input is scaled by the row's
    factor, shifted by the bias and clipped below at zero; the clipped row times column q of the weights (the
    narrowing to the short float format is the identity on extended reals) is scaled by the row's factor again. -/
theorem pay1_apply (v0 : Vec Ideal S4000x1 .f32) (v2 : Vec Ideal S4000x64 .f32) (v6 : Vec Ideal S1x64 .f32)
    (v13 : Vec Ideal S64x64 .f32) (p : Fin 4000) (q : Fin 64) :
    k1_pay1 v0 v2 v6 v13 (ix2 p q)
      = (∑ k : Fin 64, max (v2 (ix2 p k) * v0 (ix2 p (0 : Fin 1)) + v6 (ix2 (0 : Fin 1) k)) 0 * v13 (ix2 k q))
          * v0 (ix2 p (0 : Fin 1)) := by
  unfold k1_pay1
  simp only [shapeCast_self]
  rw [truncf_apply, mulf_apply, Cert.Lib.UnitAxis.broadcastTo_a1_ab_apply, dot1_eq]
  refine congrArg (· * v0 (ix2 p (0 : Fin 1))) ?_
  refine (Cert.Bridge.LibMatmul.matmul_zero_apply none _ _ p q).trans (Finset.sum_congr rfl fun k _ => ?_)
  rw [truncf_apply, truncf_apply, maximumf_apply, addf_apply, mulf_apply, broadcast_apply,
    Cert.Lib.UnitAxis.broadcastTo_a1_ab_apply, broadcastTo_1b_ab_apply]
  rw [show (Scalar.ofBits .f32 0x00000000#32 : Ideal .f32) = 0 from Ideal.ofBits_zero_f32]

/-- The block indices over the 25 grid points: the row-blocked windows sit at block (t, 0), the bias and the
    weights at (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the [100000, 64] input, at (p, k), is the array's entry at row 4000 t + p, column k. -/
theorem iblk1_0_apply (c : Dev nD) (A : S100000x64.Idx → EReal) (hA : V c main_v44 = A)
    (t : Fin cfg1.N) (p : Fin 4000) (k : Fin 64) (i : S100000x64.Idx)
    (hi0 : (i 0).val = 4000 * t.val + p.val) (hi1 : (i 1).val = k.val) :
    (iblk1 V c 0 t : Vec Ideal S4000x64 .f32) (ix2 p k) = A i := by
  subst hA
  obtain ⟨e0, e1, -⟩ := idx1 t
  unfold iblk1
  rw [View.read_apply]
  show V c main_v44 _ = V c main_v44 _
  congr 1
  funext a
  apply Fin.ext
  match a with
  | ⟨0, _⟩ => show win1_0.index t 0 * 4000 + 1 * p.val = (i 0).val; rw [e0, hi0]; omega
  | ⟨1, _⟩ => show win1_0.index t 1 * 64 + 1 * k.val = (i 1).val; rw [e1, hi1]; omega

/-- The bias window's one block is the whole [1, 64] array. -/
theorem iblk1_1_apply (c : Dev nD) (B : S1x64.Idx → EReal) (hB : V c main_v45 = B) (t : Fin cfg1.N) (k : Fin 64) :
    (iblk1 V c 1 t : Vec Ideal S1x64 .f32) (ix2 (0 : Fin 1) k) = B (ix2 (0 : Fin 1) k) := by
  subst hB
  obtain ⟨-, -, e2, e3, -⟩ := idx1 t
  unfold iblk1
  rw [View.read_apply]
  show V c main_v45 _ = V c main_v45 _
  congr 1
  funext a
  apply Fin.ext
  match a with
  | ⟨0, _⟩ => show win1_1.index t 0 * 1 + 1 * 0 = 0; rw [e2]
  | ⟨1, _⟩ => show win1_1.index t 1 * 64 + 1 * k.val = k.val; rw [e3]; omega

/-- Block t of the [100000, 1] factor column, at row p, is the column's entry at row 4000 t + p. -/
theorem iblk1_2_apply (c : Dev nD) (D2 : S100000x1.Idx → EReal) (hD : V c main_v32 = D2)
    (t : Fin cfg1.N) (p : Fin 4000) (i : S100000x1.Idx) (hi0 : (i 0).val = 4000 * t.val + p.val) :
    (iblk1 V c 2 t : Vec Ideal S4000x1 .f32) (ix2 p (0 : Fin 1)) = D2 i := by
  subst hD
  obtain ⟨-, -, -, -, e4, e5, -⟩ := idx1 t
  unfold iblk1
  rw [View.read_apply]
  show V c main_v32 _ = V c main_v32 _
  congr 1
  funext a
  apply Fin.ext
  match a with
  | ⟨0, _⟩ => show win1_2.index t 0 * 4000 + 1 * p.val = (i 0).val; rw [e4, hi0]; omega
  | ⟨1, _⟩ => show win1_2.index t 1 * 1 + 1 * 0 = (i 1).val; rw [e5]; have h1 : (i 1).val < 1 := (i 1).isLt; omega

/-- The weight window's one block is the whole [64, 64] array. -/
theorem iblk1_3_apply (c : Dev nD) (W : S64x64.Idx → EReal) (hW : V c main_arg4 = W) (t : Fin cfg1.N) (k : Fin 64) (q : Fin 64) :
    (iblk1 V c 3 t : Vec Ideal S64x64 .f32) (ix2 k q) = W (ix2 k q) := by
  subst hW
  obtain ⟨-, -, -, -, -, -, e6, e7, -⟩ := idx1 t
  unfold iblk1
  rw [View.read_apply]
  show V c main_arg4 _ = V c main_arg4 _
  congr 1
  funext a
  apply Fin.ext
  match a with
  | ⟨0, _⟩ => show win1_3.index t 0 * 64 + 1 * k.val = k.val; rw [e6]; omega
  | ⟨1, _⟩ => show win1_3.index t 1 * 64 + 1 * q.val = q.val; rw [e7]; omega

/-- The second region's result as one function of the whole arrays: at (n, q), row n of the input, scaled by row n's
    factor, shifted by the bias and clipped below at zero, times column q of the weights, scaled by row n's factor. -/
def G1 (A : S100000x64.Idx → EReal) (B : S1x64.Idx → EReal) (D2 : S100000x1.Idx → EReal) (W : S64x64.Idx → EReal) :
    S100000x64.Idx → EReal :=
  fun i => (∑ k : Fin 64, max (A (ix2 (⟨(i 0).val, idx2_lt0 i⟩ : Fin 100000) k)
        * D2 (ix2 (⟨(i 0).val, idx2_lt0 i⟩ : Fin 100000) (0 : Fin 1)) + B (ix2 (0 : Fin 1) k)) 0
      * W (ix2 k (⟨(i 1).val, idx2_lt1 i⟩ : Fin 64)))
    * D2 (ix2 (⟨(i 0).val, idx2_lt0 i⟩ : Fin 100000) (0 : Fin 1))

/-- What grid point t writes back is block t (rows 4000 t … 4000 t + 3999) of that function. -/
theorem flushed1_eq (c : Dev nD) (A : S100000x64.Idx → EReal) (B : S1x64.Idx → EReal) (D2 : S100000x1.Idx → EReal)
    (W : S64x64.Idx → EReal) (hA : V c main_v44 = A) (hB : V c main_v45 = B) (hD : V c main_v32 = D2) (hW : V c main_arg4 = W)
    (t : Fin cfg1.N) :
    (dat1 V c).flushed 4 t = ((cfg1.win 4).blk t).view.read (Elt Ideal) (G1 A B D2 W) := by
  show (cfg1.win 4).cut (grid1.coords t) ((dat1 V c).after 4 t) = _
  rw [after1_4]
  unfold out1_4
  rw [View.canon_unit_zero off00_r1]
  simp only [View.ld_unit_zero (S := S4000x64) off00_r1, View.ld_unit_zero (S := S4000x1) off00_r1,
    View.ld_unit_zero (S := S1x64) off00_r1, View.ld_unit_zero (S := S64x64) off00_r1]
  obtain ⟨-, -, -, -, -, -, -, -, e8, e9⟩ := idx1 t
  funext j
  obtain ⟨p, q, rfl⟩ : ∃ (p : Fin 4000) (q : Fin 64), j = ix2 p q := ⟨j 0, j 1, eq_ix2 j⟩
  show k1_pay1 (iblk1 V c 2 t) (iblk1 V c 0 t) (iblk1 V c 1 t) (iblk1 V c 3 t) (ix2 p q)
    = G1 A B D2 W (((cfg1.win 4).blk t).view.emb (ix2 p q))
  refine (pay1_apply _ _ _ _ p q).trans ?_
  have h0 : ((((cfg1.win 4).blk t).view.emb (ix2 p q)) 0).val = 4000 * t.val + p.val := by
    show win1_4.index t 0 * 4000 + 1 * p.val = _; rw [e8]; omega
  have h1 : ((((cfg1.win 4).blk t).view.emb (ix2 p q)) 1).val = q.val := by
    show win1_4.index t 1 * 64 + 1 * q.val = _; rw [e9]; omega
  unfold G1
  rw [iblk1_2_apply V c D2 hD t p (ix2 ⟨_, _⟩ (0 : Fin 1)) h0]
  refine congrArg (· * _) (Finset.sum_congr rfl fun k _ => ?_)
  rw [iblk1_0_apply V c A hA t p k (ix2 ⟨_, _⟩ k) h0 rfl, iblk1_1_apply V c B hB t k, iblk1_3_apply V c W hW t k q]
  congr 3
  exact Fin.ext h1.symm

/-- An index is in point t's block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v46).slice (win1_4.rect t)).set ↔ _
  rw [View.set_slice_whole, Rect.mem_set_unit]
  exact Iff.rfl

/-- Row r lies in the block of grid point r / 4000, so the 25 blocks cover the array. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by omega⟩, rfl⟩
  obtain ⟨-, -, -, -, -, -, -, -, e8, e9⟩ := idx1 t
  refine ⟨t, flush1_4 t, ?_⟩
  rw [mem_blk1]
  intro a
  match a with
  | ⟨0, _⟩ => show win1_4.index t 0 * 4000 ≤ (i 0).val ∧ (i 0).val < win1_4.index t 0 * 4000 + 4000; rw [e8, ht]; omega
  | ⟨1, _⟩ => show win1_4.index t 1 * 64 ≤ (i 1).val ∧ (i 1).val < win1_4.index t 1 * 64 + 64; rw [e9]; omega

/-- The array the second region leaves, at (n, q). -/
theorem final1 (c : Dev nD) (A : S100000x64.Idx → EReal) (B : S1x64.Idx → EReal) (D2 : S100000x1.Idx → EReal) (W : S64x64.Idx → EReal)
    (hA : V c main_v44 = A) (hB : V c main_v45 = B) (hD : V c main_v32 = D2) (hW : V c main_arg4 = W) (n : Fin 100000) (q : Fin 64) :
    (dat1 (F := Ideal) V c).arrAt 4 cfg1.N (ix2 n q)
      = (∑ k : Fin 64, max (A (ix2 n k) * D2 (ix2 n 0) + B (ix2 0 k)) 0 * W (ix2 k q)) * D2 (ix2 n 0) := by
  have h := (dat1 V c).arrAt_eq_of_cover 4 (G1 A B D2 W) (fun t _ => flushed1_eq V c A B D2 W hA hB hD hW t) cover1
  exact (congrFun h (ix2 n q)).trans rfl

end Cert.Bridge.KRegions
end
-- ==== Proof.KRegion2.lean ====
/-
  The third kernel region, read as arithmetic on whole arrays. Its body takes a 4000-row block of the [100000, 64]
  input, scales each row by that row's factor (a [4000, 1] column), adds the [1, 64] bias row and clips below at zero;
  it multiplies the result by the whole [64, 64] weight matrix and scales each row of the product by the row's factor
  again. The 25 grid points write back 25 consecutive row blocks, which tile the output, so the output array ends at
  (n, q) ↦ (∑ k, max (input (n, k) · factor n + bias k) 0 · weights (k, q)) · factor n.
-/
import proofs.«113922_j7919919694018_2_alg».proof.Proof.Gen.KernelIdeal.Frame
import proofs.«113922_j7919919694018_2_alg».proof.Proof.LibMatmul
import proofs.«113922_j7919919694018_2_alg».proof.Proof.LibUnitAxis
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.Bridge.KRegions

open Cert.KernelIdeal Cert.KernelIdeal.Gen

variable (V : (c : Dev nD) → (b : Ref sig .tc) → Buf (Elt Ideal) ((c : Thread nD τ).loc b))

/-- The all-zero offset of a whole-block access, however the zeros are spelt. -/
theorem off00_r2 : (![0, 0] : Fin 2 → Nat) = fun _ => 0 := funext fun a => by fin_cases a <;> rfl

/-- The body's product contracts the left block's second axis with the right block's first: a plain matrix product. -/
theorem dot2_eq : dot_S4000x64_S64x64_S4000x64_1_0_0_1_n_n = DotDims.plain 4000 64 64 := rfl

/-- The body's arithmetic at row p, column q of a block: each entry of row p of the input is scaled by the row's
    factor, shifted by the bias and clipped below at zero; the clipped row times column q of the weights (the
    narrowing to the short float format is the identity on extended reals) is scaled by the row's factor again. -/
theorem pay2_apply (v0 : Vec Ideal S4000x1 .f32) (v2 : Vec Ideal S4000x64 .f32) (v6 : Vec Ideal S1x64 .f32)
    (v13 : Vec Ideal S64x64 .f32) (p : Fin 4000) (q : Fin 64) :
    k2_pay1 v0 v2 v6 v13 (ix2 p q)
      = (∑ k : Fin 64, max (v2 (ix2 p k) * v0 (ix2 p (0 : Fin 1)) + v6 (ix2 (0 : Fin 1) k)) 0 * v13 (ix2 k q))
          * v0 (ix2 p (0 : Fin 1)) := by
  unfold k2_pay1
  simp only [shapeCast_self]
  rw [truncf_apply, mulf_apply, Cert.Lib.UnitAxis.broadcastTo_a1_ab_apply, dot2_eq]
  refine congrArg (· * v0 (ix2 p (0 : Fin 1))) ?_
  refine (Cert.Bridge.LibMatmul.matmul_zero_apply none _ _ p q).trans (Finset.sum_congr rfl fun k _ => ?_)
  rw [truncf_apply, truncf_apply, maximumf_apply, addf_apply, mulf_apply, broadcast_apply,
    Cert.Lib.UnitAxis.broadcastTo_a1_ab_apply, broadcastTo_1b_ab_apply]
  rw [show (Scalar.ofBits .f32 0x00000000#32 : Ideal .f32) = 0 from Ideal.ofBits_zero_f32]

/-- The block indices over the 25 grid points: the row-blocked windows sit at block (t, 0), the bias and the
    weights at (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block t of the [100000, 64] input, at (p, k), is the array's entry at row 4000 t + p, column k. -/
theorem iblk2_0_apply (c : Dev nD) (A : S100000x64.Idx → EReal) (hA : V c main_v57 = A)
    (t : Fin cfg2.N) (p : Fin 4000) (k : Fin 64) (i : S100000x64.Idx)
    (hi0 : (i 0).val = 4000 * t.val + p.val) (hi1 : (i 1).val = k.val) :
    (iblk2 V c 0 t : Vec Ideal S4000x64 .f32) (ix2 p k) = A i := by
  subst hA
  obtain ⟨e0, e1, -⟩ := idx2 t
  unfold iblk2
  rw [View.read_apply]
  show V c main_v57 _ = V c main_v57 _
  congr 1
  funext a
  apply Fin.ext
  match a with
  | ⟨0, _⟩ => show win2_0.index t 0 * 4000 + 1 * p.val = (i 0).val; rw [e0, hi0]; omega
  | ⟨1, _⟩ => show win2_0.index t 1 * 64 + 1 * k.val = (i 1).val; rw [e1, hi1]; omega

/-- The bias window's one block is the whole [1, 64] array. -/
theorem iblk2_1_apply (c : Dev nD) (B : S1x64.Idx → EReal) (hB : V c main_v58 = B) (t : Fin cfg2.N) (k : Fin 64) :
    (iblk2 V c 1 t : Vec Ideal S1x64 .f32) (ix2 (0 : Fin 1) k) = B (ix2 (0 : Fin 1) k) := by
  subst hB
  obtain ⟨-, -, e2, e3, -⟩ := idx2 t
  unfold iblk2
  rw [View.read_apply]
  show V c main_v58 _ = V c main_v58 _
  congr 1
  funext a
  apply Fin.ext
  match a with
  | ⟨0, _⟩ => show win2_1.index t 0 * 1 + 1 * 0 = 0; rw [e2]
  | ⟨1, _⟩ => show win2_1.index t 1 * 64 + 1 * k.val = k.val; rw [e3]; omega

/-- Block t of the [100000, 1] factor column, at row p, is the column's entry at row 4000 t + p. -/
theorem iblk2_2_apply (c : Dev nD) (D2 : S100000x1.Idx → EReal) (hD : V c main_v32 = D2)
    (t : Fin cfg2.N) (p : Fin 4000) (i : S100000x1.Idx) (hi0 : (i 0).val = 4000 * t.val + p.val) :
    (iblk2 V c 2 t : Vec Ideal S4000x1 .f32) (ix2 p (0 : Fin 1)) = D2 i := by
  subst hD
  obtain ⟨-, -, -, -, e4, e5, -⟩ := idx2 t
  unfold iblk2
  rw [View.read_apply]
  show V c main_v32 _ = V c main_v32 _
  congr 1
  funext a
  apply Fin.ext
  match a with
  | ⟨0, _⟩ => show win2_2.index t 0 * 4000 + 1 * p.val = (i 0).val; rw [e4, hi0]; omega
  | ⟨1, _⟩ => show win2_2.index t 1 * 1 + 1 * 0 = (i 1).val; rw [e5]; have h1 : (i 1).val < 1 := (i 1).isLt; omega

/-- The weight window's one block is the whole [64, 64] array. -/
theorem iblk2_3_apply (c : Dev nD) (W : S64x64.Idx → EReal) (hW : V c main_arg6 = W) (t : Fin cfg2.N) (k : Fin 64) (q : Fin 64) :
    (iblk2 V c 3 t : Vec Ideal S64x64 .f32) (ix2 k q) = W (ix2 k q) := by
  subst hW
  obtain ⟨-, -, -, -, -, -, e6, e7, -⟩ := idx2 t
  unfold iblk2
  rw [View.read_apply]
  show V c main_arg6 _ = V c main_arg6 _
  congr 1
  funext a
  apply Fin.ext
  match a with
  | ⟨0, _⟩ => show win2_3.index t 0 * 64 + 1 * k.val = k.val; rw [e6]; omega
  | ⟨1, _⟩ => show win2_3.index t 1 * 64 + 1 * q.val = q.val; rw [e7]; omega

/-- The third region's result as one function of the whole arrays: at (n, q), row n of the input, scaled by row n's
    factor, shifted by the bias and clipped below at zero, times column q of the weights, scaled by row n's factor. -/
def G2 (A : S100000x64.Idx → EReal) (B : S1x64.Idx → EReal) (D2 : S100000x1.Idx → EReal) (W : S64x64.Idx → EReal) :
    S100000x64.Idx → EReal :=
  fun i => (∑ k : Fin 64, max (A (ix2 (⟨(i 0).val, idx2_lt0 i⟩ : Fin 100000) k)
        * D2 (ix2 (⟨(i 0).val, idx2_lt0 i⟩ : Fin 100000) (0 : Fin 1)) + B (ix2 (0 : Fin 1) k)) 0
      * W (ix2 k (⟨(i 1).val, idx2_lt1 i⟩ : Fin 64)))
    * D2 (ix2 (⟨(i 0).val, idx2_lt0 i⟩ : Fin 100000) (0 : Fin 1))

/-- What grid point t writes back is block t (rows 4000 t … 4000 t + 3999) of that function. -/
theorem flushed2_eq (c : Dev nD) (A : S100000x64.Idx → EReal) (B : S1x64.Idx → EReal) (D2 : S100000x1.Idx → EReal)
    (W : S64x64.Idx → EReal) (hA : V c main_v57 = A) (hB : V c main_v58 = B) (hD : V c main_v32 = D2) (hW : V c main_arg6 = W)
    (t : Fin cfg2.N) :
    (dat2 V c).flushed 4 t = ((cfg2.win 4).blk t).view.read (Elt Ideal) (G2 A B D2 W) := by
  show (cfg2.win 4).cut (grid2.coords t) ((dat2 V c).after 4 t) = _
  rw [after2_4]
  unfold out2_4
  rw [View.canon_unit_zero off00_r2]
  simp only [View.ld_unit_zero (S := S4000x64) off00_r2, View.ld_unit_zero (S := S4000x1) off00_r2,
    View.ld_unit_zero (S := S1x64) off00_r2, View.ld_unit_zero (S := S64x64) off00_r2]
  obtain ⟨-, -, -, -, -, -, -, -, e8, e9⟩ := idx2 t
  funext j
  obtain ⟨p, q, rfl⟩ : ∃ (p : Fin 4000) (q : Fin 64), j = ix2 p q := ⟨j 0, j 1, eq_ix2 j⟩
  show k2_pay1 (iblk2 V c 2 t) (iblk2 V c 0 t) (iblk2 V c 1 t) (iblk2 V c 3 t) (ix2 p q)
    = G2 A B D2 W (((cfg2.win 4).blk t).view.emb (ix2 p q))
  refine (pay2_apply _ _ _ _ p q).trans ?_
  have h0 : ((((cfg2.win 4).blk t).view.emb (ix2 p q)) 0).val = 4000 * t.val + p.val := by
    show win2_4.index t 0 * 4000 + 1 * p.val = _; rw [e8]; omega
  have h1 : ((((cfg2.win 4).blk t).view.emb (ix2 p q)) 1).val = q.val := by
    show win2_4.index t 1 * 64 + 1 * q.val = _; rw [e9]; omega
  unfold G2
  rw [iblk2_2_apply V c D2 hD t p (ix2 ⟨_, _⟩ (0 : Fin 1)) h0]
  refine congrArg (· * _) (Finset.sum_congr rfl fun k _ => ?_)
  rw [iblk2_0_apply V c A hA t p k (ix2 ⟨_, _⟩ k) h0 rfl, iblk2_1_apply V c B hB t k, iblk2_3_apply V c W hW t k q]
  congr 3
  exact Fin.ext h1.symm

/-- An index is in point t's block iff each coordinate is in the block's range on its axis. -/
theorem mem_blk2 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v59).slice (win2_4.rect t)).set ↔ _
  rw [View.set_slice_whole, Rect.mem_set_unit]
  exact Iff.rfl

/-- Row r lies in the block of grid point r / 4000, so the 25 blocks cover the array. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  obtain ⟨t, ht⟩ : ∃ t : Fin cfg2.N, t.val = (i 0).val / 4000 := ⟨⟨(i 0).val / 4000, by omega⟩, rfl⟩
  obtain ⟨-, -, -, -, -, -, -, -, e8, e9⟩ := idx2 t
  refine ⟨t, flush2_4 t, ?_⟩
  rw [mem_blk2]
  intro a
  match a with
  | ⟨0, _⟩ => show win2_4.index t 0 * 4000 ≤ (i 0).val ∧ (i 0).val < win2_4.index t 0 * 4000 + 4000; rw [e8, ht]; omega
  | ⟨1, _⟩ => show win2_4.index t 1 * 64 ≤ (i 1).val ∧ (i 1).val < win2_4.index t 1 * 64 + 64; rw [e9]; omega

/-- The array the third region leaves, at (n, q). -/
theorem final2 (c : Dev nD) (A : S100000x64.Idx → EReal) (B : S1x64.Idx → EReal) (D2 : S100000x1.Idx → EReal) (W : S64x64.Idx → EReal)
    (hA : V c main_v57 = A) (hB : V c main_v58 = B) (hD : V c main_v32 = D2) (hW : V c main_arg6 = W) (n : Fin 100000) (q : Fin 64) :
    (dat2 (F := Ideal) V c).arrAt 4 cfg2.N (ix2 n q)
      = (∑ k : Fin 64, max (A (ix2 n k) * D2 (ix2 n 0) + B (ix2 0 k)) 0 * W (ix2 k q)) * D2 (ix2 n 0) := by
  have h := (dat2 V c).arrAt_eq_of_cover 4 (G2 A B D2 W) (fun t _ => flushed2_eq V c A B D2 W hA hB hD hW t) cover2
  exact (congrFun h (ix2 n q)).trans rfl

end Cert.Bridge.KRegions
end
-- ==== Proof.KRegion3.lean ====
/-
  The last kernel region, read as arithmetic on whole arrays. Its body takes a 4000-row block of the [100000, 64]
  input, scales each row by that row's factor (a [4000, 1] column) and adds the [1, 64] bias row. The 25 grid points
  write back 25 consecutive row blocks, which tile the output, so the output array ends at
  (n, q) ↦ input (n, q) · factor n + bias q.
-/
import proofs.«113922_j7919919694018_2_alg».proof.Proof.Gen.KernelIdeal.Frame
import proofs.«113922_j7919919694018_2_alg».proof.Proof.LibMatmul
import proofs.«113922_j7919919694018_2_alg».proof.Proof.LibUnitAxis
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.Pipeline (Dat)

namespace Cert.Bridge.KRegions

open Cert.KernelIdeal Cert.KernelIdeal.Gen

variable (V : (c : Dev nD) → (b : Ref sig .tc) → Buf (Elt Ideal) ((c : Thread nD τ).loc b))

/-- The all-zero offset of a whole-block access, however the zeros are spelt. -/
theorem off00_r3 : (![0, 0] : Fin 2 → Nat) = fun _ => 0 := funext fun a => by fin_cases a <;> rfl

/-- The body's arithmetic at row p, column q of a block: the input entry scaled by the row's factor (a one-column
    block spread over the columns), plus the bias (a one-row block spread over the rows). -/
theorem pay3_apply (v0 : Vec Ideal S4000x64 .f32) (v2 : Vec Ideal S4000x1 .f32) (v6 : Vec Ideal S1x64 .f32)
    (p : Fin 4000) (q : Fin 64) :
    k3_pay1 v0 v2 v6 (ix2 p q) = v0 (ix2 p q) * v2 (ix2 p (0 : Fin 1)) + v6 (ix2 (0 : Fin 1) q) := by
  unfold k3_pay1
  simp only [shapeCast_self]
  rw [addf_apply, mulf_apply, Cert.Lib.UnitAxis.broadcastTo_a1_ab_apply, broadcastTo_1b_ab_apply]

/-- The block indices over the 25 grid points: the row-blocked windows sit at block (t, 0), the bias at (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Block t of the [100000, 64] input, at (p, q), is the array's entry at row 4000 t + p, column q. -/
theorem iblk3_0_apply (c : Dev nD) (A : S100000x64.Idx → EReal) (hA : V c main_v70 = A)
    (t : Fin cfg3.N) (p : Fin 4000) (q : Fin 64) (k : S100000x64.Idx)
    (hk0 : (k 0).val = 4000 * t.val + p.val) (hk1 : (k 1).val = q.val) :
    (iblk3 V c 0 t : Vec Ideal S4000x64 .f32) (ix2 p q) = A k := by
  subst hA
  obtain ⟨e0, e1, -⟩ := idx3 t
  unfold iblk3
  rw [View.read_apply]
  show V c main_v70 _ = V c main_v70 _
  congr 1
  funext a
  apply Fin.ext
  match a with
  | ⟨0, _⟩ => show win3_0.index t 0 * 4000 + 1 * p.val = (k 0).val; rw [e0, hk0]; omega
  | ⟨1, _⟩ => show win3_0.index t 1 * 64 + 1 * q.val = (k 1).val; rw [e1, hk1]; omega

/-- The bias window's one block is the whole [1, 64] array. -/
theorem iblk3_1_apply (c : Dev nD) (B : S1x64.Idx → EReal) (hB : V c main_v71 = B) (t : Fin cfg3.N) (q : Fin 64) :
    (iblk3 V c 1 t : Vec Ideal S1x64 .f32) (ix2 (0 : Fin 1) q) = B (ix2 (0 : Fin 1) q) := by
  subst hB
  obtain ⟨-, -, e2, e3, -⟩ := idx3 t
  unfold iblk3
  rw [View.read_apply]
  show V c main_v71 _ = V c main_v71 _
  congr 1
  funext a
  apply Fin.ext
  match a with
  | ⟨0, _⟩ => show win3_1.index t 0 * 1 + 1 * 0 = 0; rw [e2]
  | ⟨1, _⟩ => show win3_1.index t 1 * 64 + 1 * q.val = q.val; rw [e3]; omega

/-- Block t of the [100000, 1] factor column, at row p, is the column's entry at row 4000 t + p. -/
theorem iblk3_2_apply (c : Dev nD) (D2 : S100000x1.Idx → EReal) (hD : V c main_v32 = D2)
    (t : Fin cfg3.N) (p : Fin 4000) (k : S100000x1.Idx) (hk0 : (k 0).val = 4000 * t.val + p.val) :
    (iblk3 V c 2 t : Vec Ideal S4000x1 .f32) (ix2 p (0 : Fin 1)) = D2 k := by
  subst hD
  obtain ⟨-, -, -, -, e4, e5, -⟩ := idx3 t
  unfold iblk3
  rw [View.read_apply]
  show V c main_v32 _ = V c main_v32 _
  congr 1
  funext a
  apply Fin.ext
  match a with
  | ⟨0, _⟩ => show win3_2.index t 0 * 4000 + 1 * p.val = (k 0).val; rw [e4, hk0]; omega
  | ⟨1, _⟩ => show win3_2.index t 1 * 1 + 1 * 0 = (k 1).val; rw [e5]; have h1 : (k 1).val < 1 := (k 1).isLt; omega

/-- The last region's result as one function of the whole arrays: at (n, q), the input entry scaled by row n's
    factor, plus the bias at column q. -/
def G3 (A : S100000x64.Idx → EReal) (D2 : S100000x1.Idx → EReal) (B : S1x64.Idx → EReal) : S100000x64.Idx → EReal :=
  fun i => A i * D2 (ix2 (⟨(i 0).val, idx2_lt0 i⟩ : Fin 100000) (0 : Fin 1)) + B (ix2 (0 : Fin 1) (⟨(i 1).val, idx2_lt1 i⟩ : Fin 64))

/-- What grid point t writes back is block t (rows 4000 t … 4000 t + 3999) of that function. -/
theorem flushed3_eq (c : Dev nD) (A : S100000x64.Idx → EReal) (B : S1x64.Idx → EReal) (D2 : S100000x1.Idx → EReal)
    (hA : V c main_v70 = A) (hB : V c main_v71 = B) (hD : V c main_v32 = D2) (t : Fin cfg3.N) :
    (dat3 V c).flushed 3 t = ((cfg3.win 3).blk t).view.read (Elt Ideal) (G3 A D2 B) := by
  show (cfg3.win 3).cut (grid3.coords t) ((dat3 V c).after 3 t) = _
  rw [after3_3]
  unfold out3_3
  rw [View.canon_unit_zero off00_r3]
  simp only [View.ld_unit_zero (S := S4000x64) off00_r3, View.ld_unit_zero (S := S4000x1) off00_r3, View.ld_unit_zero (S := S1x64) off00_r3]
  obtain ⟨-, -, -, -, -, -, e6, e7⟩ := idx3 t
  funext j
  obtain ⟨p, q, rfl⟩ : ∃ (p : Fin 4000) (q : Fin 64), j = ix2 p q := ⟨j 0, j 1, eq_ix2 j⟩
  show k3_pay1 (iblk3 V c 0 t) (iblk3 V c 2 t) (iblk3 V c 1 t) (ix2 p q) = G3 A D2 B (((cfg3.win 3).blk t).view.emb (ix2 p q))
  refine (pay3_apply _ _ _ p q).trans ?_
  have h0 : ((((cfg3.win 3).blk t).view.emb (ix2 p q)) 0).val = 4000 * t.val + p.val := by
    show win3_3.index t 0 * 4000 + 1 * p.val = _; rw [e6]; omega
  have h1 : ((((cfg3.win 3).blk t).view.emb (ix2 p q)) 1).val = q.val := by
    show win3_3.index t 1 * 64 + 1 * q.val = _; rw [e7]; omega
  unfold G3
  rw [iblk3_0_apply V c A hA t p q _ h0 h1, iblk3_1_apply V c B hB t q, iblk3_2_apply V c D2 hD t p (ix2 ⟨_, _⟩ (0 : Fin 1)) h0]
  congr 3
  exact Fin.ext h1.symm

/-- An index is in point t's block iff each coordinate is in the block's range on its axis. -/
theorem mem_blk3 (t : Fin cfg3.N) (i : S100000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v72).slice (win3_3.rect t)).set ↔ _
  rw [View.set_slice_whole, Rect.mem_set_unit]
  exact Iff.rfl

/-- Row r lies in the block of grid point r / 4000, so the 25 blocks cover the array. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 25 := N_3
  obtain ⟨t, ht⟩ : ∃ t : Fin cfg3.N, t.val = (i 0).val / 4000 := ⟨⟨(i 0).val / 4000, by omega⟩, rfl⟩
  obtain ⟨-, -, -, -, -, -, e6, e7⟩ := idx3 t
  refine ⟨t, flush3_3 t, ?_⟩
  rw [mem_blk3]
  intro a
  match a with
  | ⟨0, _⟩ => show win3_3.index t 0 * 4000 ≤ (i 0).val ∧ (i 0).val < win3_3.index t 0 * 4000 + 4000; rw [e6, ht]; omega
  | ⟨1, _⟩ => show win3_3.index t 1 * 64 ≤ (i 1).val ∧ (i 1).val < win3_3.index t 1 * 64 + 64; rw [e7]; omega

/-- The array the last region leaves, at (n, q). -/
theorem final3 (c : Dev nD) (A : S100000x64.Idx → EReal) (B : S1x64.Idx → EReal) (D2 : S100000x1.Idx → EReal)
    (hA : V c main_v70 = A) (hB : V c main_v71 = B) (hD : V c main_v32 = D2) (n : Fin 100000) (q : Fin 64) :
    (dat3 (F := Ideal) V c).arrAt 3 cfg3.N (ix2 n q) = A (ix2 n q) * D2 (ix2 n 0) + B (ix2 0 q) := by
  have h := (dat3 V c).arrAt_eq_of_cover 3 (G3 A D2 B) (fun t _ => flushed3_eq V c A B D2 hA hB hD t) cover3
  exact (congrFun h (ix2 n q)).trans rfl

end Cert.Bridge.KRegions
end
-- ==== Proof.KRegions.lean ====
/-
  What each of the four kernel regions leaves in its output array, index by index, for arbitrary contents of the
  arrays the region reads: the four region modules gathered (final0, final1, final2, final3).
-/
import proofs.«113922_j7919919694018_2_alg».proof.Proof.KRegion0
import proofs.«113922_j7919919694018_2_alg».proof.Proof.KRegion1
import proofs.«113922_j7919919694018_2_alg».proof.Proof.KRegion2
import proofs.«113922_j7919919694018_2_alg».proof.Proof.KRegion3
-- ==== Proof.KCarry.lean ====
/-
  Buffers that pass unchanged through stretches of the run.

  The run of the program is a fold over boundaries: a stretch of host operations changes only the buffers its
  operations write, and a region changes only its output array (its input arrays leave as they entered, every other
  buffer is not touched). Hence an argument's buffer holds, at any boundary, what the launch put there; the two
  sorted edge arrays, written once before the first region, are the same at every later boundary; and the column of
  node factors, an input array of every region, is the same at every region's entry. Each fact is read off by
  walking the fold backwards one boundary at a time.
-/
import proofs.«113922_j7919919694018_2_alg».proof.Proof.Gen.KernelIdeal.Frame
import Idealize.ShloMosaic.PureOps.Ideal

set_option maxRecDepth 16384

noncomputable section

namespace Cert.Bridge.KCarry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- A stretch of host operations leaves a buffer none of them writes as it was: the operations' result buffers are
    listed and each is told apart from the buffer. -/
local macro "host_keep " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments hold what the launch put there -/

theorem W4_arg0 : W4 m ρ c (Proc.devRef .tc main_arg0) = m ((c : Thread nD τ).loc main_arg0) :=
  calc W4 m ρ c (Proc.devRef .tc main_arg0)
    _ = W3 m ρ c (Proc.devRef .tc main_arg0) := by host_keep hostOps0_3
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

theorem W4_arg2 : W4 m ρ c (Proc.devRef .tc main_arg2) = m ((c : Thread nD τ).loc main_arg2) :=
  calc W4 m ρ c (Proc.devRef .tc main_arg2)
    _ = W3 m ρ c (Proc.devRef .tc main_arg2) := by host_keep hostOps0_3
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

theorem W5_arg3 : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := by host_keep hostOps0_3
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

theorem W6_arg4 : W6 m ρ c (Proc.devRef .tc main_arg4) = m ((c : Thread nD τ).loc main_arg4) :=
  calc W6 m ρ c (Proc.devRef .tc main_arg4)
    _ = W5 m ρ c (Proc.devRef .tc main_arg4) := by host_keep hostOps1
    _ = W4 m ρ c (Proc.devRef .tc main_arg4) := W5_of_ne m ρ c main_arg4 (by decide)
    _ = W3 m ρ c (Proc.devRef .tc main_arg4) := by host_keep hostOps0_3
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl

theorem W7_arg5 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := by host_keep hostOps1
    _ = W4 m ρ c (Proc.devRef .tc main_arg5) := W5_of_ne m ρ c main_arg5 (by decide)
    _ = W3 m ρ c (Proc.devRef .tc main_arg5) := by host_keep hostOps0_3
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl

theorem W8_arg6 : W8 m ρ c (Proc.devRef .tc main_arg6) = m ((c : Thread nD τ).loc main_arg6) :=
  calc W8 m ρ c (Proc.devRef .tc main_arg6)
    _ = W7 m ρ c (Proc.devRef .tc main_arg6) := by host_keep hostOps2
    _ = W6 m ρ c (Proc.devRef .tc main_arg6) := W7_of_ne m ρ c main_arg6 (by decide)
    _ = W5 m ρ c (Proc.devRef .tc main_arg6) := by host_keep hostOps1
    _ = W4 m ρ c (Proc.devRef .tc main_arg6) := W5_of_ne m ρ c main_arg6 (by decide)
    _ = W3 m ρ c (Proc.devRef .tc main_arg6) := by host_keep hostOps0_3
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl

theorem W9_arg7 : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by host_keep hostOps2
    _ = W6 m ρ c (Proc.devRef .tc main_arg7) := W7_of_ne m ρ c main_arg7 (by decide)
    _ = W5 m ρ c (Proc.devRef .tc main_arg7) := by host_keep hostOps1
    _ = W4 m ρ c (Proc.devRef .tc main_arg7) := W5_of_ne m ρ c main_arg7 (by decide)
    _ = W3 m ρ c (Proc.devRef .tc main_arg7) := by host_keep hostOps0_3
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

/-! ## The sorted edge arrays stay as the first region found them -/

theorem W5_v24 : W5 m ρ c (Proc.devRef .tc main_v24) = W4 m ρ c (Proc.devRef .tc main_v24) :=
  W5_of_ne m ρ c main_v24 (by decide)

theorem W7_v24 : W7 m ρ c (Proc.devRef .tc main_v24) = W4 m ρ c (Proc.devRef .tc main_v24) :=
  calc W7 m ρ c (Proc.devRef .tc main_v24)
    _ = W6 m ρ c (Proc.devRef .tc main_v24) := W7_of_ne m ρ c main_v24 (by decide)
    _ = W5 m ρ c (Proc.devRef .tc main_v24) := by host_keep hostOps1
    _ = W4 m ρ c (Proc.devRef .tc main_v24) := W5_v24 m ρ c

theorem W9_v24 : W9 m ρ c (Proc.devRef .tc main_v24) = W4 m ρ c (Proc.devRef .tc main_v24) :=
  calc W9 m ρ c (Proc.devRef .tc main_v24)
    _ = W8 m ρ c (Proc.devRef .tc main_v24) := W9_of_ne m ρ c main_v24 (by decide)
    _ = W7 m ρ c (Proc.devRef .tc main_v24) := by host_keep hostOps2
    _ = W4 m ρ c (Proc.devRef .tc main_v24) := W7_v24 m ρ c

theorem W5_v31 : W5 m ρ c (Proc.devRef .tc main_v31) = W4 m ρ c (Proc.devRef .tc main_v31) :=
  W5_of_ne m ρ c main_v31 (by decide)

theorem W7_v31 : W7 m ρ c (Proc.devRef .tc main_v31) = W4 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := by host_keep hostOps1
    _ = W4 m ρ c (Proc.devRef .tc main_v31) := W5_v31 m ρ c

theorem W9_v31 : W9 m ρ c (Proc.devRef .tc main_v31) = W4 m ρ c (Proc.devRef .tc main_v31) :=
  calc W9 m ρ c (Proc.devRef .tc main_v31)
    _ = W8 m ρ c (Proc.devRef .tc main_v31) := W9_of_ne m ρ c main_v31 (by decide)
    _ = W7 m ρ c (Proc.devRef .tc main_v31) := by host_keep hostOps2
    _ = W4 m ρ c (Proc.devRef .tc main_v31) := W7_v31 m ρ c

/-! ## The column of node factors, an input array of every region, stays as the first region found it -/

theorem W6_v32 : W6 m ρ c (Proc.devRef .tc main_v32) = W4 m ρ c (Proc.devRef .tc main_v32) :=
  calc W6 m ρ c (Proc.devRef .tc main_v32)
    _ = W5 m ρ c (Proc.devRef .tc main_v32) := by host_keep hostOps1
    _ = W4 m ρ c (Proc.devRef .tc main_v32) :=
        (W5_arr m ρ c 2).trans (((dat0 (V4 m ρ) c).arrAt_in 2 rfl _).trans (A_eq0 (V4 m ρ) c 2))

theorem W8_v32 : W8 m ρ c (Proc.devRef .tc main_v32) = W4 m ρ c (Proc.devRef .tc main_v32) :=
  calc W8 m ρ c (Proc.devRef .tc main_v32)
    _ = W7 m ρ c (Proc.devRef .tc main_v32) := by host_keep hostOps2
    _ = W6 m ρ c (Proc.devRef .tc main_v32) :=
        (W7_arr m ρ c 2).trans (((dat1 (V6 m ρ) c).arrAt_in 2 rfl _).trans (A_eq1 (V6 m ρ) c 2))
    _ = W4 m ρ c (Proc.devRef .tc main_v32) := W6_v32 m ρ c

theorem W10_v32 : W10 m ρ c (Proc.devRef .tc main_v32) = W4 m ρ c (Proc.devRef .tc main_v32) :=
  calc W10 m ρ c (Proc.devRef .tc main_v32)
    _ = W9 m ρ c (Proc.devRef .tc main_v32) := by host_keep hostOps3
    _ = W8 m ρ c (Proc.devRef .tc main_v32) :=
        (W9_arr m ρ c 2).trans (((dat2 (V8 m ρ) c).arrAt_in 2 rfl _).trans (A_eq2 (V8 m ρ) c 2))
    _ = W4 m ρ c (Proc.devRef .tc main_v32) := W8_v32 m ρ c

end Cert.Bridge.KCarry

end
-- ==== Proof.KHost.lean ====
/-
  What each of the four regions finds in its input arrays, as host-operation terms.

  Between the regions the program runs straight stretches of host operations. The first four stretches build, from
  the edge list, the source and destination index of every edge (self-loops appended), the factor of every node
  (from the number of edges ending in it), the order in which a stable sort by destination lists the edges, and the
  two index arrays read in that order. Each later stretch gathers the rows of the previous region's result at the
  sorted sources, sums them by sorted destination, and reshapes that layer's bias into a row.

  The buffer contents at every boundary are a fold through these stretches and regions. Here the fold is read at
  the few buffers that matter: first what one stretch leaves in a buffer it writes, as a term over the contents it
  started from (an arbitrary valuation, so that nothing earlier in the fold is ever opened); then that a stretch
  leaves alone every buffer it does not write; then, boundary by boundary, the contents of the buffers a region or a
  later stretch reads, as terms over the launch contents and the previous region's result.
-/
import proofs.«113922_j7919919694018_2_alg».proof.Proof.Gen.KernelIdeal.Frame
import proofs.«113922_j7919919694018_2_alg».proof.Proof.Edges
import proofs.«113922_j7919919694018_2_alg».proof.Proof.KCarry
import Idealize.ShloMosaic.Lib.StableHlo.Run

noncomputable section

namespace Cert.Bridge.KHost

open Cert.KernelIdeal Cert.KernelIdeal.Gen Idealize.ShloMosaic Idealize.ShloMosaic.TcCoe Idealize.SL.Sem Idealize.ShloMosaic.StableHlo
open Cert.Bridge

/-! ## What one stretch leaves in a buffer it writes, over the contents it started from -/

section Stretch
variable (Wp : Valuation τ sig (Elt Ideal))

set_option maxHeartbeats 400000 in
/-- The first stretch: row 0 of the edge list followed by the node numbers. -/
theorem s0_v3 : (StableHlo.after hostOps0 Wp (Proc.devRef .tc main_v3) : S3300000.Idx → BitVec 32)
    = Edges.srcOf (Wp (Proc.devRef .tc main_arg1)) := by
  after_results; rfl

set_option maxHeartbeats 400000 in
/-- Row 1 of the edge list followed by the node numbers. -/
theorem s0_v6 : (StableHlo.after hostOps0 Wp (Proc.devRef .tc main_v6) : S3300000.Idx → BitVec 32)
    = Edges.dstOf (Wp (Proc.devRef .tc main_arg1)) := by
  after_results; rfl

set_option maxHeartbeats 400000 in
/-- Where the degree is above zero. -/
theorem s0_v12 : (StableHlo.after hostOps0 Wp (Proc.devRef .tc main_v12) : S100000.Idx → BitVec 1)
    = cmpf .ogt (Edges.degOf (Edges.dstOf (Wp (Proc.devRef .tc main_arg1))))
        (broadcastInDim Edges.SN ![] Edges.bc0N (constant (F := Ideal) Edges.S0 .f32 0x00000000#32)) := by
  after_results; rfl

set_option maxHeartbeats 400000 in
/-- The reciprocal square root of the larger of the degree and one. -/
theorem s0_v15 : (StableHlo.after hostOps0 Wp (Proc.devRef .tc main_v15) : S100000.Idx → EReal)
    = Host.rsqrt (F := Ideal) (maximumf (Edges.degOf (Edges.dstOf (Wp (Proc.devRef .tc main_arg1))))
        (broadcastInDim Edges.SN ![] Edges.bc0N (constant (F := Ideal) Edges.S0 .f32 0x3F800000#32))) := by
  after_results; rfl

/-- The zero that fills the factor where the degree is zero. -/
theorem s0_cst3 : (StableHlo.after hostOps0 Wp (Proc.devRef .tc main_cst_3) : S_.Idx → EReal)
    = constant (F := Ideal) Edges.S0 .f32 0x00000000#32 := by
  after_results

/-- The second stretch chooses between the two, entry by entry. -/
theorem s01_v16 : (StableHlo.after hostOps0_1 Wp (Proc.devRef .tc main_v16) : S100000.Idx → EReal)
    = select (Wp (Proc.devRef .tc main_v12)) (Wp (Proc.devRef .tc main_v15))
        (broadcastInDim Edges.SN ![] Edges.bc0N (id (Wp (Proc.devRef .tc main_cst_3)))) := by
  after_results; rfl

/-- The third stretch sorts the destinations together with the edge positions and keeps the positions. The sort is
    never opened: both sides are the same application of it. -/
theorem s02_v17 : (StableHlo.after hostOps0_2 Wp (Proc.devRef .tc main_v17) : S3300000.Idx → BitVec 32)
    = Edges.ordOf comparator_i32_i32_d0 (Wp (Proc.devRef .tc main_v6)) := by
  after_results; rfl

set_option maxHeartbeats 400000 in
/-- The fourth stretch reads the sources in the sorted order, -/
theorem s03_v24 : (StableHlo.after hostOps0_3 Wp (Proc.devRef .tc main_v24) : S3300000.Idx → BitVec 32)
    = Edges.sortedOf (Wp (Proc.devRef .tc main_v3)) (Wp (Proc.devRef .tc main_v17)) := by
  after_results; rfl

set_option maxHeartbeats 400000 in
/-- the destinations in the sorted order, -/
theorem s03_v31 : (StableHlo.after hostOps0_3 Wp (Proc.devRef .tc main_v31) : S3300000.Idx → BitVec 32)
    = Edges.sortedOf (Wp (Proc.devRef .tc main_v6)) (Wp (Proc.devRef .tc main_v17)) := by
  after_results; rfl

set_option maxHeartbeats 400000 in
/-- and turns the node factors into a column. -/
theorem s03_v32 : (StableHlo.after hostOps0_3 Wp (Proc.devRef .tc main_v32) : S100000x1.Idx → EReal)
    = shapeCast S100000x1 (Wp (Proc.devRef .tc main_v16)) shapeCasts_S100000_S100000x1 := by
  after_results; rfl

set_option maxHeartbeats 400000 in
/-- The stretch after region 0: the rows of its result gathered at the sorted sources and summed by sorted
    destination, -/
theorem s1_v44 : (StableHlo.after hostOps1 Wp (Proc.devRef .tc main_v44) : S100000x64.Idx → EReal)
    = Edges.aggArr (Wp (Proc.devRef .tc main_v33)) bitsLt_bf16_f32 (Wp (Proc.devRef .tc main_v24)) (Wp (Proc.devRef .tc main_v31)) := by
  after_results; rfl

/-- and the first layer's bias as a row. -/
theorem s1_v45 : (StableHlo.after hostOps1 Wp (Proc.devRef .tc main_v45) : S1x64.Idx → EReal)
    = shapeCast S1x64 (Wp (Proc.devRef .tc main_arg3)) shapeCasts_S64_S1x64 := by
  after_results; rfl

set_option maxHeartbeats 400000 in
/-- The stretch after region 1: the same over region 1's result and the second bias. -/
theorem s2_v57 : (StableHlo.after hostOps2 Wp (Proc.devRef .tc main_v57) : S100000x64.Idx → EReal)
    = Edges.aggArr (Wp (Proc.devRef .tc main_v46)) bitsLt_bf16_f32 (Wp (Proc.devRef .tc main_v24)) (Wp (Proc.devRef .tc main_v31)) := by
  after_results; rfl

theorem s2_v58 : (StableHlo.after hostOps2 Wp (Proc.devRef .tc main_v58) : S1x64.Idx → EReal)
    = shapeCast S1x64 (Wp (Proc.devRef .tc main_arg5)) shapeCasts_S64_S1x64 := by
  after_results; rfl

set_option maxHeartbeats 400000 in
/-- The stretch after region 2: the same over region 2's result and the third bias. -/
theorem s3_v70 : (StableHlo.after hostOps3 Wp (Proc.devRef .tc main_v70) : S100000x64.Idx → EReal)
    = Edges.aggArr (Wp (Proc.devRef .tc main_v59)) bitsLt_bf16_f32 (Wp (Proc.devRef .tc main_v24)) (Wp (Proc.devRef .tc main_v31)) := by
  after_results; rfl

theorem s3_v71 : (StableHlo.after hostOps3 Wp (Proc.devRef .tc main_v71) : S1x64.Idx → EReal)
    = shapeCast S1x64 (Wp (Proc.devRef .tc main_arg7)) shapeCasts_S64_S1x64 := by
  after_results; rfl

end Stretch

/-! ## A stretch leaves alone every buffer it does not write (the two short stretches, whose neighbours' results pass through them) -/

/-- The buffers the choosing stretch writes. -/
abbrev wr01 : List (Ref sig .tc) := [main_call0_v0, main_call0_v1, main_v16]
/-- The buffers the sorting stretch writes. -/
abbrev wr02 : List (Ref sig .tc) := [main_call1_v0, main_call1_v1_0, main_v17]

section Keep
variable (Wp : Valuation τ sig (Elt Ideal))

theorem hW01 : (hostOps0_1 : List (HloOp τ sig (Elt Ideal))).Forall fun op => op.writes ⊆ (wr01.map (Proc.devRef (τ := τ) .tc)).toFinset := by
  simp only [hostOps0_1, List.Forall, StableHlo.unary_writes, StableHlo.ternary_writes, Finset.singleton_subset_iff]
  repeat' apply And.intro
  all_goals exact List.mem_toFinset.mpr (List.mem_map_of_mem (by decide))

theorem hW02 : (hostOps0_2 : List (HloOp τ sig (Elt Ideal))).Forall fun op => op.writes ⊆ (wr02.map (Proc.devRef (τ := τ) .tc)).toFinset := by
  simp only [hostOps0_2, List.Forall, StableHlo.nullary_writes, StableHlo.binary_writes, Finset.singleton_subset_iff]
  repeat' apply And.intro
  all_goals exact List.mem_toFinset.mpr (List.mem_map_of_mem (by decide))

theorem keep01 {r : Ref sig .tc} (hr : r ∉ wr01) : StableHlo.after hostOps0_1 Wp (Proc.devRef .tc r) = Wp (Proc.devRef .tc r) :=
  StableHlo.after_of_writes_sub hostOps0_1 Wp hW01 hr

theorem keep02 {r : Ref sig .tc} (hr : r ∉ wr02) : StableHlo.after hostOps0_2 Wp (Proc.devRef .tc r) = Wp (Proc.devRef .tc r) :=
  StableHlo.after_of_writes_sub hostOps0_2 Wp hW02 hr

end Keep

/-! ## The run: the contents at each boundary, from the launch on -/

section Run
variable (m : (ℓ : Loc nD τ sig) → Buf (Elt Ideal) ℓ) (ρ : Dev nD → PrngReg) (c : Dev nD)

/-- The edge list as launched. -/
abbrev x1 : IVec Edges.SEI 32 := m ((c : Thread nD τ).loc main_arg1)
/-- The source index of every edge, -/
abbrev S := Edges.srcOf (x1 m c)
/-- the destination index of every edge, -/
abbrev D := Edges.dstOf (x1 m c)
/-- the edge positions in the order a stable sort by destination lists them, -/
abbrev O := Edges.ordOf comparator_i32_i32_d0 (D m c)
/-- the sources and -/
abbrev SS := Edges.sortedOf (S m c) (O m c)
/-- the destinations read in that order, -/
abbrev SD := Edges.sortedOf (D m c) (O m c)
/-- and the node factors as a column. -/
abbrev dis2 : S100000x1.Idx → EReal := shapeCast S100000x1 (Edges.disOf (D m c)) shapeCasts_S100000_S100000x1

/-! ### Up to region 0's entry: the four stretches composed. The launch contents of the edge list are what the first
    stretch starts from; each later stretch starts from what the one before left. -/

theorem W1_v3 : (W1 m ρ c (Proc.devRef .tc main_v3) : S3300000.Idx → BitVec 32) = S m c := s0_v3 (W0 m ρ c)
theorem W1_v6 : (W1 m ρ c (Proc.devRef .tc main_v6) : S3300000.Idx → BitVec 32) = D m c := s0_v6 (W0 m ρ c)
theorem W1_v12 : (W1 m ρ c (Proc.devRef .tc main_v12) : S100000.Idx → BitVec 1)
    = cmpf .ogt (Edges.degOf (D m c)) (broadcastInDim Edges.SN ![] Edges.bc0N (constant (F := Ideal) Edges.S0 .f32 0x00000000#32)) :=
  s0_v12 (W0 m ρ c)
theorem W1_v15 : (W1 m ρ c (Proc.devRef .tc main_v15) : S100000.Idx → EReal)
    = Host.rsqrt (F := Ideal) (maximumf (Edges.degOf (D m c))
        (broadcastInDim Edges.SN ![] Edges.bc0N (constant (F := Ideal) Edges.S0 .f32 0x3F800000#32))) :=
  s0_v15 (W0 m ρ c)
theorem W1_cst3 : (W1 m ρ c (Proc.devRef .tc main_cst_3) : S_.Idx → EReal) = constant (F := Ideal) Edges.S0 .f32 0x00000000#32 :=
  s0_cst3 (W0 m ρ c)

/-- The node factors: the choice between the reciprocal square root and zero is the factor's definition. -/
theorem W2_v16 : (W2 m ρ c (Proc.devRef .tc main_v16) : S100000.Idx → EReal) = Edges.disOf (D m c) := by
  refine (s01_v16 (W1 m ρ c)).trans ?_
  rw [W1_v12 m ρ c, W1_v15 m ρ c, W1_cst3 m ρ c]
  rfl

theorem W2_v6 : (W2 m ρ c (Proc.devRef .tc main_v6) : S3300000.Idx → BitVec 32) = D m c :=
  (keep01 (W1 m ρ c) (by decide)).trans (W1_v6 m ρ c)
theorem W3_v6 : (W3 m ρ c (Proc.devRef .tc main_v6) : S3300000.Idx → BitVec 32) = D m c :=
  (keep02 (W2 m ρ c) (by decide)).trans (W2_v6 m ρ c)
theorem W3_v3 : (W3 m ρ c (Proc.devRef .tc main_v3) : S3300000.Idx → BitVec 32) = S m c :=
  (keep02 (W2 m ρ c) (by decide)).trans ((keep01 (W1 m ρ c) (by decide)).trans (W1_v3 m ρ c))
theorem W3_v16 : (W3 m ρ c (Proc.devRef .tc main_v16) : S100000.Idx → EReal) = Edges.disOf (D m c) :=
  (keep02 (W2 m ρ c) (by decide)).trans (W2_v16 m ρ c)
/-- The sorted order is the sort applied to the destinations; only its argument is rewritten. -/
theorem W3_v17 : (W3 m ρ c (Proc.devRef .tc main_v17) : S3300000.Idx → BitVec 32) = O m c :=
  (s02_v17 (W2 m ρ c)).trans (congrArg (Edges.ordOf comparator_i32_i32_d0) (W2_v6 m ρ c))

theorem W4_v24 : (W4 m ρ c (Proc.devRef .tc main_v24) : S3300000.Idx → BitVec 32) = SS m c := by
  refine (s03_v24 (W3 m ρ c)).trans ?_
  rw [W3_v3 m ρ c, W3_v17 m ρ c]
theorem W4_v31 : (W4 m ρ c (Proc.devRef .tc main_v31) : S3300000.Idx → BitVec 32) = SD m c := by
  refine (s03_v31 (W3 m ρ c)).trans ?_
  rw [W3_v6 m ρ c, W3_v17 m ρ c]
theorem W4_v32 : (W4 m ρ c (Proc.devRef .tc main_v32) : S100000x1.Idx → EReal) = dis2 m c := by
  refine (s03_v32 (W3 m ρ c)).trans ?_
  rw [W3_v16 m ρ c]

/-! ### A region's result at its exit is what its write-backs leave -/

theorem W5_v33 : W5 m ρ c (Proc.devRef .tc main_v33) = (dat0 (V4 m ρ) c).arrAt 3 cfg0.N := W5_arr m ρ c 3
theorem W7_v46 : W7 m ρ c (Proc.devRef .tc main_v46) = (dat1 (V6 m ρ) c).arrAt 4 cfg1.N := W7_arr m ρ c 4
theorem W9_v59 : W9 m ρ c (Proc.devRef .tc main_v59) = (dat2 (V8 m ρ) c).arrAt 4 cfg2.N := W9_arr m ρ c 4

/-! ### What the regions find -/

theorem V4_arg0 : V4 m ρ c main_arg0 = m ((c : Thread nD τ).loc main_arg0) := KCarry.W4_arg0 m ρ c
theorem V4_arg2 : V4 m ρ c main_arg2 = m ((c : Thread nD τ).loc main_arg2) := KCarry.W4_arg2 m ρ c
theorem V4_v32 : (V4 m ρ c main_v32 : S100000x1.Idx → EReal) = dis2 m c := W4_v32 m ρ c

theorem V6_v44 : (V6 m ρ c main_v44 : S100000x64.Idx → EReal)
    = Edges.aggArr ((dat0 (V4 m ρ) c).arrAt 3 cfg0.N) bitsLt_bf16_f32 (SS m c) (SD m c) := by
  refine (s1_v44 (W5 m ρ c)).trans ?_
  rw [W5_v33 m ρ c, KCarry.W5_v24 m ρ c, KCarry.W5_v31 m ρ c, W4_v24 m ρ c, W4_v31 m ρ c]
theorem V6_v45 : (V6 m ρ c main_v45 : S1x64.Idx → EReal) = shapeCast S1x64 (m ((c : Thread nD τ).loc main_arg3)) shapeCasts_S64_S1x64 := by
  refine (s1_v45 (W5 m ρ c)).trans ?_
  rw [KCarry.W5_arg3 m ρ c]
theorem V6_v32 : (V6 m ρ c main_v32 : S100000x1.Idx → EReal) = dis2 m c := (KCarry.W6_v32 m ρ c).trans (W4_v32 m ρ c)
theorem V6_arg4 : V6 m ρ c main_arg4 = m ((c : Thread nD τ).loc main_arg4) := KCarry.W6_arg4 m ρ c

theorem V8_v57 : (V8 m ρ c main_v57 : S100000x64.Idx → EReal)
    = Edges.aggArr ((dat1 (V6 m ρ) c).arrAt 4 cfg1.N) bitsLt_bf16_f32 (SS m c) (SD m c) := by
  refine (s2_v57 (W7 m ρ c)).trans ?_
  rw [W7_v46 m ρ c, KCarry.W7_v24 m ρ c, KCarry.W7_v31 m ρ c, W4_v24 m ρ c, W4_v31 m ρ c]
theorem V8_v58 : (V8 m ρ c main_v58 : S1x64.Idx → EReal) = shapeCast S1x64 (m ((c : Thread nD τ).loc main_arg5)) shapeCasts_S64_S1x64 := by
  refine (s2_v58 (W7 m ρ c)).trans ?_
  rw [KCarry.W7_arg5 m ρ c]
theorem V8_v32 : (V8 m ρ c main_v32 : S100000x1.Idx → EReal) = dis2 m c := (KCarry.W8_v32 m ρ c).trans (W4_v32 m ρ c)
theorem V8_arg6 : V8 m ρ c main_arg6 = m ((c : Thread nD τ).loc main_arg6) := KCarry.W8_arg6 m ρ c

theorem V10_v70 : (V10 m ρ c main_v70 : S100000x64.Idx → EReal)
    = Edges.aggArr ((dat2 (V8 m ρ) c).arrAt 4 cfg2.N) bitsLt_bf16_f32 (SS m c) (SD m c) := by
  refine (s3_v70 (W9 m ρ c)).trans ?_
  rw [W9_v59 m ρ c, KCarry.W9_v24 m ρ c, KCarry.W9_v31 m ρ c, W4_v24 m ρ c, W4_v31 m ρ c]
theorem V10_v71 : (V10 m ρ c main_v71 : S1x64.Idx → EReal) = shapeCast S1x64 (m ((c : Thread nD τ).loc main_arg7)) shapeCasts_S64_S1x64 := by
  refine (s3_v71 (W9 m ρ c)).trans ?_
  rw [KCarry.W9_arg7 m ρ c]
theorem V10_v32 : (V10 m ρ c main_v32 : S100000x1.Idx → EReal) = dis2 m c := (KCarry.W10_v32 m ρ c).trans (W4_v32 m ρ c)

end Run

end Cert.Bridge.KHost

end
-- ==== Proof.LibAggregate.lean ====
/-
  Aggregating messages along the edges of a graph, on the extended reals.

  A layer of a graph convolution sums, for every node n, the messages carried by the edges that end in n. With a
  per-node factor d (non-negative and not +infinity) the sum can be normalised in two ways: scale the rows of the
  feature array by d before they are gathered along the edges and scale the sum by d n afterwards, or scale every
  single message by d (source) * d (destination). This file shows the two agree at every entry, infinite features
  included, because a non-negative finite factor moves across a finite sum of extended reals. It also reads a
  gather from a one-dimensional array at an index (the entry at the clamped start index), shows that an index whose
  signed reading is a row number is left alone by the wrap "add the extent if negative" and by the clamp, and shows
  that the factor "reciprocal square root of the degree if the degree is positive, else zero" is non-negative and
  never +infinity. Any extents, any index width.
-/
import Idealize.ShloMosaic.PureOps.Ideal
import Idealize.ShloMosaic.PureOps.Ideal.Laws
import Idealize.ShloMosaic.PureOps.ShapeOps
import Idealize.ShloMosaic.Lib.ValueIdx
import proofs.«113922_j7919919694018_2_alg».proof.Proof.LibRowGather
import proofs.«113922_j7919919694018_2_alg».proof.Proof.LibSegmentSum
import proofs.«113922_j7919919694018_2_alg».proof.Proof.LibScaleSum

noncomputable section

namespace Cert.Lib.Aggregate

open Idealize.ShloMosaic Idealize.ShloMosaic.ValueIdx
open scoped BigOperators

/-- Scaling before the gather and after the segment sum is scaling every message. With hs the rows of h scaled by
    the per-node factor d, gathered at src and summed by segment at dst, the entry at node n times d n is the sum,
    over the edges ending in n, of the messages h[row(src e), q] * (d (row(src e)) * d n): the factor d n, being
    non-negative and finite, is taken into the sum, and the products are re-associated. -/
theorem scaled_segment_sum {N C E w : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (d : Fin N → EReal) (hd0 : ∀ n, 0 ≤ d n) (hdt : ∀ n, d n ≠ ⊤)
    (h hs : (⟨2, ![N, C]⟩ : Shape).Idx → EReal) (hhs : ∀ n q, hs (ix2 n q) = h (ix2 n q) * d n)
    (Z : (⟨2, ![N, C]⟩ : Shape).Idx → EReal) (hZ : ∀ i, Z i = 0)
    (src dst : IVec ⟨2, ![E, 1]⟩ w)
    (msg : (⟨2, ![E, C]⟩ : Shape).Idx → EReal) (n : Fin N) (q : Fin C)
    (hmsg : ∀ e : Fin E, (dst (ix2 e (0 : Fin 1))).toInt = (n.val : Int) →
      msg (ix2 e q) = h (ix2 (Cert.Bridge.RowGather.rowOf hN (src (ix2 e (0 : Fin 1)))) q)
        * (d (Cert.Bridge.RowGather.rowOf hN (src (ix2 e (0 : Fin 1)))) * d n)) :
    d n * Host.scatterAdd (F := Ideal) (φ := .f32) (Cert.Lib.SegmentSum.rowDims N C E wfS) Z dst
            (Host.gather (Cert.Bridge.RowGather.rowDims N C E wfG) hs src) (ix2 n q)
      = Host.scatterAdd (F := Ideal) (φ := .f32) (Cert.Lib.SegmentSum.rowDims N C E wfS) Z dst msg (ix2 n q) := by
  rw [Cert.Lib.SegmentSum.scatterAdd_rows_apply wfS, Cert.Lib.SegmentSum.scatterAdd_rows_apply wfS, hZ, zero_add,
    zero_add, mul_comm (d n), Cert.LibScaleSum.sum_mul_of_nonneg_of_ne_top _ _ (hd0 n) (hdt n)]
  refine Finset.sum_congr rfl (fun e he => ?_)
  rw [Cert.Bridge.RowGather.gather_rows_apply hN wfG hs src e q, hhs, hmsg e (Finset.mem_filter.mp he).2, mul_assoc]

/-- A 32-bit index whose signed reading is a row number n < N is not negative, so the wrap "add k if negative"
    leaves it as it is, and clamping its signed reading into [0, N - 1] gives n. -/
theorem rowOf_wrap_of_toInt_eq {N : Nat} (hN : 0 < N) (v k : BitVec 32) (n : Fin N) (hv : v.toInt = (n.val : Int)) :
    Cert.Bridge.RowGather.rowOf hN (Scalar.select (IntOp.cmpi .slt v 0#32) (IntOp.addi v k) v) = n := by
  have hslt : v.slt 0#32 = false := by
    rw [BitVec.slt_eq_decide, hv]
    simp
  have hsel : Scalar.select (IntOp.cmpi .slt v 0#32) (IntOp.addi v k) v = v := by
    unfold Scalar.select IntOp.cmpi
    simp only [hslt]
    rfl
  rw [hsel]
  refine Fin.ext ?_
  show min v.toInt.toNat (N - 1) = n.val
  rw [hv, Int.toNat_natCast]
  have := n.isLt
  omega

/-- The reciprocal square root of a positive extended real is non-negative and is not +infinity: at +infinity it is
    0, at a positive real r it is the real 1 / sqrt r. -/
theorem rsqrt_nonneg_ne_top_of_pos (x : EReal) (hx : 0 < x) : 0 ≤ Ideal.rsqrt x ∧ Ideal.rsqrt x ≠ ⊤ := by
  induction x using EReal.rec with
  | bot => exact absurd hx (not_lt_bot)
  | coe r =>
    have hr : (0 : ℝ) < r := by exact_mod_cast hx
    rw [Ideal.rsqrt_coe, if_neg (not_lt.mpr hr.le), if_neg hr.ne']
    exact ⟨EReal.coe_nonneg.mpr (inv_nonneg.mpr (Real.sqrt_nonneg r)), EReal.coe_ne_top _⟩
  | top =>
    rw [Ideal.rsqrt_top]
    exact ⟨le_refl _, EReal.zero_ne_top⟩

/-- The selection "the reciprocal square root of x if x is above zero, else zero", read at the extended reals. -/
theorem select_rsqrt_eq (x z : EReal) (hz : z = 0) :
    Scalar.select (FloatOps.cmpf (F := Ideal) (φ := .f32) .ogt x z) (FloatOps.hostUnary (F := Ideal) (φ := .f32) .rsqrt x) z
      = if 0 < x then Ideal.rsqrt x else 0 := by
  subst hz
  rw [Ideal.cmpf_def, Ideal.hostUnary_rsqrt_def]
  unfold Scalar.select Ideal.cmp
  by_cases hx : (0 : EReal) < x
  · rw [if_pos hx, if_pos (by simp [hx])]
  · rw [if_neg hx, if_neg (by simp [hx])]

/-- The per-node factor of a normalised layer: whatever the degree x is, "the reciprocal square root of x if x is
    above zero, else zero" is non-negative. -/
theorem select_rsqrt_nonneg (x z : EReal) (hz : z = 0) :
    0 ≤ Scalar.select (FloatOps.cmpf (F := Ideal) (φ := .f32) .ogt x z) (FloatOps.hostUnary (F := Ideal) (φ := .f32) .rsqrt x) z := by
  rw [select_rsqrt_eq x z hz]
  by_cases hx : (0 : EReal) < x
  · rw [if_pos hx]; exact (rsqrt_nonneg_ne_top_of_pos x hx).1
  · rw [if_neg hx]

/-- ... and it is never +infinity: the reciprocal square root is +infinity only at zero, where the selection takes
    the other branch. -/
theorem select_rsqrt_ne_top (x z : EReal) (hz : z = 0) :
    Scalar.select (FloatOps.cmpf (F := Ideal) (φ := .f32) .ogt x z) (FloatOps.hostUnary (F := Ideal) (φ := .f32) .rsqrt x) z ≠ ⊤ := by
  rw [select_rsqrt_eq x z hz]
  by_cases hx : (0 : EReal) < x
  · rw [if_pos hx]; exact (rsqrt_nonneg_ne_top_of_pos x hx).2
  · rw [if_neg hx]; exact EReal.zero_ne_top

/-- A vector gather: operand [N], start indices [E, 1], result [E]; the one operand axis is collapsed and addressed
    by the one component of the start index (what x[idx] lowers to for a one-dimensional x). -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at e is the operand at the start index of e, read signed and clamped into [0, N - 1]. Any
    element type, any index width. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (Cert.Bridge.RowGather.rowOf hN (idx (ix2 e (0 : Fin 1))))) := by
  -- the one coordinate: the clamped start; no batching coordinate, no offset on a collapsed axis
  have h0 : ((vecDims N E wf).operandIdx (ix1 e) idx 0).val = min (idx (ix2 e (0 : Fin 1))).toInt.toNat (N - 1) := by
    show (vecDims N E wf).start (ix1 e) idx 0 + (vecDims N E wf).batchCoord (ix1 e) 0
        + (vecDims N E wf).offCoord (ix1 e) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  refine congrArg x ?_
  funext a
  refine Fin.ext ?_
  match a with
  | ⟨0, _⟩ => exact h0

end Cert.Lib.Aggregate

end
-- ==== Proof.EdgesSort.lean ====
/-
  Sorting the edges by destination does not change a layer's sum.

  A stable sort of the destination indices, carried out together with the vector of positions 0, 1, 2, …, returns
  in its second component the positions in sorted order. Whatever the comparator is, that vector is a permutation
  σ of the edge positions written as 32-bit words: the sort reads both vectors through one self-map of the
  positions, and that map is onto, hence one-to-one. An edge array gathered at these words is the array re-indexed
  by σ, because a position is below 2^31: read signed it is not negative, so the wrap of negative indices leaves it
  alone and the clamp keeps it. The layer sum built from the re-indexed source and destination arrays is, at node n
  and column q, the sum over the positions j with destination (σ j) = n of the row at the source of edge σ j;
  substituting e = σ j, it is the sum over the edges e landing on n of the row at the source of e.
-/
import Idealize.ShloMosaic.PureOps.Ideal
import Idealize.ShloMosaic.PureOps.Ideal.Laws
import Idealize.ShloMosaic.PureOps.ShapeOps
import Idealize.ShloMosaic.Lib.ValueIdx
import Idealize.ShloMosaic.Lib.IdealHost
import Idealize.ShloMosaic.Lib.SortFacts
import proofs.«113922_j7919919694018_2_alg».proof.Proof.Edges
import proofs.«113922_j7919919694018_2_alg».proof.Proof.Spec
import proofs.«113922_j7919919694018_2_alg».proof.Proof.LibAggregate
import proofs.«113922_j7919919694018_2_alg».proof.Proof.LibRowGather
import proofs.«113922_j7919919694018_2_alg».proof.Proof.LibSegmentSum
import proofs.«113922_j7919919694018_2_alg».proof.Proof.LibVecIndex

noncomputable section

namespace Cert.Bridge.EdgesSort

open Idealize.ShloMosaic Idealize.ShloMosaic.ValueIdx
open scoped BigOperators

/-! ## The sort of a vector together with its positions -/

/-- Sorting two vectors together along their one axis reads the second through one self-map of the positions:
    the stable sorting map of the comparator on the pairs of their entries. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The two ways of writing the index of a vector at coordinate j agree. -/
theorem ix1_eq_ofFin {n : Nat} (j : Fin n) : (ix1 j : (⟨1, ![n]⟩ : Shape).Idx) = Shape.Idx.ofFin j :=
  Shape.Idx.eq_ofFin (ix1 j)

/-- The positions in sorted order are a permutation of the positions, each written as a 32-bit word: the sorting
    map is onto and one-to-one, and the vector of positions holds at k the word of k. -/
theorem argsort_perm {n : Nat} (cmp : BitVec 32 × BitVec 32 → BitVec 32 × BitVec 32 → BitVec 1)
    (key : IVec ⟨1, ![n]⟩ 32) :
    ∃ σ : Equiv.Perm (Fin n), ∀ j : Fin n,
      (Host.sort2 ⟨1, ![n]⟩ 0 cmp key (iotaInDim ⟨1, ![n]⟩ 32 0)).2 (ix1 j) = BitVec.ofNat 32 (σ j).val := by
  refine ⟨Equiv.ofBijective (sortedFrom (fun k k' => cmp (key (Shape.Idx.ofFin k), iotaInDim ⟨1, ![n]⟩ 32 0 (Shape.Idx.ofFin k))
          (key (Shape.Idx.ofFin k'), iotaInDim ⟨1, ![n]⟩ 32 0 (Shape.Idx.ofFin k')) == 1#1))
      ⟨sortedFrom_injective _, sortedFrom_surjective _⟩, fun j => ?_⟩
  rw [sort2_snd_rank1]
  rfl

/-- The sorted edge positions are a permutation of the 3300000 edge positions. -/
theorem exists_perm (cmp : BitVec 32 × BitVec 32 → BitVec 32 × BitVec 32 → BitVec 1) (dst : IVec Edges.SE 32) :
    ∃ σ : Equiv.Perm (Fin 3300000), ∀ j, Edges.ordOf cmp dst (ix1 j) = BitVec.ofNat 32 (σ j).val :=
  argsort_perm cmp dst

/-! ## Reading the index columns -/

/-- A vector turned into a column reads, in row j, the vector's entry j. -/
theorem column_apply {n w : Nat} (hb : (⟨1, ![n]⟩ : Shape).BroadcastsInDim ⟨2, ![n, 1]⟩ (![0] : Fin 1 → Fin 2))
    (v : IVec ⟨1, ![n]⟩ w) (j : Fin n) :
    broadcastInDim ⟨2, ![n, 1]⟩ ![0] hb v (ix2 j (0 : Fin 1)) = v (ix1 j) := by
  unfold broadcastInDim
  refine congrArg v (funext fun a => Fin.ext ?_)
  obtain rfl : a = 0 := Subsingleton.elim _ _
  split
  · rename_i h1
    have hn : n = 1 := h1
    have := j.isLt
    show 0 = j.val
    omega
  · rfl

/-- An edge vector as a column reads, in row j, its entry j. -/
theorem col_apply (v : IVec Edges.SE 32) (j : Fin 3300000) : Edges.col v (ix2 j (0 : Fin 1)) = v (ix1 j) :=
  column_apply Edges.bcCol v j

/-- The wrap of a vector, entry by entry. -/
theorem wrapVec_apply (k : BitVec 32) (v : IVec Edges.SE 32) (i : Edges.SE.Idx) :
    Edges.wrapVec k v i = Spec.wrap k (v i) := rfl

/-- A position below 2^31 written as a 32-bit word reads back, signed, as itself. -/
theorem toInt_ofNat_of_lt (k : Nat) (hk : k < 2 ^ 31) : (BitVec.ofNat 32 k).toInt = (k : Int) := by
  have h1 : (BitVec.ofNat 32 k).toNat = k := by
    rw [BitVec.toNat_ofNat]
    exact Nat.mod_eq_of_lt (by omega)
  rw [BitVec.toInt_eq_toNat_of_lt (by rw [h1]; omega), h1]

/-! ## An array read in the sorted order -/

/-- Gathering an edge array at positions that are a permutation of the edge positions re-indexes it by the
    permutation: a position, being below 2^31, is not negative, so the wrap leaves it alone and the clamp keeps it. -/
theorem sortedOf_apply_of (a ord : IVec Edges.SE 32) (σ : Equiv.Perm (Fin 3300000))
    (hσ : ∀ j, ord (ix1 j) = BitVec.ofNat 32 (σ j).val) (j : Fin 3300000) :
    Edges.sortedOf a ord (ix1 j) = a (ix1 (σ j)) := by
  unfold Edges.sortedOf
  refine (Cert.Lib.VecIndex.gather_vec_apply (by decide : 0 < 3300000) Edges.wfGathE a _ j).trans ?_
  refine congrArg (fun r => a (ix1 r)) ?_
  rw [col_apply, wrapVec_apply, hσ]
  generalize σ j = r
  exact Cert.Lib.Aggregate.rowOf_wrap_of_toInt_eq _ _ _ r (toInt_ofNat_of_lt r.val (by have := r.isLt; omega))

/-- An edge array read in the order of the sort by destination is the array re-indexed by the sorting permutation. -/
theorem sortedOf_apply (cmp : BitVec 32 × BitVec 32 → BitVec 32 × BitVec 32 → BitVec 1) (a dst : IVec Edges.SE 32)
    (σ : Equiv.Perm (Fin 3300000)) (hσ : ∀ j, Edges.ordOf cmp dst (ix1 j) = BitVec.ofNat 32 (σ j).val)
    (j : Fin 3300000) :
    Edges.sortedOf a (Edges.ordOf cmp dst) (ix1 j) = a (ix1 (σ j)) :=
  sortedOf_apply_of a _ σ hσ j

/-! ## A layer's sum over the sorted edges -/

/-- A sum over the positions j whose image under a permutation satisfies a condition, of a function of the image,
    is the sum over the positions that satisfy the condition. -/
theorem sum_filter_perm {E : Nat} {M : Type*} [AddCommMonoid M] (σ : Equiv.Perm (Fin E)) (P : Fin E → Prop)
    [DecidablePred P] (f : Fin E → M) :
    ∑ j ∈ Finset.univ.filter (fun j => P (σ j)), f (σ j) = ∑ e ∈ Finset.univ.filter P, f e := by
  rw [Finset.sum_filter, Finset.sum_filter]
  exact Equiv.sum_comp σ (fun e => if P e then f e else 0)

/-- The layer sum over edge arrays that are the source and destination arrays re-indexed by one permutation of the
    edge positions is the sum over the edges landing on the node, of the rows at their sources. -/
theorem aggArr_apply_of (h : FVec Ideal Edges.SNC .bf16) (bl : FTy.bits .bf16 < FTy.bits .f32)
    (src' dst' src dst : IVec Edges.SE 32) (σ : Equiv.Perm (Fin 3300000))
    (hs : ∀ j, src' (ix1 j) = src (ix1 (σ j))) (hd : ∀ j, dst' (ix1 j) = dst (ix1 (σ j)))
    (n : Fin 100000) (q : Fin 64) :
    Edges.aggArr h bl src' dst' (ix2 n q)
      = ∑ e ∈ Spec.landOf dst n, h (ix2 (Spec.srcRow (by decide) src e) q) := by
  unfold Edges.aggArr
  refine (Cert.Lib.SegmentSum.scatterAdd_rows_apply Edges.wfScatNC _ _ _ n q).trans ?_
  rw [broadcastInDim_scalar_apply, constant_apply, Ideal.ofBits_zero_f32, zero_add]
  unfold Spec.landOf
  refine Eq.trans ?_ (sum_filter_perm σ (fun e => (dst (ix1 e)).toInt = (n.val : Int))
    (fun e => h (ix2 (Spec.srcRow (by decide) src e) q)))
  refine Finset.sum_congr (Finset.filter_congr fun j _ => by rw [col_apply, hd]) fun j _ => ?_
  rw [extf_apply]
  refine (Cert.Bridge.RowGather.gather_rows_apply (by decide : 0 < 100000) Edges.wfGathNC h _ j q).trans ?_
  rw [col_apply, wrapVec_apply, hs]
  rfl

/-- The layer sum over the edges sorted by destination, at node n and column q, is the sum over the edges landing
    on n of the rows at their sources: the sort only re-indexes the sum. -/
theorem aggArr_apply (h : FVec Ideal Edges.SNC .bf16) (bl : FTy.bits .bf16 < FTy.bits .f32)
    (cmp : BitVec 32 × BitVec 32 → BitVec 32 × BitVec 32 → BitVec 1) (src dst : IVec Edges.SE 32)
    (n : Fin 100000) (q : Fin 64) :
    Edges.aggArr h bl (Edges.sortedOf src (Edges.ordOf cmp dst)) (Edges.sortedOf dst (Edges.ordOf cmp dst)) (ix2 n q)
      = ∑ e ∈ Spec.landOf dst n, h (ix2 (Spec.srcRow (by decide) src e) q) := by
  obtain ⟨σ, hσ⟩ := exists_perm cmp dst
  exact aggArr_apply_of h bl _ _ src dst σ (fun j => sortedOf_apply cmp src dst σ hσ j)
    (fun j => sortedOf_apply cmp dst dst σ hσ j) n q

end Cert.Bridge.EdgesSort

end
-- ==== Proof.KValue.lean ====
/-
  The kernel program's result array at an entry, as the network normalised at the nodes.

  The program runs four regions with host operations between them. The first region stores, for every node p, the
  first layer's linear map of that node's features scaled by the node's factor. Each following stretch of host
  operations gathers those rows at the edges' sources and sums them by destination (over the edges sorted by
  destination, which is the same sum), and each following region scales the sum by the node's factor, adds the bias,
  clamps at zero, applies the next layer's linear map and scales again; the last region only scales and adds the
  bias. Unwinding the regions from the last to the first gives the specification's three node-normalised layers.
-/
import proofs.«113922_j7919919694018_2_alg».proof.Proof.Gen.KernelIdeal.Frame
import proofs.«113922_j7919919694018_2_alg».proof.Proof.Edges
import proofs.«113922_j7919919694018_2_alg».proof.Proof.Spec
import proofs.«113922_j7919919694018_2_alg».proof.Proof.LibUnitAxis
import proofs.«113922_j7919919694018_2_alg».proof.Proof.KRegions
import proofs.«113922_j7919919694018_2_alg».proof.Proof.KHost
import proofs.«113922_j7919919694018_2_alg».proof.Proof.EdgesSort
import Idealize.ShloMosaic.Lib.ValueLayout

noncomputable section

open Cert.KernelIdeal Cert.KernelIdeal.Gen Idealize.ShloMosaic Idealize.ShloMosaic.TcCoe Idealize.SL.Sem Idealize.ShloMosaic.ValueIdx
open Cert.Bridge

namespace Cert.Bridge.KValue

open Cert.Bridge.KHost

variable (m : (ℓ : Loc nD τ sig) → Buf (Elt Ideal) ℓ) (ρ : Dev nD → PrngReg) (c : Dev nD)

/-- The launch contents of the argument arrays, as functions of their literal index types. -/
abbrev x0 : S100000x128.Idx → EReal := m ((c : Thread nD τ).loc main_arg0)
abbrev x2 : S128x64.Idx → EReal := m ((c : Thread nD τ).loc main_arg2)
abbrev x3 : S64.Idx → EReal := m ((c : Thread nD τ).loc main_arg3)
abbrev x4 : S64x64.Idx → EReal := m ((c : Thread nD τ).loc main_arg4)
abbrev x5 : S64.Idx → EReal := m ((c : Thread nD τ).loc main_arg5)
abbrev x6 : S64x64.Idx → EReal := m ((c : Thread nD τ).loc main_arg6)
abbrev x7 : S64.Idx → EReal := m ((c : Thread nD τ).loc main_arg7)

/-- The graph as the specification sees it: the edges landing on a node, an edge's source row, a node's factor. -/
abbrev land : Fin 100000 → Finset (Fin 3300000) := Spec.landOf (D m c)
abbrev srow : Fin 3300000 → Fin 100000 := Spec.srcRow (by decide) (S m c)
abbrev d (p : Fin 100000) : EReal := Edges.disOf (D m c) (ix1 p)

/-- The features and the layers' parameters as plain functions of coordinates. -/
abbrev X (p : Fin 100000) (k : Fin 128) : EReal := x0 m c (ix2 p k)
abbrev W1 (k : Fin 128) (q : Fin 64) : EReal := x2 m c (ix2 k q)
abbrev b1 (q : Fin 64) : EReal := x3 m c (ix1 q)
abbrev W2 (k : Fin 64) (q : Fin 64) : EReal := x4 m c (ix2 k q)
abbrev b2 (q : Fin 64) : EReal := x5 m c (ix1 q)
abbrev W3 (k : Fin 64) (q : Fin 64) : EReal := x6 m c (ix2 k q)
abbrev b3 (q : Fin 64) : EReal := x7 m c (ix1 q)

/-- The factor column read at row p is the factor of node p. -/
theorem dis2_apply (p : Fin 100000) : dis2 m c (ix2 p (0 : Fin 1)) = d m c p :=
  Cert.Lib.UnitAxis.shapeCast_a_a1_apply _ _ p 0

/-- A bias vector laid out as a one-row matrix read at column q is the vector at q. -/
theorem bias_apply (b : S64.Idx → EReal) (q : Fin 64) :
    shapeCast S1x64 b shapeCasts_S64_S1x64 (ix2 (0 : Fin 1) q) = b (ix1 q) :=
  shapeCast_a_1a_apply _ _ 0 q

/-- The sum over the sorted edges of the rows of an array whose row p is g p scaled by node p's factor is the
    node-normalised sum of g. -/
theorem agg_eq (h : FVec Ideal Edges.SNC .bf16) (g : Fin 100000 → Fin 64 → EReal)
    (hg : ∀ p q, h (ix2 p q) = g p q * d m c p) (n : Fin 100000) (q : Fin 64) :
    Edges.aggArr h bitsLt_bf16_f32 (SS m c) (SD m c) (ix2 n q) = Spec.aggNode (land m c) (srow m c) (d m c) g n q := by
  rw [Cert.Bridge.EdgesSort.aggArr_apply]
  unfold Spec.aggNode
  exact Finset.sum_congr rfl fun e _ => hg _ _

/-- What the first region leaves: the first layer's linear map of the features, each row scaled by its node's factor. -/
theorem arr0_eq (p : Fin 100000) (q : Fin 64) :
    (dat0 (V4 m ρ) c).arrAt 3 cfg0.N (ix2 p q) = Spec.lin (X m c) (W1 m c) p q * d m c p := by
  rw [Cert.Bridge.KRegions.final0 (V4 m ρ) c _ _ _ (V4_arg0 m ρ c) (V4_arg2 m ρ c) (V4_v32 m ρ c) p q, dis2_apply]
  rfl

/-- What the second region leaves: the second layer's linear map of the first hidden layer, rows scaled. -/
theorem arr1_eq (p : Fin 100000) (q : Fin 64) :
    (dat1 (V6 m ρ) c).arrAt 4 cfg1.N (ix2 p q)
      = Spec.lin (Spec.hidNode (land m c) (srow m c) (d m c) (X m c) (W1 m c) (b1 m c)) (W2 m c) p q * d m c p := by
  rw [Cert.Bridge.KRegions.final1 (V6 m ρ) c _ _ _ _ (V6_v44 m ρ c) (V6_v45 m ρ c) (V6_v32 m ρ c) (V6_arg4 m ρ c) p q, dis2_apply]
  unfold Spec.lin Spec.hidNode
  refine congrArg (· * d m c p) (Finset.sum_congr rfl fun k _ => ?_)
  rw [agg_eq m c _ _ (arr0_eq m ρ c) p k, bias_apply]

/-- What the third region leaves: the third layer's linear map of the second hidden layer, rows scaled. -/
theorem arr2_eq (p : Fin 100000) (q : Fin 64) :
    (dat2 (V8 m ρ) c).arrAt 4 cfg2.N (ix2 p q)
      = Spec.lin (Spec.hidNode (land m c) (srow m c) (d m c)
          (Spec.hidNode (land m c) (srow m c) (d m c) (X m c) (W1 m c) (b1 m c)) (W2 m c) (b2 m c)) (W3 m c) p q * d m c p := by
  rw [Cert.Bridge.KRegions.final2 (V8 m ρ) c _ _ _ _ (V8_v57 m ρ c) (V8_v58 m ρ c) (V8_v32 m ρ c) (V8_arg6 m ρ c) p q, dis2_apply]
  unfold Spec.lin
  refine congrArg (· * d m c p) (Finset.sum_congr rfl fun k _ => ?_)
  rw [agg_eq m c _ _ (arr1_eq m ρ c) p k, bias_apply]
  rfl

/-- The kernel program's result at (n, q) is the network normalised at the nodes. -/
theorem kernel_value (n : Fin 100000) (q : Fin 64) :
    (dat3 (V10 m ρ) c).arrAt 3 cfg3.N (ix2 n q)
      = Spec.outNode (land m c) (srow m c) (d m c) (X m c) (W1 m c) (b1 m c) (W2 m c) (b2 m c) (W3 m c) (b3 m c) n q := by
  rw [Cert.Bridge.KRegions.final3 (V10 m ρ) c _ _ _ (V10_v70 m ρ c) (V10_v71 m ρ c) (V10_v32 m ρ c) n q, dis2_apply,
    agg_eq m c _ _ (arr2_eq m ρ c) n q, bias_apply]
  rfl

end Cert.Bridge.KValue

namespace Cert.Bridge.KValue

/-- The kernel program's result buffer at the end of the chain of boundary contents, read at (n, q), for the
    argument arrays named: the network normalised at the nodes. -/
theorem kernel_result (m : (ℓ : Loc nD τ sig) → Buf (Elt Ideal) ℓ) (ρ : Dev nD → PrngReg) (c : Dev nD) (n : Fin 100000) (q : Fin 64)
    (x0 : S100000x128.Idx → EReal) (x1 : IVec Edges.SEI 32) (x2 : S128x64.Idx → EReal) (x3 : S64.Idx → EReal) (x4 : S64x64.Idx → EReal)
    (x5 : S64.Idx → EReal) (x6 : S64x64.Idx → EReal) (x7 : S64.Idx → EReal)
    (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4) (h5 : m ((c : Thread nD τ).loc main_arg5) = x5)
    (h6 : m ((c : Thread nD τ).loc main_arg6) = x6) (h7 : m ((c : Thread nD τ).loc main_arg7) = x7) :
    W11 (F := Ideal) m ρ c (Proc.devRef .tc main_v72) (ix2 n q)
      = Spec.outNode (Spec.landOf (Edges.dstOf x1)) (Spec.srcRow (N := 100000) (by decide) (Edges.srcOf x1)) (fun p => Edges.disOf (Edges.dstOf x1) (ix1 p))
          (fun p k => x0 (ix2 p k)) (fun k q => x2 (ix2 k q)) (fun q => x3 (ix1 q)) (fun k q => x4 (ix2 k q)) (fun q => x5 (ix1 q))
          (fun k q => x6 (ix2 k q)) (fun q => x7 (ix1 q)) n q := by
  subst h0 h1 h2 h3 h4 h5 h6 h7
  rw [show W11 (F := Ideal) m ρ c (Proc.devRef .tc main_v72) = (dat3 (V10 m ρ) c).arrAt 3 cfg3.N from W11_arr m ρ c 3]
  exact kernel_value m ρ c n q

end Cert.Bridge.KValue

end
-- ==== Proof.EdgesRef.lean ====
/-
  The reference's layer sum over the edges, read at an entry, and the two facts about the node factor that let
  it move across a sum.

  The factor of a node is "the reciprocal square root of the larger of the degree and 1 where the degree is above
  zero, else zero". Whatever the degree is, the larger of it and 1 is at least 1, so the reciprocal square root is
  taken at a positive extended real: it is non-negative and not +infinity; the other branch is zero. Hence the
  factor is non-negative and never +infinity, with nothing known about the degree.

  The reference sums, for node n and column q, over the edges whose destination index (read signed) is n, the entry
  (source row, q) of the features times the edge's weight; the weight is the product of the factors at the two
  wrapped and clamped end indices. For an edge that lands on n the destination index is a row number already, so
  wrapping and clamping leave it alone and the second factor is the factor of n itself.
-/
import Idealize.ShloMosaic.PureOps.Ideal
import Idealize.ShloMosaic.PureOps.Ideal.Laws
import Idealize.ShloMosaic.PureOps.ShapeOps
import Idealize.ShloMosaic.Lib.ValueIdx
import Idealize.ShloMosaic.Lib.IdealHost
import proofs.«113922_j7919919694018_2_alg».proof.Proof.Edges
import proofs.«113922_j7919919694018_2_alg».proof.Proof.Spec
import proofs.«113922_j7919919694018_2_alg».proof.Proof.LibRowGather
import proofs.«113922_j7919919694018_2_alg».proof.Proof.LibSegmentSum
import proofs.«113922_j7919919694018_2_alg».proof.Proof.LibVecIndex
import proofs.«113922_j7919919694018_2_alg».proof.Proof.LibAggregate

noncomputable section

namespace Cert.Bridge.EdgesRef

open Idealize.ShloMosaic Idealize.ShloMosaic.ValueIdx
open scoped BigOperators

/-! ## The node factor -/

/-- The selection "the reciprocal square root of max(x, o) if x is above z, else z'", with o = 1 and z' = 0, is
    non-negative and not +infinity for every extended real x: max(x, 1) is positive. -/
theorem factor_nonneg_ne_top (x z o z' : EReal) (ho : o = 1) (hz' : z' = 0) :
    0 ≤ Scalar.select (FloatOps.cmpf (F := Ideal) (φ := .f32) .ogt x z)
          (FloatOps.hostUnary (F := Ideal) (φ := .f32) .rsqrt (max x o)) z'
      ∧ Scalar.select (FloatOps.cmpf (F := Ideal) (φ := .f32) .ogt x z)
          (FloatOps.hostUnary (F := Ideal) (φ := .f32) .rsqrt (max x o)) z' ≠ ⊤ := by
  subst ho hz'
  have hpos : (0 : EReal) < max x 1 := lt_of_lt_of_le zero_lt_one (le_max_right x 1)
  rw [Ideal.hostUnary_rsqrt_def]
  unfold Scalar.select
  split_ifs
  · exact Cert.Lib.Aggregate.rsqrt_nonneg_ne_top_of_pos _ hpos
  · exact ⟨le_refl _, EReal.zero_ne_top⟩

/-- The same for a whole vector of degrees, whatever they are: entry n of "the reciprocal square root of
    max(degree, 1) where the degree is above zero, else zero" is non-negative and not +infinity. -/
theorem factorVec_nonneg_ne_top (deg : FVec Ideal Edges.SN .f32) (n : Fin 100000) :
    0 ≤ select (cmpf .ogt deg (broadcastInDim Edges.SN ![] Edges.bc0N (constant Edges.S0 .f32 0x00000000#32)))
          (Host.rsqrt (maximumf deg (broadcastInDim Edges.SN ![] Edges.bc0N (constant Edges.S0 .f32 0x3F800000#32))))
          (broadcastInDim Edges.SN ![] Edges.bc0N (id (constant Edges.S0 .f32 0x00000000#32))) (ix1 n)
      ∧ select (cmpf .ogt deg (broadcastInDim Edges.SN ![] Edges.bc0N (constant Edges.S0 .f32 0x00000000#32)))
          (Host.rsqrt (maximumf deg (broadcastInDim Edges.SN ![] Edges.bc0N (constant Edges.S0 .f32 0x3F800000#32))))
          (broadcastInDim Edges.SN ![] Edges.bc0N (id (constant Edges.S0 .f32 0x00000000#32))) (ix1 n) ≠ ⊤ :=
  factor_nonneg_ne_top (deg (ix1 n)) (Ideal.ofBits .f32 0x00000000#32) (Ideal.ofBits .f32 0x3F800000#32)
    (Ideal.ofBits .f32 0x00000000#32) Ideal.ofBits_one_f32 Ideal.ofBits_zero_f32

/-- The factor of a node is non-negative. -/
theorem disOf_nonneg (dst : IVec Edges.SE 32) (n : Fin 100000) : 0 ≤ Edges.disOf dst (ix1 n) := by
  unfold Edges.disOf
  exact (factorVec_nonneg_ne_top _ n).1

/-- The factor of a node is never +infinity. -/
theorem disOf_ne_top (dst : IVec Edges.SE 32) (n : Fin 100000) : Edges.disOf dst (ix1 n) ≠ ⊤ := by
  unfold Edges.disOf
  exact (factorVec_nonneg_ne_top _ n).2

/-! ## Index arrays read at an index -/

/-- An index vector made a column reads, at row e, the vector's entry e. -/
theorem col_apply (v : IVec Edges.SE 32) (e : Fin 3300000) : Edges.col v (ix2 e (0 : Fin 1)) = v (ix1 e) := by
  unfold Edges.col broadcastInDim
  refine congrArg v (funext fun a => Fin.ext ?_)
  match a with
  | ⟨0, _⟩ => rfl

/-- The wrap of a whole vector is the wrap of each entry. -/
theorem wrapVec_apply (k : BitVec 32) (v : IVec Edges.SE 32) (i : Edges.SE.Idx) :
    Edges.wrapVec k v i = Spec.wrap k (v i) := rfl

/-- The column of wrapped indices at row e: entry e, wrapped. -/
theorem col_wrapVec_apply (k : BitVec 32) (v : IVec Edges.SE 32) (e : Fin 3300000) :
    Edges.col (Edges.wrapVec k v) (ix2 e (0 : Fin 1)) = Spec.wrap k (v (ix1 e)) :=
  (col_apply _ e).trans (wrapVec_apply k v (ix1 e))

/-- One value per edge spread over the edge's whole row reads, at (e, q), the value of edge e. -/
theorem spread_apply {α : Type} (w : Edges.SE.Idx → α) (e : Fin 3300000) (q : Fin 64) :
    broadcastInDim Edges.SEC ![0, 1] Edges.bcColC (broadcastInDim Edges.SE1 ![0] Edges.bcCol w) (ix2 e q) = w (ix1 e) := by
  unfold broadcastInDim
  refine congrArg w (funext fun a => Fin.ext ?_)
  match a with
  | ⟨0, _⟩ => rfl

/-- The weight of edge e: the factor at its source row times the factor at its wrapped and clamped destination. -/
theorem normOf_apply (dis : FVec Ideal Edges.SN .f32) (src dst : IVec Edges.SE 32) (e : Fin 3300000) :
    Edges.normOf dis src dst (ix1 e)
      = dis (ix1 (Spec.srcRow (by decide) src e))
        * dis (ix1 (Cert.Bridge.RowGather.rowOf (N := 100000) (by decide) (Spec.wrap 100000#32 (dst (ix1 e))))) := by
  unfold Edges.normOf
  refine (mulf_apply _ _ _).trans ?_
  rw [Cert.Lib.VecIndex.gather_vec_apply (by decide) Edges.wfGathN dis _ e,
    Cert.Lib.VecIndex.gather_vec_apply (by decide) Edges.wfGathN dis _ e, col_wrapVec_apply, col_wrapVec_apply]
  rfl

/-! ## The reference's layer sum at an entry -/

/-- Entry (n, q) of the edge-normalised sum: over the edges landing on n, the source row's entry in column q times
    the product of the source row's factor and the factor of n. -/
theorem msgArr_apply (H : FVec Ideal Edges.SNC .f32) (dis : FVec Ideal Edges.SN .f32) (src dst : IVec Edges.SE 32)
    (n : Fin 100000) (q : Fin 64) :
    Edges.msgArr H (Edges.normOf dis src dst) src dst (ix2 n q)
      = ∑ e ∈ Spec.landOf dst n, H (ix2 (Spec.srcRow (by decide) src e) q)
          * (dis (ix1 (Spec.srcRow (by decide) src e)) * dis (ix1 n)) := by
  unfold Edges.msgArr
  refine (Cert.Lib.SegmentSum.scatterAdd_rows_apply Edges.wfScatNC _ (Edges.col dst) _ n q).trans ?_
  rw [show broadcastInDim Edges.SNC ![] Edges.bc0NC (constant (F := Ideal) Edges.S0 .f32 0x00000000#32) (ix2 n q) = 0
    from Ideal.ofBits_zero_f32, zero_add]
  have hset : Finset.univ.filter (fun e : Fin 3300000 => (Edges.col dst (ix2 e (0 : Fin 1))).toInt = (n.val : Int))
      = Spec.landOf dst n := by
    unfold Spec.landOf
    exact Finset.filter_congr (fun e _ => by rw [col_apply])
  refine Finset.sum_congr hset (fun e he => ?_)
  have hland : (dst (ix1 e)).toInt = (n.val : Int) := (Finset.mem_filter.mp he).2
  refine (mulf_apply _ _ _).trans ?_
  rw [Cert.Bridge.RowGather.gather_rows_apply (by decide) Edges.wfGathNC H _ e q, col_wrapVec_apply, spread_apply,
    normOf_apply]
  have hdst : Cert.Bridge.RowGather.rowOf (N := 100000) (by decide) (Spec.wrap 100000#32 (dst (ix1 e))) = n :=
    Cert.Lib.Aggregate.rowOf_wrap_of_toInt_eq (by decide) (dst (ix1 e)) 100000#32 n hland
  rw [hdst]
  rfl

end Cert.Bridge.EdgesRef

end
-- ==== Proof.RefLayer.lean ====
/-
  The reference network's layer terms, named once, and the three-layer network read at an entry.

  A layer maps the node features by a matrix (a plain product, entry (p, q) the sum over k of v[p, k] · W[k, q]),
  sums the mapped rows over the edges ending in each node, every row scaled by its edge's weight, and adds a bias
  that depends on the column only. Between layers every entry is clamped at zero from below. Read at an entry,
  one layer is the edge-normalised sum of the mapped rows plus the bias entry, and three of them with the two clamps
  between are the three-layer network normalised at the edges.
-/
import Idealize.ShloMosaic.PureOps.Ideal
import Idealize.ShloMosaic.PureOps.Ideal.Laws
import Idealize.ShloMosaic.PureOps.ShapeOps
import Idealize.ShloMosaic.Lib.ValueIdx
import proofs.«113922_j7919919694018_2_alg».proof.Proof.Edges
import proofs.«113922_j7919919694018_2_alg».proof.Proof.Spec
import proofs.«113922_j7919919694018_2_alg».proof.Proof.EdgesRef
import proofs.«113922_j7919919694018_2_alg».proof.Proof.LibMatmul

noncomputable section

namespace Cert.Bridge.RefLayer

open Idealize.ShloMosaic Idealize.ShloMosaic.ValueIdx
open scoped BigOperators

/-! ## Shapes of a bias -/

abbrev SB : Shape := ⟨1, ![64]⟩        -- one entry per column
abbrev SB1 : Shape := ⟨2, ![1, 64]⟩    -- the same as a single row

theorem bcB1 : SB.BroadcastsInDim SB1 (![1] : Fin 1 → Fin SB1.rank) := by decide
theorem bcB : SB1.BroadcastsInDim Edges.SNC (![0, 1] : Fin 2 → Fin Edges.SNC.rank) := by decide

/-! ## The layer terms -/

/-- Every entry clamped at zero from below: the larger of the entry and zero. -/
def relu (a : FVec Ideal Edges.SNC .f32) : FVec Ideal Edges.SNC .f32 :=
  maximumf a (broadcastInDim Edges.SNC ![] Edges.bc0NC (constant Edges.S0 .f32 0x00000000#32))

/-- A bias, one entry per column, repeated on every row. -/
def biasOf (b : FVec Ideal SB .f32) : FVec Ideal Edges.SNC .f32 :=
  broadcastInDim Edges.SNC ![0, 1] bcB (broadcastInDim SB1 ![1] bcB1 b)

/-- One layer on already mapped features H: the sum over the edges, each source row scaled by its edge's weight,
    plus the bias. -/
def layer (H : FVec Ideal Edges.SNC .f32) (b : FVec Ideal SB .f32) (nrm : FVec Ideal Edges.SE .f32)
    (S D : IVec Edges.SE 32) : FVec Ideal Edges.SNC .f32 :=
  addf (Edges.msgArr H nrm S D) (biasOf b)

/-- Node features of any width mapped by a matrix into 64 columns. -/
def dense {K : Nat} (v : FVec Ideal ⟨2, ![100000, K]⟩ .f32) (W : FVec Ideal ⟨2, ![K, 64]⟩ .f32) :
    FVec Ideal Edges.SNC .f32 :=
  Host.dotGeneral (DotDims.plain 100000 K 64) none v W

/-- Three layers, a clamp after each of the first two, all with the edge weights made from one vector of node
    factors. -/
def net (x0 : FVec Ideal ⟨2, ![100000, 128]⟩ .f32) (x2 : FVec Ideal ⟨2, ![128, 64]⟩ .f32) (x3 : FVec Ideal SB .f32)
    (x4 : FVec Ideal ⟨2, ![64, 64]⟩ .f32) (x5 : FVec Ideal SB .f32) (x6 : FVec Ideal ⟨2, ![64, 64]⟩ .f32)
    (x7 : FVec Ideal SB .f32) (dis : FVec Ideal Edges.SN .f32) (S D : IVec Edges.SE 32) : FVec Ideal Edges.SNC .f32 :=
  layer (dense (relu (layer (dense (relu (layer (dense x0 x2) x3 (Edges.normOf dis S D) S D)) x4) x5
    (Edges.normOf dis S D) S D)) x6) x7 (Edges.normOf dis S D) S D

/-! ## The terms read at an entry -/

/-- The clamp at an entry. -/
theorem relu_apply (a : FVec Ideal Edges.SNC .f32) (n : Fin 100000) (q : Fin 64) :
    relu a (ix2 n q) = max (a (ix2 n q)) 0 := by
  unfold relu
  refine (maximumf_apply _ _ _).trans ?_
  rw [show broadcastInDim Edges.SNC ![] Edges.bc0NC (constant (F := Ideal) Edges.S0 .f32 0x00000000#32) (ix2 n q) = 0
    from Ideal.ofBits_zero_f32]

/-- The repeated bias at (n, q) is the bias entry q. -/
theorem biasOf_apply (b : FVec Ideal SB .f32) (n : Fin 100000) (q : Fin 64) : biasOf b (ix2 n q) = b (ix1 q) := by
  unfold biasOf broadcastInDim
  refine congrArg b (funext fun a => Fin.ext ?_)
  match a with
  | ⟨0, _⟩ => rfl

/-- The mapped features at (p, q): the sum over k of v[p, k] · W[k, q]. -/
theorem dense_apply {K : Nat} (v : FVec Ideal ⟨2, ![100000, K]⟩ .f32) (W : FVec Ideal ⟨2, ![K, 64]⟩ .f32)
    (p : Fin 100000) (q : Fin 64) : dense v W (ix2 p q) = ∑ k : Fin K, v (ix2 p k) * W (ix2 k q) :=
  Cert.Bridge.LibMatmul.dotGeneral_apply none .single v W p q

/-- One layer at an entry: the edge-normalised sum of the mapped rows plus the bias entry. -/
theorem layer_apply {K : Nat} (v : FVec Ideal ⟨2, ![100000, K]⟩ .f32) (W : FVec Ideal ⟨2, ![K, 64]⟩ .f32)
    (b : FVec Ideal SB .f32) (dis : FVec Ideal Edges.SN .f32) (S D : IVec Edges.SE 32) (n : Fin 100000) (q : Fin 64) :
    layer (dense v W) b (Edges.normOf dis S D) S D (ix2 n q)
      = Spec.aggEdge (Spec.landOf D) (Spec.srcRow (by decide) S) (fun p => dis (ix1 p))
          (Spec.lin (fun p k => v (ix2 p k)) (fun k q => W (ix2 k q))) n q + b (ix1 q) := by
  unfold layer Spec.aggEdge Spec.lin
  refine (addf_apply _ _ _).trans ?_
  rw [Cert.Bridge.EdgesRef.msgArr_apply, biasOf_apply]
  refine congrArg (· + b (ix1 q)) ?_
  refine Finset.sum_congr rfl (fun e _ => ?_)
  rw [dense_apply]

/-- A clamped layer at an entry is a hidden layer normalised at the edges. -/
theorem hid_apply {K : Nat} (v : FVec Ideal ⟨2, ![100000, K]⟩ .f32) (W : FVec Ideal ⟨2, ![K, 64]⟩ .f32)
    (b : FVec Ideal SB .f32) (dis : FVec Ideal Edges.SN .f32) (S D : IVec Edges.SE 32) (n : Fin 100000) (q : Fin 64) :
    relu (layer (dense v W) b (Edges.normOf dis S D) S D) (ix2 n q)
      = Spec.hidEdge (Spec.landOf D) (Spec.srcRow (by decide) S) (fun p => dis (ix1 p))
          (fun p k => v (ix2 p k)) (fun k q => W (ix2 k q)) (fun q => b (ix1 q)) n q := by
  unfold Spec.hidEdge
  rw [relu_apply, layer_apply]

/-- The three-layer network at an entry is the network normalised at the edges. -/
theorem net_apply (x0 : FVec Ideal ⟨2, ![100000, 128]⟩ .f32) (x2 : FVec Ideal ⟨2, ![128, 64]⟩ .f32)
    (x3 : FVec Ideal SB .f32) (x4 : FVec Ideal ⟨2, ![64, 64]⟩ .f32) (x5 : FVec Ideal SB .f32)
    (x6 : FVec Ideal ⟨2, ![64, 64]⟩ .f32) (x7 : FVec Ideal SB .f32) (dis : FVec Ideal Edges.SN .f32)
    (S D : IVec Edges.SE 32) (n : Fin 100000) (q : Fin 64) :
    net x0 x2 x3 x4 x5 x6 x7 dis S D (ix2 n q)
      = Spec.outEdge (Spec.landOf D) (Spec.srcRow (by decide) S) (fun p => dis (ix1 p))
          (fun p k => x0 (ix2 p k)) (fun k q => x2 (ix2 k q)) (fun q => x3 (ix1 q))
          (fun k q => x4 (ix2 k q)) (fun q => x5 (ix1 q)) (fun k q => x6 (ix2 k q)) (fun q => x7 (ix1 q)) n q := by
  have h1 : (fun (p : Fin 100000) (k : Fin 64) => relu (layer (dense x0 x2) x3 (Edges.normOf dis S D) S D) (ix2 p k))
      = Spec.hidEdge (Spec.landOf D) (Spec.srcRow (by decide) S) (fun p => dis (ix1 p))
          (fun p k => x0 (ix2 p k)) (fun k q => x2 (ix2 k q)) (fun q => x3 (ix1 q)) :=
    funext fun p => funext fun k => hid_apply x0 x2 x3 dis S D p k
  have h2 : (fun (p : Fin 100000) (k : Fin 64) =>
        relu (layer (dense (relu (layer (dense x0 x2) x3 (Edges.normOf dis S D) S D)) x4) x5
          (Edges.normOf dis S D) S D) (ix2 p k))
      = Spec.hidEdge (Spec.landOf D) (Spec.srcRow (by decide) S) (fun p => dis (ix1 p))
          (Spec.hidEdge (Spec.landOf D) (Spec.srcRow (by decide) S) (fun p => dis (ix1 p))
            (fun p k => x0 (ix2 p k)) (fun k q => x2 (ix2 k q)) (fun q => x3 (ix1 q)))
          (fun k q => x4 (ix2 k q)) (fun q => x5 (ix1 q)) := by
    funext p k
    rw [hid_apply, h1]
  unfold net Spec.outEdge
  rw [layer_apply, h2]

end Cert.Bridge.RefLayer

end
-- ==== Proof.RefHost.lean ====
/-
  The reference program's result array as one closed form.

  The program is a straight line of 109 operations: a prologue (the source and destination index of every edge, the
  node degrees and factors, the weight of every edge) and three layers. A layer maps the rows it is given by its
  matrix, gathers the mapped rows at the edges' sources, scales each by its edge's weight, sums them by destination
  and adds its bias; the first two layers then clamp at zero. The contents of the buffers after a list of operations
  is a fold over the list, and the fold over a concatenation is the fold over the second list started from the fold
  over the first. So each short run of operations is read by itself, from ANY contents it may start from, and the
  readings are chained: the result buffer at the end holds the three-layer network of the launch contents.
-/
import proofs.«113922_j7919919694018_2_alg».proof.Proof.RefRun
import proofs.«113922_j7919919694018_2_alg».proof.Proof.Edges
import proofs.«113922_j7919919694018_2_alg».proof.Proof.RefLayer
import Idealize.ShloMosaic.Lib.StableHlo.Run

noncomputable section

namespace Cert.Bridge.RefHost

open Cert.ReferenceIdeal Cert.ReferenceIdeal.Gen Idealize.ShloMosaic Idealize.ShloMosaic.TcCoe Idealize.SL.Sem Idealize.ShloMosaic.StableHlo
open Cert.Bridge

/-- The contents after two lists of operations run one after the other: the second list's from the first list's. -/
theorem after_append {τ : Topo} {sig : RefSig} {Val : EltTy → Type} (A B : List (HloOp τ sig Val))
    (V : Valuation τ sig Val) : StableHlo.after (A ++ B) V = StableHlo.after B (StableHlo.after A V) := by
  induction A generalizing V with
  | nil => rfl
  | cons a A ih => exact ih (a.result V)

/-- A buffer that no operation of the named list writes keeps its contents: the list is walked once and each
    operation's written buffer is told apart from the buffer asked about. -/
macro "unwritten " l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## The whole program: the prologue and the three layers, chained -/

section
variable {F : FTy → Type} [FloatOps F]
/-- The first 43 operations: the two index arrays, the node degrees and factors, and the weight of every edge. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The next 23 operations: the first layer, clamped at zero. -/
abbrev opsB : List (HloOp τ sig (Elt F)) :=
  [ binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x64 ![0, 1] bcast_S3300000x1_S3300000x64_0_1 : (⟨S3300000x1, .f32⟩ : BufTy).Contents (Elt F) → (⟨S3300000x64, .f32⟩ : BufTy).Contents (Elt F)),
    binary main_v39 main_v41 main_v42 (mulf : (⟨S3300000x64, .f32⟩ : BufTy).Contents (Elt F) → (⟨S3300000x64, .f32⟩ : BufTy).Contents (Elt F) → (⟨S3300000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf ]

/-- The next 23 operations: the second layer, clamped at zero. -/
abbrev opsC : List (HloOp τ sig (Elt F)) :=
  [ binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x64 ![0, 1] bcast_S3300000x1_S3300000x64_0_1 : (⟨S3300000x1, .f32⟩ : BufTy).Contents (Elt F) → (⟨S3300000x64, .f32⟩ : BufTy).Contents (Elt F)),
    binary main_v57 main_v59 main_v60 (mulf : (⟨S3300000x64, .f32⟩ : BufTy).Contents (Elt F) → (⟨S3300000x64, .f32⟩ : BufTy).Contents (Elt F) → (⟨S3300000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf ]

/-- The last 20 operations: the third layer. -/
abbrev opsD : List (HloOp τ sig (Elt F)) :=
  [ binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v71 (broadcastInDim S3300000 ![] bcast_S_S3300000 : (⟨S_, .i32⟩ : BufTy).Contents (Elt F) → (⟨S3300000, .i32⟩ : BufTy).Contents (Elt F)),
    binary main_v3 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v3 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v76 (broadcastInDim S3300000x1 ![0] bcast_S3300000_S3300000x1_0 : (⟨S3300000, .f32⟩ : BufTy).Contents (Elt F) → (⟨S3300000x1, .f32⟩ : BufTy).Contents (Elt F)),
    unary main_v76 main_v77 (broadcastInDim S3300000x64 ![0, 1] bcast_S3300000x1_S3300000x64_0_1 : (⟨S3300000x1, .f32⟩ : BufTy).Contents (Elt F) → (⟨S3300000x64, .f32⟩ : BufTy).Contents (Elt F)),
    binary main_v75 main_v77 main_v78 (mulf : (⟨S3300000x64, .f32⟩ : BufTy).Contents (Elt F) → (⟨S3300000x64, .f32⟩ : BufTy).Contents (Elt F) → (⟨S3300000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S3300000x1 ![0] bcast_S3300000_S3300000x1_0 : (⟨S3300000, .i32⟩ : BufTy).Contents (Elt F) → (⟨S3300000x1, .i32⟩ : BufTy).Contents (Elt F)),
    ternary main_v79 main_v80 main_v78 main_v81 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

end

/-- The program's operations are the four stretches in order. -/
theorem ops_split : (Cert.ReferenceIdeal.ValueP.ops (F := Ideal)) = opsA ++ opsB ++ opsC ++ opsD := rfl

/-! ## The prologue, in six steps

The two index arrays of the edges; the node degrees; the node factors; the factors gathered at the edges' (wrapped)
sources and at their (wrapped) destinations; the product of the two, the weight of every edge. Each step is read
from ANY contents `Wp` it may start from. -/

section
variable {F : FTy → Type} [FloatOps F]
/-- The source and the destination index of every edge: a row of the edge list followed by the node numbers. -/
abbrev p1 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The number of edges ending in each node. -/
abbrev p2 : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- The factor of each node. -/
abbrev p3 : List (HloOp τ sig (Elt F)) :=
  [ nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The factors gathered at the edges' sources. -/
abbrev p4 : List (HloOp τ sig (Elt F)) :=
  [ nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) ]

/-- The factors gathered at the edges' destinations. -/
abbrev p5 : List (HloOp τ sig (Elt F)) :=
  [ nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) ]

/-- The weight of every edge. -/
abbrev p6 : List (HloOp τ sig (Elt F)) :=
  [ binary main_v23 main_v30 main_v31 (mulf : (⟨S3300000, .f32⟩ : BufTy).Contents (Elt F) → (⟨S3300000, .f32⟩ : BufTy).Contents (Elt F) → (⟨S3300000, .f32⟩ : BufTy).Contents (Elt F)) ]

end

/-- The node factors made from the degrees: the reciprocal square root of the larger of the degree and one where the
    degree is above zero, and zero elsewhere. -/
def disFrom (deg : FVec Ideal S100000 .f32) : FVec Ideal S100000 .f32 :=
  select (cmpf .ogt deg (broadcastInDim S100000 ![] bcast_S_S100000 (constant (F := Ideal) S_ .f32 0x00000000#32)))
    (Host.rsqrt (maximumf deg (broadcastInDim S100000 ![] bcast_S_S100000 (constant (F := Ideal) S_ .f32 0x3F800000#32))))
    (broadcastInDim S100000 ![] bcast_S_S100000 (id (constant (F := Ideal) S_ .f32 0x00000000#32)))

theorem p1_v3 (Wp : Valuation τ sig (Elt Ideal)) :
    StableHlo.after (p1 (F := Ideal)) Wp (Proc.devRef .tc main_v3) = Edges.srcOf (Wp (Proc.devRef .tc main_arg1)) := by
  after_results
  rfl
theorem p1_v6 (Wp : Valuation τ sig (Elt Ideal)) :
    StableHlo.after (p1 (F := Ideal)) Wp (Proc.devRef .tc main_v6) = Edges.dstOf (Wp (Proc.devRef .tc main_arg1)) := by
  after_results
  rfl

theorem p2_v10 (Wp : Valuation τ sig (Elt Ideal)) :
    StableHlo.after (p2 (F := Ideal)) Wp (Proc.devRef .tc main_v10) = Edges.degOf (Wp (Proc.devRef .tc main_v6)) := by
  after_results
  rfl
theorem p2_v3 (Wp : Valuation τ sig (Elt Ideal)) :
    StableHlo.after (p2 (F := Ideal)) Wp (Proc.devRef .tc main_v3) = Wp (Proc.devRef .tc main_v3) := by
  unwritten p2
theorem p2_v6 (Wp : Valuation τ sig (Elt Ideal)) :
    StableHlo.after (p2 (F := Ideal)) Wp (Proc.devRef .tc main_v6) = Wp (Proc.devRef .tc main_v6) := by
  unwritten p2

theorem p3_v16 (Wp : Valuation τ sig (Elt Ideal)) :
    StableHlo.after (p3 (F := Ideal)) Wp (Proc.devRef .tc main_v16) = disFrom (Wp (Proc.devRef .tc main_v10)) := by
  after_results
  rfl
theorem p3_v3 (Wp : Valuation τ sig (Elt Ideal)) :
    StableHlo.after (p3 (F := Ideal)) Wp (Proc.devRef .tc main_v3) = Wp (Proc.devRef .tc main_v3) := by
  unwritten p3
theorem p3_v6 (Wp : Valuation τ sig (Elt Ideal)) :
    StableHlo.after (p3 (F := Ideal)) Wp (Proc.devRef .tc main_v6) = Wp (Proc.devRef .tc main_v6) := by
  unwritten p3

theorem p4_v23 (Wp : Valuation τ sig (Elt Ideal)) :
    StableHlo.after (p4 (F := Ideal)) Wp (Proc.devRef .tc main_v23)
      = Host.gather gather_S100000_S3300000x1_S3300000_n_0_n_n_0_1_1 (Wp (Proc.devRef .tc main_v16))
          (Edges.col (Edges.wrapVec 100000#32 (Wp (Proc.devRef .tc main_v3)))) := by
  after_results
  rfl
theorem p4_v3 (Wp : Valuation τ sig (Elt Ideal)) :
    StableHlo.after (p4 (F := Ideal)) Wp (Proc.devRef .tc main_v3) = Wp (Proc.devRef .tc main_v3) := by
  unwritten p4
theorem p4_v6 (Wp : Valuation τ sig (Elt Ideal)) :
    StableHlo.after (p4 (F := Ideal)) Wp (Proc.devRef .tc main_v6) = Wp (Proc.devRef .tc main_v6) := by
  unwritten p4
theorem p4_v16 (Wp : Valuation τ sig (Elt Ideal)) :
    StableHlo.after (p4 (F := Ideal)) Wp (Proc.devRef .tc main_v16) = Wp (Proc.devRef .tc main_v16) := by
  unwritten p4

theorem p5_v30 (Wp : Valuation τ sig (Elt Ideal)) :
    StableHlo.after (p5 (F := Ideal)) Wp (Proc.devRef .tc main_v30)
      = Host.gather gather_S100000_S3300000x1_S3300000_n_0_n_n_0_1_1 (Wp (Proc.devRef .tc main_v16))
          (Edges.col (Edges.wrapVec 100000#32 (Wp (Proc.devRef .tc main_v6)))) := by
  after_results
  rfl
theorem p5_v3 (Wp : Valuation τ sig (Elt Ideal)) :
    StableHlo.after (p5 (F := Ideal)) Wp (Proc.devRef .tc main_v3) = Wp (Proc.devRef .tc main_v3) := by
  unwritten p5
theorem p5_v6 (Wp : Valuation τ sig (Elt Ideal)) :
    StableHlo.after (p5 (F := Ideal)) Wp (Proc.devRef .tc main_v6) = Wp (Proc.devRef .tc main_v6) := by
  unwritten p5
theorem p5_v23 (Wp : Valuation τ sig (Elt Ideal)) :
    StableHlo.after (p5 (F := Ideal)) Wp (Proc.devRef .tc main_v23) = Wp (Proc.devRef .tc main_v23) := by
  unwritten p5

theorem p6_v31 (Wp : Valuation τ sig (Elt Ideal)) :
    (StableHlo.after (p6 (F := Ideal)) Wp (Proc.devRef .tc main_v31) : FVec Ideal S3300000 .f32)
      = mulf (F := Ideal) (φ := .f32) (Wp (Proc.devRef .tc main_v23)) (Wp (Proc.devRef .tc main_v30)) := by
  after_results
theorem p6_v3 (Wp : Valuation τ sig (Elt Ideal)) :
    StableHlo.after (p6 (F := Ideal)) Wp (Proc.devRef .tc main_v3) = Wp (Proc.devRef .tc main_v3) := by
  unwritten p6
theorem p6_v6 (Wp : Valuation τ sig (Elt Ideal)) :
    StableHlo.after (p6 (F := Ideal)) Wp (Proc.devRef .tc main_v6) = Wp (Proc.devRef .tc main_v6) := by
  unwritten p6

theorem opsA_split : (opsA (F := Ideal)) = p1 ++ p2 ++ p3 ++ p4 ++ p5 ++ p6 := rfl

/-- After the prologue the source indices are the first row of the edge list followed by the node numbers. -/
theorem opsA_v3 (Wp : Valuation τ sig (Elt Ideal)) :
    StableHlo.after (opsA (F := Ideal)) Wp (Proc.devRef .tc main_v3) = Edges.srcOf (Wp (Proc.devRef .tc main_arg1)) := by
  rw [opsA_split, after_append, after_append, after_append, after_append, after_append,
    p6_v3, p5_v3, p4_v3, p3_v3, p2_v3, p1_v3]

/-- After the prologue the destination indices are the second row of the edge list followed by the node numbers. -/
theorem opsA_v6 (Wp : Valuation τ sig (Elt Ideal)) :
    StableHlo.after (opsA (F := Ideal)) Wp (Proc.devRef .tc main_v6) = Edges.dstOf (Wp (Proc.devRef .tc main_arg1)) := by
  rw [opsA_split, after_append, after_append, after_append, after_append, after_append,
    p6_v6, p5_v6, p4_v6, p3_v6, p2_v6, p1_v6]

/-- After the prologue the edge weights are the products of the factors of the edges' two end nodes. -/
theorem opsA_v31 (Wp : Valuation τ sig (Elt Ideal)) :
    StableHlo.after (opsA (F := Ideal)) Wp (Proc.devRef .tc main_v31)
      = Edges.normOf (Edges.disOf (Edges.dstOf (Wp (Proc.devRef .tc main_arg1))))
          (Edges.srcOf (Wp (Proc.devRef .tc main_arg1))) (Edges.dstOf (Wp (Proc.devRef .tc main_arg1))) := by
  rw [opsA_split, after_append, after_append, after_append, after_append, after_append,
    p6_v31, p5_v30, p5_v23, p4_v23, p4_v16, p4_v6, p3_v16, p3_v3, p3_v6, p2_v10, p2_v3, p2_v6, p1_v3, p1_v6]
  rfl

/-! ## The first layer, in four steps

Each step is read from ANY contents `Wp` it may start from: the rows mapped by the layer's matrix and gathered at
the edges' (wrapped) sources; those rows scaled by the edge weights; the scaled rows summed by destination into
zeros; the bias added and the sum clamped at zero. A buffer a step does not write keeps its contents. -/

section
variable {F : FTy → Type} [FloatOps F]
/-- The first layer's product with its matrix, and its rows gathered at the edges' sources. -/
abbrev a1 : List (HloOp τ sig (Elt F)) :=
  [ binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)) ]

/-- The gathered rows scaled by the edge weights. -/
abbrev b1 : List (HloOp τ sig (Elt F)) :=
  [ unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x64 ![0, 1] bcast_S3300000x1_S3300000x64_0_1 : (⟨S3300000x1, .f32⟩ : BufTy).Contents (Elt F) → (⟨S3300000x64, .f32⟩ : BufTy).Contents (Elt F)),
    binary main_v39 main_v41 main_v42 (mulf : (⟨S3300000x64, .f32⟩ : BufTy).Contents (Elt F) → (⟨S3300000x64, .f32⟩ : BufTy).Contents (Elt F) → (⟨S3300000x64, .f32⟩ : BufTy).Contents (Elt F)) ]

/-- The scaled rows summed by destination into zeros. -/
abbrev c1 : List (HloOp τ sig (Elt F)) :=
  [ nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- The bias added and the sum clamped at zero. -/
abbrev d1 : List (HloOp τ sig (Elt F)) :=
  [ unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf ]

end

theorem a1_v39 (Wp : Valuation τ sig (Elt Ideal)) :
    StableHlo.after (a1 (F := Ideal)) Wp (Proc.devRef .tc main_v39)
      = Host.gather gather_S100000x64_S3300000x1_S3300000x64_1_0_n_n_0_1_164
          (RefLayer.dense (K := 128) (Wp (Proc.devRef .tc main_arg0)) (Wp (Proc.devRef .tc main_arg2)))
          (Edges.col (Edges.wrapVec 100000#32 (Wp (Proc.devRef .tc main_v3)))) := by
  after_results
  rfl
theorem a1_v31 (Wp : Valuation τ sig (Elt Ideal)) :
    StableHlo.after (a1 (F := Ideal)) Wp (Proc.devRef .tc main_v31) = Wp (Proc.devRef .tc main_v31) := by
  unwritten a1
theorem a1_v6 (Wp : Valuation τ sig (Elt Ideal)) :
    StableHlo.after (a1 (F := Ideal)) Wp (Proc.devRef .tc main_v6) = Wp (Proc.devRef .tc main_v6) := by
  unwritten a1
theorem a1_arg3 (Wp : Valuation τ sig (Elt Ideal)) :
    StableHlo.after (a1 (F := Ideal)) Wp (Proc.devRef .tc main_arg3) = Wp (Proc.devRef .tc main_arg3) := by
  unwritten a1

theorem b1_v42 (Wp : Valuation τ sig (Elt Ideal)) :
    (StableHlo.after (b1 (F := Ideal)) Wp (Proc.devRef .tc main_v42) : FVec Ideal S3300000x64 .f32)
      = mulf (F := Ideal) (φ := .f32) (Wp (Proc.devRef .tc main_v39))
          (broadcastInDim S3300000x64 ![0, 1] bcast_S3300000x1_S3300000x64_0_1
            (broadcastInDim S3300000x1 ![0] bcast_S3300000_S3300000x1_0 (Wp (Proc.devRef .tc main_v31)))) := by
  after_results
theorem b1_v6 (Wp : Valuation τ sig (Elt Ideal)) :
    StableHlo.after (b1 (F := Ideal)) Wp (Proc.devRef .tc main_v6) = Wp (Proc.devRef .tc main_v6) := by
  unwritten b1
theorem b1_arg3 (Wp : Valuation τ sig (Elt Ideal)) :
    StableHlo.after (b1 (F := Ideal)) Wp (Proc.devRef .tc main_arg3) = Wp (Proc.devRef .tc main_arg3) := by
  unwritten b1

theorem c1_v45 (Wp : Valuation τ sig (Elt Ideal)) :
    StableHlo.after (c1 (F := Ideal)) Wp (Proc.devRef .tc main_v45)
      = Host.scatterAdd scatter_S100000x64_S3300000x1_S3300000x64_1_0_0_1
          (broadcastInDim S100000x64 ![] bcast_S_S100000x64 (constant (F := Ideal) S_ .f32 0x00000000#32))
          (Edges.col (Wp (Proc.devRef .tc main_v6))) (Wp (Proc.devRef .tc main_v42)) := by
  after_results
  rfl
theorem c1_arg3 (Wp : Valuation τ sig (Elt Ideal)) :
    StableHlo.after (c1 (F := Ideal)) Wp (Proc.devRef .tc main_arg3) = Wp (Proc.devRef .tc main_arg3) := by
  unwritten c1

theorem d1_v49 (Wp : Valuation τ sig (Elt Ideal)) :
    StableHlo.after (d1 (F := Ideal)) Wp (Proc.devRef .tc main_v49)
      = RefLayer.relu (addf (Wp (Proc.devRef .tc main_v45)) (RefLayer.biasOf (Wp (Proc.devRef .tc main_arg3)))) := by
  after_results
  rfl

/-- The first layer's result from any contents: the layer of the mapped rows, clamped at zero. -/
theorem layer1 (Wp : Valuation τ sig (Elt Ideal)) :
    StableHlo.after (opsB (F := Ideal)) Wp (Proc.devRef .tc main_v49)
      = RefLayer.relu (RefLayer.layer (RefLayer.dense (K := 128) (Wp (Proc.devRef .tc main_arg0)) (Wp (Proc.devRef .tc main_arg2)))
          (Wp (Proc.devRef .tc main_arg3)) (Wp (Proc.devRef .tc main_v31)) (Wp (Proc.devRef .tc main_v3)) (Wp (Proc.devRef .tc main_v6))) := by
  rw [show (opsB (F := Ideal)) = a1 ++ b1 ++ c1 ++ d1 from rfl, after_append, after_append, after_append,
    d1_v49, c1_v45, c1_arg3, b1_v42, b1_v6, b1_arg3,
    a1_v39, a1_v31, a1_v6, a1_arg3]
  rfl

/-! ## The second layer, in four steps

Each step is read from ANY contents `Wp` it may start from: the rows mapped by the layer's matrix and gathered at
the edges' (wrapped) sources; those rows scaled by the edge weights; the scaled rows summed by destination into
zeros; the bias added and the sum clamped at zero. A buffer a step does not write keeps its contents. -/

section
variable {F : FTy → Type} [FloatOps F]
/-- The second layer's product with its matrix, and its rows gathered at the edges' sources. -/
abbrev a2 : List (HloOp τ sig (Elt F)) :=
  [ binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)) ]

/-- The gathered rows scaled by the edge weights. -/
abbrev b2 : List (HloOp τ sig (Elt F)) :=
  [ unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x64 ![0, 1] bcast_S3300000x1_S3300000x64_0_1 : (⟨S3300000x1, .f32⟩ : BufTy).Contents (Elt F) → (⟨S3300000x64, .f32⟩ : BufTy).Contents (Elt F)),
    binary main_v57 main_v59 main_v60 (mulf : (⟨S3300000x64, .f32⟩ : BufTy).Contents (Elt F) → (⟨S3300000x64, .f32⟩ : BufTy).Contents (Elt F) → (⟨S3300000x64, .f32⟩ : BufTy).Contents (Elt F)) ]

/-- The scaled rows summed by destination into zeros. -/
abbrev c2 : List (HloOp τ sig (Elt F)) :=
  [ nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- The bias added and the sum clamped at zero. -/
abbrev d2 : List (HloOp τ sig (Elt F)) :=
  [ unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf ]

end

theorem a2_v57 (Wp : Valuation τ sig (Elt Ideal)) :
    StableHlo.after (a2 (F := Ideal)) Wp (Proc.devRef .tc main_v57)
      = Host.gather gather_S100000x64_S3300000x1_S3300000x64_1_0_n_n_0_1_164
          (RefLayer.dense (K := 64) (Wp (Proc.devRef .tc main_v49)) (Wp (Proc.devRef .tc main_arg4)))
          (Edges.col (Edges.wrapVec 100000#32 (Wp (Proc.devRef .tc main_v3)))) := by
  after_results
  rfl
theorem a2_v31 (Wp : Valuation τ sig (Elt Ideal)) :
    StableHlo.after (a2 (F := Ideal)) Wp (Proc.devRef .tc main_v31) = Wp (Proc.devRef .tc main_v31) := by
  unwritten a2
theorem a2_v6 (Wp : Valuation τ sig (Elt Ideal)) :
    StableHlo.after (a2 (F := Ideal)) Wp (Proc.devRef .tc main_v6) = Wp (Proc.devRef .tc main_v6) := by
  unwritten a2
theorem a2_arg5 (Wp : Valuation τ sig (Elt Ideal)) :
    StableHlo.after (a2 (F := Ideal)) Wp (Proc.devRef .tc main_arg5) = Wp (Proc.devRef .tc main_arg5) := by
  unwritten a2

theorem b2_v60 (Wp : Valuation τ sig (Elt Ideal)) :
    (StableHlo.after (b2 (F := Ideal)) Wp (Proc.devRef .tc main_v60) : FVec Ideal S3300000x64 .f32)
      = mulf (F := Ideal) (φ := .f32) (Wp (Proc.devRef .tc main_v57))
          (broadcastInDim S3300000x64 ![0, 1] bcast_S3300000x1_S3300000x64_0_1
            (broadcastInDim S3300000x1 ![0] bcast_S3300000_S3300000x1_0 (Wp (Proc.devRef .tc main_v31)))) := by
  after_results
theorem b2_v6 (Wp : Valuation τ sig (Elt Ideal)) :
    StableHlo.after (b2 (F := Ideal)) Wp (Proc.devRef .tc main_v6) = Wp (Proc.devRef .tc main_v6) := by
  unwritten b2
theorem b2_arg5 (Wp : Valuation τ sig (Elt Ideal)) :
    StableHlo.after (b2 (F := Ideal)) Wp (Proc.devRef .tc main_arg5) = Wp (Proc.devRef .tc main_arg5) := by
  unwritten b2

theorem c2_v63 (Wp : Valuation τ sig (Elt Ideal)) :
    StableHlo.after (c2 (F := Ideal)) Wp (Proc.devRef .tc main_v63)
      = Host.scatterAdd scatter_S100000x64_S3300000x1_S3300000x64_1_0_0_1
          (broadcastInDim S100000x64 ![] bcast_S_S100000x64 (constant (F := Ideal) S_ .f32 0x00000000#32))
          (Edges.col (Wp (Proc.devRef .tc main_v6))) (Wp (Proc.devRef .tc main_v60)) := by
  after_results
  rfl
theorem c2_arg5 (Wp : Valuation τ sig (Elt Ideal)) :
    StableHlo.after (c2 (F := Ideal)) Wp (Proc.devRef .tc main_arg5) = Wp (Proc.devRef .tc main_arg5) := by
  unwritten c2

theorem d2_v67 (Wp : Valuation τ sig (Elt Ideal)) :
    StableHlo.after (d2 (F := Ideal)) Wp (Proc.devRef .tc main_v67)
      = RefLayer.relu (addf (Wp (Proc.devRef .tc main_v63)) (RefLayer.biasOf (Wp (Proc.devRef .tc main_arg5)))) := by
  after_results
  rfl

/-- The second layer's result from any contents: the layer of the mapped rows, clamped at zero. -/
theorem layer2 (Wp : Valuation τ sig (Elt Ideal)) :
    StableHlo.after (opsC (F := Ideal)) Wp (Proc.devRef .tc main_v67)
      = RefLayer.relu (RefLayer.layer (RefLayer.dense (K := 64) (Wp (Proc.devRef .tc main_v49)) (Wp (Proc.devRef .tc main_arg4)))
          (Wp (Proc.devRef .tc main_arg5)) (Wp (Proc.devRef .tc main_v31)) (Wp (Proc.devRef .tc main_v3)) (Wp (Proc.devRef .tc main_v6))) := by
  rw [show (opsC (F := Ideal)) = a2 ++ b2 ++ c2 ++ d2 from rfl, after_append, after_append, after_append,
    d2_v67, c2_v63, c2_arg5, b2_v60, b2_v6, b2_arg5,
    a2_v57, a2_v31, a2_v6, a2_arg5]
  rfl

/-! ## The third layer, in four steps

Each step is read from ANY contents `Wp` it may start from: the rows mapped by the layer's matrix and gathered at
the edges' (wrapped) sources; those rows scaled by the edge weights; the scaled rows summed by destination into
zeros; the bias added. A buffer a step does not write keeps its contents. -/

section
variable {F : FTy → Type} [FloatOps F]
/-- The third layer's product with its matrix, and its rows gathered at the edges' sources. -/
abbrev a3 : List (HloOp τ sig (Elt F)) :=
  [ binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v71 (broadcastInDim S3300000 ![] bcast_S_S3300000 : (⟨S_, .i32⟩ : BufTy).Contents (Elt F) → (⟨S3300000, .i32⟩ : BufTy).Contents (Elt F)),
    binary main_v3 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v3 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)) ]

/-- The gathered rows scaled by the edge weights. -/
abbrev b3 : List (HloOp τ sig (Elt F)) :=
  [ unary main_v31 main_v76 (broadcastInDim S3300000x1 ![0] bcast_S3300000_S3300000x1_0 : (⟨S3300000, .f32⟩ : BufTy).Contents (Elt F) → (⟨S3300000x1, .f32⟩ : BufTy).Contents (Elt F)),
    unary main_v76 main_v77 (broadcastInDim S3300000x64 ![0, 1] bcast_S3300000x1_S3300000x64_0_1 : (⟨S3300000x1, .f32⟩ : BufTy).Contents (Elt F) → (⟨S3300000x64, .f32⟩ : BufTy).Contents (Elt F)),
    binary main_v75 main_v77 main_v78 (mulf : (⟨S3300000x64, .f32⟩ : BufTy).Contents (Elt F) → (⟨S3300000x64, .f32⟩ : BufTy).Contents (Elt F) → (⟨S3300000x64, .f32⟩ : BufTy).Contents (Elt F)) ]

/-- The scaled rows summed by destination into zeros. -/
abbrev c3 : List (HloOp τ sig (Elt F)) :=
  [ nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S3300000x1 ![0] bcast_S3300000_S3300000x1_0 : (⟨S3300000, .i32⟩ : BufTy).Contents (Elt F) → (⟨S3300000x1, .i32⟩ : BufTy).Contents (Elt F)),
    ternary main_v79 main_v80 main_v78 main_v81 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- The bias added. -/
abbrev d3 : List (HloOp τ sig (Elt F)) :=
  [ unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

end

theorem a3_v75 (Wp : Valuation τ sig (Elt Ideal)) :
    StableHlo.after (a3 (F := Ideal)) Wp (Proc.devRef .tc main_v75)
      = Host.gather gather_S100000x64_S3300000x1_S3300000x64_1_0_n_n_0_1_164
          (RefLayer.dense (K := 64) (Wp (Proc.devRef .tc main_v67)) (Wp (Proc.devRef .tc main_arg6)))
          (Edges.col (Edges.wrapVec 100000#32 (Wp (Proc.devRef .tc main_v3)))) := by
  after_results
  rfl
theorem a3_v31 (Wp : Valuation τ sig (Elt Ideal)) :
    StableHlo.after (a3 (F := Ideal)) Wp (Proc.devRef .tc main_v31) = Wp (Proc.devRef .tc main_v31) := by
  unwritten a3
theorem a3_v6 (Wp : Valuation τ sig (Elt Ideal)) :
    StableHlo.after (a3 (F := Ideal)) Wp (Proc.devRef .tc main_v6) = Wp (Proc.devRef .tc main_v6) := by
  unwritten a3
theorem a3_arg7 (Wp : Valuation τ sig (Elt Ideal)) :
    StableHlo.after (a3 (F := Ideal)) Wp (Proc.devRef .tc main_arg7) = Wp (Proc.devRef .tc main_arg7) := by
  unwritten a3

theorem b3_v78 (Wp : Valuation τ sig (Elt Ideal)) :
    (StableHlo.after (b3 (F := Ideal)) Wp (Proc.devRef .tc main_v78) : FVec Ideal S3300000x64 .f32)
      = mulf (F := Ideal) (φ := .f32) (Wp (Proc.devRef .tc main_v75))
          (broadcastInDim S3300000x64 ![0, 1] bcast_S3300000x1_S3300000x64_0_1
            (broadcastInDim S3300000x1 ![0] bcast_S3300000_S3300000x1_0 (Wp (Proc.devRef .tc main_v31)))) := by
  after_results
theorem b3_v6 (Wp : Valuation τ sig (Elt Ideal)) :
    StableHlo.after (b3 (F := Ideal)) Wp (Proc.devRef .tc main_v6) = Wp (Proc.devRef .tc main_v6) := by
  unwritten b3
theorem b3_arg7 (Wp : Valuation τ sig (Elt Ideal)) :
    StableHlo.after (b3 (F := Ideal)) Wp (Proc.devRef .tc main_arg7) = Wp (Proc.devRef .tc main_arg7) := by
  unwritten b3

theorem c3_v81 (Wp : Valuation τ sig (Elt Ideal)) :
    StableHlo.after (c3 (F := Ideal)) Wp (Proc.devRef .tc main_v81)
      = Host.scatterAdd scatter_S100000x64_S3300000x1_S3300000x64_1_0_0_1
          (broadcastInDim S100000x64 ![] bcast_S_S100000x64 (constant (F := Ideal) S_ .f32 0x00000000#32))
          (Edges.col (Wp (Proc.devRef .tc main_v6))) (Wp (Proc.devRef .tc main_v78)) := by
  after_results
  rfl
theorem c3_arg7 (Wp : Valuation τ sig (Elt Ideal)) :
    StableHlo.after (c3 (F := Ideal)) Wp (Proc.devRef .tc main_arg7) = Wp (Proc.devRef .tc main_arg7) := by
  unwritten c3

theorem d3_v84 (Wp : Valuation τ sig (Elt Ideal)) :
    StableHlo.after (d3 (F := Ideal)) Wp (Proc.devRef .tc main_v84)
      = addf (Wp (Proc.devRef .tc main_v81)) (RefLayer.biasOf (Wp (Proc.devRef .tc main_arg7))) := by
  after_results
  rfl

/-- The third layer's result from any contents: the layer of the mapped rows. -/
theorem layer3 (Wp : Valuation τ sig (Elt Ideal)) :
    StableHlo.after (opsD (F := Ideal)) Wp (Proc.devRef .tc main_v84)
      = RefLayer.layer (RefLayer.dense (K := 64) (Wp (Proc.devRef .tc main_v67)) (Wp (Proc.devRef .tc main_arg6)))
          (Wp (Proc.devRef .tc main_arg7)) (Wp (Proc.devRef .tc main_v31)) (Wp (Proc.devRef .tc main_v3)) (Wp (Proc.devRef .tc main_v6)) := by
  rw [show (opsD (F := Ideal)) = a3 ++ b3 ++ c3 ++ d3 from rfl, after_append, after_append, after_append,
    d3_v84, c3_v81, c3_arg7, b3_v78, b3_v6, b3_arg7,
    a3_v75, a3_v31, a3_v6, a3_arg7]
  rfl

/-! ## What each stretch leaves as it was: the arguments, and from the prologue on the index arrays and the weights -/

theorem opsA_arg0 (Wp : Valuation τ sig (Elt Ideal)) :
    StableHlo.after (opsA (F := Ideal)) Wp (Proc.devRef .tc main_arg0) = Wp (Proc.devRef .tc main_arg0) := by
  unwritten opsA
theorem opsA_arg2 (Wp : Valuation τ sig (Elt Ideal)) :
    StableHlo.after (opsA (F := Ideal)) Wp (Proc.devRef .tc main_arg2) = Wp (Proc.devRef .tc main_arg2) := by
  unwritten opsA
theorem opsA_arg3 (Wp : Valuation τ sig (Elt Ideal)) :
    StableHlo.after (opsA (F := Ideal)) Wp (Proc.devRef .tc main_arg3) = Wp (Proc.devRef .tc main_arg3) := by
  unwritten opsA
theorem opsA_arg4 (Wp : Valuation τ sig (Elt Ideal)) :
    StableHlo.after (opsA (F := Ideal)) Wp (Proc.devRef .tc main_arg4) = Wp (Proc.devRef .tc main_arg4) := by
  unwritten opsA
theorem opsA_arg5 (Wp : Valuation τ sig (Elt Ideal)) :
    StableHlo.after (opsA (F := Ideal)) Wp (Proc.devRef .tc main_arg5) = Wp (Proc.devRef .tc main_arg5) := by
  unwritten opsA
theorem opsA_arg6 (Wp : Valuation τ sig (Elt Ideal)) :
    StableHlo.after (opsA (F := Ideal)) Wp (Proc.devRef .tc main_arg6) = Wp (Proc.devRef .tc main_arg6) := by
  unwritten opsA
theorem opsA_arg7 (Wp : Valuation τ sig (Elt Ideal)) :
    StableHlo.after (opsA (F := Ideal)) Wp (Proc.devRef .tc main_arg7) = Wp (Proc.devRef .tc main_arg7) := by
  unwritten opsA

theorem opsB_v3 (Wp : Valuation τ sig (Elt Ideal)) :
    StableHlo.after (opsB (F := Ideal)) Wp (Proc.devRef .tc main_v3) = Wp (Proc.devRef .tc main_v3) := by
  unwritten opsB
theorem opsB_v6 (Wp : Valuation τ sig (Elt Ideal)) :
    StableHlo.after (opsB (F := Ideal)) Wp (Proc.devRef .tc main_v6) = Wp (Proc.devRef .tc main_v6) := by
  unwritten opsB
theorem opsB_v31 (Wp : Valuation τ sig (Elt Ideal)) :
    StableHlo.after (opsB (F := Ideal)) Wp (Proc.devRef .tc main_v31) = Wp (Proc.devRef .tc main_v31) := by
  unwritten opsB
theorem opsB_arg4 (Wp : Valuation τ sig (Elt Ideal)) :
    StableHlo.after (opsB (F := Ideal)) Wp (Proc.devRef .tc main_arg4) = Wp (Proc.devRef .tc main_arg4) := by
  unwritten opsB
theorem opsB_arg5 (Wp : Valuation τ sig (Elt Ideal)) :
    StableHlo.after (opsB (F := Ideal)) Wp (Proc.devRef .tc main_arg5) = Wp (Proc.devRef .tc main_arg5) := by
  unwritten opsB
theorem opsB_arg6 (Wp : Valuation τ sig (Elt Ideal)) :
    StableHlo.after (opsB (F := Ideal)) Wp (Proc.devRef .tc main_arg6) = Wp (Proc.devRef .tc main_arg6) := by
  unwritten opsB
theorem opsB_arg7 (Wp : Valuation τ sig (Elt Ideal)) :
    StableHlo.after (opsB (F := Ideal)) Wp (Proc.devRef .tc main_arg7) = Wp (Proc.devRef .tc main_arg7) := by
  unwritten opsB

theorem opsC_v3 (Wp : Valuation τ sig (Elt Ideal)) :
    StableHlo.after (opsC (F := Ideal)) Wp (Proc.devRef .tc main_v3) = Wp (Proc.devRef .tc main_v3) := by
  unwritten opsC
theorem opsC_v6 (Wp : Valuation τ sig (Elt Ideal)) :
    StableHlo.after (opsC (F := Ideal)) Wp (Proc.devRef .tc main_v6) = Wp (Proc.devRef .tc main_v6) := by
  unwritten opsC
theorem opsC_v31 (Wp : Valuation τ sig (Elt Ideal)) :
    StableHlo.after (opsC (F := Ideal)) Wp (Proc.devRef .tc main_v31) = Wp (Proc.devRef .tc main_v31) := by
  unwritten opsC
theorem opsC_arg6 (Wp : Valuation τ sig (Elt Ideal)) :
    StableHlo.after (opsC (F := Ideal)) Wp (Proc.devRef .tc main_arg6) = Wp (Proc.devRef .tc main_arg6) := by
  unwritten opsC
theorem opsC_arg7 (Wp : Valuation τ sig (Elt Ideal)) :
    StableHlo.after (opsC (F := Ideal)) Wp (Proc.devRef .tc main_arg7) = Wp (Proc.devRef .tc main_arg7) := by
  unwritten opsC

/-- The reference program's result array: the three-layer network of the launch contents, its edge weights made from
    the node factors of the destination indices. -/
theorem ref_out (m : (ℓ : Loc nD τ sig) → Buf (Elt Ideal) ℓ) (c : Dev nD) :
    Cert.ReferenceIdeal.ValueP.res_main_v84 (F := Ideal) m c
      = RefLayer.net (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7))
          (Edges.disOf (Edges.dstOf (m ((c.tc : Thread nD τ).loc main_arg1))))
          (Edges.srcOf (m ((c.tc : Thread nD τ).loc main_arg1))) (Edges.dstOf (m ((c.tc : Thread nD τ).loc main_arg1))) := by
  unfold Cert.ReferenceIdeal.ValueP.res_main_v84
  rw [ops_split, after_append, after_append, after_append,
    layer3, opsC_arg6, opsC_arg7, opsC_v31, opsC_v3, opsC_v6,
    layer2, opsB_arg4, opsB_arg5, opsB_arg6, opsB_arg7, opsB_v31, opsB_v3, opsB_v6,
    layer1, opsA_arg0, opsA_arg2, opsA_arg3, opsA_arg4, opsA_arg5, opsA_arg6, opsA_arg7, opsA_v31, opsA_v3, opsA_v6]
  rfl

end Cert.Bridge.RefHost

end
-- ==== Proof.RefValue.lean ====
/-
  The reference program's result array at an entry, as the network normalised at the edges.

  The reference program is host operations only: it forms every edge's weight (the product of the factors of its
  two end nodes) once, and in each of its three layers maps the node features by the layer's matrix, gathers the rows
  at the edges' sources, scales each by its edge's weight, sums by destination, and adds the bias (clamping at zero
  after the first two layers). Its result buffer after the run is that composite of host operations of the argument
  arrays; read at an entry it is the specification's three edge-normalised layers.
-/
import proofs.«113922_j7919919694018_2_alg».proof.Proof.RefRun
import proofs.«113922_j7919919694018_2_alg».proof.Proof.RefHost
import proofs.«113922_j7919919694018_2_alg».proof.Proof.RefLayer
import proofs.«113922_j7919919694018_2_alg».proof.Proof.Edges
import proofs.«113922_j7919919694018_2_alg».proof.Proof.Spec

noncomputable section

namespace Cert.Bridge.RefValue

open Cert.ReferenceIdeal Cert.ReferenceIdeal.Gen Idealize.ShloMosaic Idealize.ShloMosaic.TcCoe Idealize.SL.Sem Idealize.ShloMosaic.ValueIdx
open Cert.Bridge

/-- The reference program's result buffer after its run, read at (n, q), for the argument arrays named: the network
    normalised at the edges. -/
theorem ref_result (m : (ℓ : Loc nD τ sig) → Buf (Elt Ideal) ℓ) (c : Dev nD) (n : Fin 100000) (q : Fin 64)
    (x0 : S100000x128.Idx → EReal) (x1 : IVec Edges.SEI 32) (x2 : S128x64.Idx → EReal) (x3 : S64.Idx → EReal) (x4 : S64x64.Idx → EReal)
    (x5 : S64.Idx → EReal) (x6 : S64x64.Idx → EReal) (x7 : S64.Idx → EReal)
    (h0 : m ((c.tc : Thread nD τ).loc main_arg0) = x0) (h1 : m ((c.tc : Thread nD τ).loc main_arg1) = x1) (h2 : m ((c.tc : Thread nD τ).loc main_arg2) = x2)
    (h3 : m ((c.tc : Thread nD τ).loc main_arg3) = x3) (h4 : m ((c.tc : Thread nD τ).loc main_arg4) = x4) (h5 : m ((c.tc : Thread nD τ).loc main_arg5) = x5)
    (h6 : m ((c.tc : Thread nD τ).loc main_arg6) = x6) (h7 : m ((c.tc : Thread nD τ).loc main_arg7) = x7) :
    Cert.ReferenceIdeal.ValueP.res_main_v84 (F := Ideal) m c (ix2 n q)
      = Spec.outEdge (Spec.landOf (Edges.dstOf x1)) (Spec.srcRow (N := 100000) (by decide) (Edges.srcOf x1)) (fun p => Edges.disOf (Edges.dstOf x1) (ix1 p))
          (fun p k => x0 (ix2 p k)) (fun k q => x2 (ix2 k q)) (fun q => x3 (ix1 q)) (fun k q => x4 (ix2 k q)) (fun q => x5 (ix1 q))
          (fun k q => x6 (ix2 k q)) (fun q => x7 (ix1 q)) n q := by
  subst h0 h1 h2 h3 h4 h5 h6 h7
  rw [Cert.Bridge.RefHost.ref_out m c]
  exact Cert.Bridge.RefLayer.net_apply _ _ _ _ _ _ _ _ _ _ n q

end Cert.Bridge.RefValue

end
-- ==== Proof.lean ====
/-
  Three graph-convolution layers computed two ways: the kernel program scales node features by each node's factor
  before they travel along the edges and scales the sums again at the destination, sorting the edges by destination
  on the way and storing the travelling rows in a shorter float format; the reference program scales every message by
  the product of its two end nodes' factors. On the extended reals the two agree at every entry: a change of float
  format is the identity, a sum does not depend on the order of the edges, and a node's factor — the reciprocal square
  root of max(degree, 1) where the degree is positive, zero elsewhere: non-negative and never +infinity — moves across
  a finite sum whatever the summands are. No input needs to be finite for this, so the precondition is not opened.

  The three frames are the programs' own runs with the value dropped; the idealization rewrote nothing, so there is
  nothing to preserve; the kernel program's result is read off its run region by region and stretch by stretch, the
  reference's off its run, and the two readings meet in one specification.
-/
import proofs.«113922_j7919919694018_2_alg».proof.Defs
import proofs.«113922_j7919919694018_2_alg».proof.Proof.Gen.Kernel
import proofs.«113922_j7919919694018_2_alg».proof.Proof.Gen.Kernel.Frame
import proofs.«113922_j7919919694018_2_alg».proof.Proof.Gen.KernelIdeal
import proofs.«113922_j7919919694018_2_alg».proof.Proof.Gen.KernelIdeal.Frame
import proofs.«113922_j7919919694018_2_alg».proof.Proof.Gen.ReferenceIdeal
import proofs.«113922_j7919919694018_2_alg».proof.Proof.Gen.Pre_finite_inputs
import proofs.«113922_j7919919694018_2_alg».proof.Proof.RefRun
import proofs.«113922_j7919919694018_2_alg».proof.Proof.KRun
import proofs.«113922_j7919919694018_2_alg».proof.Proof.KValue
import proofs.«113922_j7919919694018_2_alg».proof.Proof.RefValue
import proofs.«113922_j7919919694018_2_alg».proof.Proof.EdgesRef
import proofs.«113922_j7919919694018_2_alg».proof.Proof.Spec
import proofs.«113922_j7919919694018_2_alg».proof.Proof.Edges
import Idealize.ShloMosaic.Adequacy
import Idealize.ShloMosaic.Init

noncomputable section

namespace Cert.Proof

open Idealize.ShloMosaic Idealize.ShloMosaic.TcCoe Idealize.SL.Sem Idealize.ShloMosaic.ValueIdx
open Cert.Bridge

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference program's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs run, and at every entry the kernel program's result — the
    network normalised at the nodes — is the reference's — the network normalised at the edges. -/
theorem algebraic : Cert.algebraic_KernelIdeal_ReferenceIdeal := by
  intro m ρ m' ρ' _ hagree
  refine ⟨fun c => Cert.KernelIdeal.Gen.W11 (F := Ideal) m ρ c (Proc.devRef .tc Cert.KernelIdeal.main_v72), Cert.Bridge.KRun.run_value m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨n, q, rfl⟩ : ∃ (n : Fin 100000) (q : Fin 64), i = ix2 n q := ⟨i 0, i 1, eq_ix2 i⟩
  obtain ⟨a0, a1, a2, a3, a4, a5, a6, a7⟩ := hagree c
  rw [Cert.Bridge.RefValue.ref_result m' c n q _ _ _ _ _ _ _ _ a0 a1 a2 a3 a4 a5 a6 a7]
  exact ((Cert.Bridge.KValue.kernel_result m ρ c n q _ _ _ _ _ _ _ _ rfl rfl rfl rfl rfl rfl rfl rfl).trans
    (Spec.outNode_eq_outEdge _ _ _ (Cert.Bridge.EdgesRef.disOf_nonneg _) (Cert.Bridge.EdgesRef.disOf_ne_top _) _ _ _ _ _ _ _ n q)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
